-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel

variable [Facts]

def fn {F : FTy → Type} [FloatOps F] (main_arg0 : FVec F S32x4096x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  main_v3
-- ==== Kernel.lean ====
abbrev S32x4096x256 : Shape := ⟨3, ![32, 4096, 256]⟩
abbrev S1x4096x128 : Shape := ⟨3, ![1, 4096, 128]⟩
abbrev S4096x128 : Shape := ⟨2, ![4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  iota_S4096x128_d0_w32 : S4096x128.Iotas .tc 32 [0]
  rotates_S4096x128_d0 : S4096x128.Rotates 0 none
  shapeCasts_S4096x128_S1x4096x128 : S4096x128.ShapeCasts S1x4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S32x4096x256.size a
  hwx0_0 : ∀ i : grid0.Coords, EltTy.bits .f32 = 32 ∨ (Rect.block (s := S32x4096x256) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S32x4096x256.size a
  hwx0_1 : ∀ i : grid0.Coords, EltTy.bits .f32 = 32 ∨ (Rect.block (s := S32x4096x256) S1x4096x128.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S_ : Shape := ⟨0, ![]⟩
abbrev S4096 : Shape := ⟨1, ![4096]⟩
abbrev S1x4096x1 : Shape := ⟨3, ![1, 4096, 1]⟩
abbrev S32x4096x256x1 : Shape := ⟨4, ![32, 4096, 256, 1]⟩
abbrev S1 : Shape := ⟨1, ![1]⟩
abbrev S1x1x1x1 : Shape := ⟨4, ![1, 1, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S_, .f32⟩
  | .hbm, ⟨2, _⟩ => ⟨S32x4096x256, .f32⟩
  | .hbm, ⟨3, _⟩ => ⟨S32x4096x256, .i1⟩
  | .hbm, ⟨4, _⟩ => ⟨S4096, .i32⟩
  | .hbm, ⟨5, _⟩ => ⟨S1x4096x1, .i32⟩
  | .hbm, ⟨6, _⟩ => ⟨S_, .i32⟩
  | .hbm, ⟨7, _⟩ => ⟨S_, .i32⟩
  | .hbm, ⟨8, _⟩ => ⟨S32x4096x256, .i32⟩
  | .hbm, ⟨9, _⟩ => ⟨S32x4096x256, .i32⟩
  | .hbm, ⟨10, _⟩ => ⟨S32x4096x256, .i32⟩
  | .hbm, ⟨11, _⟩ => ⟨S_, .i32⟩
  | .hbm, ⟨12, _⟩ => ⟨S_, .i32⟩
  | .hbm, ⟨13, _⟩ => ⟨S32x4096x256, .i32⟩
  | .hbm, ⟨14, _⟩ => ⟨S_, .i32⟩
  | .hbm, ⟨15, _⟩ => ⟨S_, .i32⟩
  | .hbm, ⟨16, _⟩ => ⟨S32x4096x256, .i32⟩
  | .hbm, ⟨17, _⟩ => ⟨S32x4096x256, .i32⟩
  | .hbm, ⟨18, _⟩ => ⟨S32x4096x256, .i32⟩
  | .hbm, ⟨19, _⟩ => ⟨S_, .i32⟩
  | .hbm, ⟨20, _⟩ => ⟨S_, .i32⟩
  | .hbm, ⟨21, _⟩ => ⟨S32x4096x256, .i32⟩
  | .hbm, ⟨22, _⟩ => ⟨S32x4096x256, .i1⟩
  | .hbm, ⟨23, _⟩ => ⟨S_, .i32⟩
  | .hbm, ⟨24, _⟩ => ⟨S32x4096x256, .i32⟩
  | .hbm, ⟨25, _⟩ => ⟨S32x4096x256, .i1⟩
  | .hbm, ⟨26, _⟩ => ⟨S32x4096x256, .i1⟩
  | .hbm, ⟨27, _⟩ => ⟨S_, .i32⟩
  | .hbm, ⟨28, _⟩ => ⟨S32x4096x256, .i32⟩
  | .hbm, ⟨29, _⟩ => ⟨S32x4096x256, .i1⟩
  | .hbm, ⟨30, _⟩ => ⟨S32x4096x256, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S32x4096x256, .i32⟩
  | .hbm, ⟨35, _⟩ => ⟨S32x4096x256, .i32⟩
  | .hbm, ⟨36, _⟩ => ⟨S_, .i32⟩
  | .hbm, ⟨37, _⟩ => ⟨S32x4096x256, .i32⟩
  | .hbm, ⟨38, _⟩ => ⟨S32x4096x256, .i32⟩
  | .hbm, ⟨39, _⟩ => ⟨S_, .i32⟩
  | .hbm, ⟨40, _⟩ => ⟨S32x4096x256, .i32⟩
  | .hbm, ⟨41, _⟩ => ⟨S32x4096x256, .i1⟩
  | .hbm, ⟨42, _⟩ => ⟨S_, .i32⟩
  | .hbm, ⟨43, _⟩ => ⟨S32x4096x256, .i32⟩
  | .hbm, ⟨44, _⟩ => ⟨S32x4096x256, .i32⟩
  | .hbm, ⟨45, _⟩ => ⟨S32x4096x256, .i32⟩
  | .hbm, ⟨46, _⟩ => ⟨S32x4096x256x1, .i32⟩
  | .hbm, ⟨47, _⟩ => ⟨S1, .i32⟩
  | .hbm, ⟨48, _⟩ => ⟨S_, .i32⟩
  | .hbm, ⟨49, _⟩ => ⟨S32x4096x256x1, .i32⟩
  | .hbm, ⟨50, _⟩ => ⟨S32x4096x256x1, .i1⟩
  | .hbm, ⟨51, _⟩ => ⟨S1x1x1x1, .i32⟩
  | .hbm, ⟨52, _⟩ => ⟨S32x4096x256x1, .i32⟩
  | .hbm, ⟨53, _⟩ => ⟨S32x4096x256x1, .i1⟩
  | .hbm, ⟨54, _⟩ => ⟨S32x4096x256x1, .i1⟩
  | .hbm, ⟨55, _⟩ => ⟨S_, .i1⟩
  | .hbm, ⟨56, _⟩ => ⟨S32x4096x256, .i1⟩
  | .hbm, ⟨57, _⟩ => ⟨S32x4096x256, .f32⟩
  | .hbm, ⟨58, _⟩ => ⟨S_, .f32⟩
  | .hbm, ⟨59, _⟩ => ⟨S32x4096x256, .f32⟩
  | .hbm, ⟨60, _⟩ => ⟨S32x4096x256, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S32x4096x256, .i32⟩
  | .hbm, ⟨65, _⟩ => ⟨S32x4096x256, .i32⟩
  | .hbm, ⟨66, _⟩ => ⟨S_, .i32⟩
  | .hbm, ⟨67, _⟩ => ⟨S32x4096x256, .i32⟩
  | .hbm, ⟨68, _⟩ => ⟨S32x4096x256, .i32⟩
  | .hbm, ⟨69, _⟩ => ⟨S_, .i32⟩
  | .hbm, ⟨70, _⟩ => ⟨S32x4096x256, .i32⟩
  | .hbm, ⟨71, _⟩ => ⟨S32x4096x256, .i1⟩
  | .hbm, ⟨72, _⟩ => ⟨S_, .i32⟩
  | .hbm, ⟨73, _⟩ => ⟨S32x4096x256, .i32⟩
  | .hbm, ⟨74, _⟩ => ⟨S32x4096x256, .i32⟩
  | .hbm, ⟨75, _⟩ => ⟨S32x4096x256, .i32⟩
  | .hbm, ⟨76, _⟩ => ⟨S32x4096x256x1, .i32⟩
  | .hbm, ⟨77, _⟩ => ⟨S1, .i32⟩
  | .hbm, ⟨78, _⟩ => ⟨S_, .i32⟩
  | .hbm, ⟨79, _⟩ => ⟨S32x4096x256x1, .i32⟩
  | .hbm, ⟨80, _⟩ => ⟨S32x4096x256x1, .i1⟩
  | .hbm, ⟨81, _⟩ => ⟨S1x1x1x1, .i32⟩
  | .hbm, ⟨82, _⟩ => ⟨S32x4096x256x1, .i32⟩
  | .hbm, ⟨83, _⟩ => ⟨S32x4096x256x1, .i1⟩
  | .hbm, ⟨84, _⟩ => ⟨S32x4096x256x1, .i1⟩
  | .hbm, ⟨85, _⟩ => ⟨S_, .i1⟩
  | .hbm, ⟨86, _⟩ => ⟨S32x4096x256, .i1⟩
  | .hbm, ⟨87, _⟩ => ⟨S32x4096x256, .f32⟩
  | .hbm, ⟨88, _⟩ => ⟨S_, .f32⟩
  | .hbm, ⟨89, _⟩ => ⟨S32x4096x256, .f32⟩
  | .hbm, ⟨90, _⟩ => ⟨S32x4096x256, .f32⟩
  | .hbm, ⟨91, _⟩ => ⟨S32x4096x256, .i32⟩
  | .hbm, ⟨92, _⟩ => ⟨S_, .i32⟩
  | .hbm, ⟨93, _⟩ => ⟨S32x4096x256, .i32⟩
  | .hbm, ⟨94, _⟩ => ⟨S32x4096x256, .i32⟩
  | .hbm, ⟨95, _⟩ => ⟨S32x4096x256, .i32⟩
  | .hbm, ⟨96, _⟩ => ⟨S32x4096x256, .i32⟩
  | .hbm, ⟨97, _⟩ => ⟨S_, .i32⟩
  | .hbm, ⟨98, _⟩ => ⟨S32x4096x256, .i32⟩
  | .hbm, ⟨99, _⟩ => ⟨S32x4096x256, .i32⟩
  | .hbm, ⟨100, _⟩ => ⟨S_, .i32⟩
  | .hbm, ⟨101, _⟩ => ⟨S32x4096x256, .i32⟩
  | .hbm, ⟨102, _⟩ => ⟨S32x4096x256, .i32⟩
  | .hbm, ⟨103, _⟩ => ⟨S_, .i32⟩
  | .hbm, ⟨104, _⟩ => ⟨S32x4096x256, .i32⟩
  | .hbm, ⟨105, _⟩ => ⟨S32x4096x256, .i32⟩
  | .hbm, ⟨106, _⟩ => ⟨S32x4096x256, .f32⟩
  | .hbm, ⟨107, _⟩ => ⟨S32x4096x256, .f32⟩
  | .hbm, ⟨108, _⟩ => ⟨S32x4096x256, .f32⟩
  | .hbm, ⟨109, _⟩ => ⟨S32x4096x256, .f32⟩
  | .hbm, ⟨110, _⟩ => ⟨S32x4096x256, .f32⟩
  | .hbm, ⟨111, _⟩ => ⟨S32x4096x256, .f32⟩
  | .hbm, ⟨112, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_v5 : Ref sig .tc := ⟨.hbm, 13, rfl⟩
abbrev main_c_0 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v6 : Ref sig .tc := ⟨.hbm, 18, rfl⟩
abbrev main_call3_c : Ref sig .tc := ⟨.hbm, 19, rfl⟩
abbrev main_call3_v0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_c_4 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v15 : Ref sig .tc := ⟨.hbm, 38, rfl⟩
abbrev main_call5_c : Ref sig .tc := ⟨.hbm, 39, rfl⟩
abbrev main_call5_v0 : Ref sig .tc := ⟨.hbm, 40, rfl⟩
abbrev main_call5_v1 : Ref sig .tc := ⟨.hbm, 41, rfl⟩
abbrev main_call5_c_0 : Ref sig .tc := ⟨.hbm, 42, rfl⟩
abbrev main_call5_v2 : Ref sig .tc := ⟨.hbm, 43, rfl⟩
abbrev main_call5_v3 : Ref sig .tc := ⟨.hbm, 44, rfl⟩
abbrev main_call5_v4 : Ref sig .tc := ⟨.hbm, 45, rfl⟩
abbrev main_call5_v5 : Ref sig .tc := ⟨.hbm, 46, rfl⟩
abbrev main_call5_c_1 : Ref sig .tc := ⟨.hbm, 47, rfl⟩
abbrev main_call5_c_2 : Ref sig .tc := ⟨.hbm, 48, rfl⟩
abbrev main_call5_v6 : Ref sig .tc := ⟨.hbm, 49, rfl⟩
abbrev main_call5_v7 : Ref sig .tc := ⟨.hbm, 50, rfl⟩
abbrev main_call5_v8 : Ref sig .tc := ⟨.hbm, 51, rfl⟩
abbrev main_call5_v9 : Ref sig .tc := ⟨.hbm, 52, rfl⟩
abbrev main_call5_v10 : Ref sig .tc := ⟨.hbm, 53, rfl⟩
abbrev main_call5_v11 : Ref sig .tc := ⟨.hbm, 54, rfl⟩
abbrev main_call5_c_3 : Ref sig .tc := ⟨.hbm, 55, rfl⟩
abbrev main_call5_v12 : Ref sig .tc := ⟨.hbm, 56, rfl⟩
abbrev main_call5_v13 : Ref sig .tc := ⟨.hbm, 57, rfl⟩
abbrev main_call5_cst : Ref sig .tc := ⟨.hbm, 58, rfl⟩
abbrev main_call5_v14 : Ref sig .tc := ⟨.hbm, 59, rfl⟩
abbrev main_v16 : Ref sig .tc := ⟨.hbm, 60, rfl⟩
abbrev main_c_5 : Ref sig .tc := ⟨.hbm, 61, rfl⟩
abbrev main_c_6 : Ref sig .tc := ⟨.hbm, 62, rfl⟩
abbrev main_call6_v0 : Ref sig .tc := ⟨.hbm, 63, rfl⟩
abbrev main_call6_v1 : Ref sig .tc := ⟨.hbm, 64, rfl⟩
abbrev main_call6_v2 : Ref sig .tc := ⟨.hbm, 65, rfl⟩
abbrev main_call6_v3 : Ref sig .tc := ⟨.hbm, 66, rfl⟩
abbrev main_call6_v4 : Ref sig .tc := ⟨.hbm, 67, rfl⟩
abbrev main_v17 : Ref sig .tc := ⟨.hbm, 68, rfl⟩
abbrev main_call7_c : Ref sig .tc := ⟨.hbm, 69, rfl⟩
abbrev main_call7_v0 : Ref sig .tc := ⟨.hbm, 70, rfl⟩
abbrev main_call7_v1 : Ref sig .tc := ⟨.hbm, 71, rfl⟩
abbrev main_call7_c_0 : Ref sig .tc := ⟨.hbm, 72, rfl⟩
abbrev main_call7_v2 : Ref sig .tc := ⟨.hbm, 73, rfl⟩
abbrev main_call7_v3 : Ref sig .tc := ⟨.hbm, 74, rfl⟩
abbrev main_call7_v4 : Ref sig .tc := ⟨.hbm, 75, rfl⟩
abbrev main_call7_v5 : Ref sig .tc := ⟨.hbm, 76, rfl⟩
abbrev main_call7_c_1 : Ref sig .tc := ⟨.hbm, 77, rfl⟩
abbrev main_call7_c_2 : Ref sig .tc := ⟨.hbm, 78, rfl⟩
abbrev main_call7_v6 : Ref sig .tc := ⟨.hbm, 79, rfl⟩
abbrev main_call7_v7 : Ref sig .tc := ⟨.hbm, 80, rfl⟩
abbrev main_call7_v8 : Ref sig .tc := ⟨.hbm, 81, rfl⟩
abbrev main_call7_v9 : Ref sig .tc := ⟨.hbm, 82, rfl⟩
abbrev main_call7_v10 : Ref sig .tc := ⟨.hbm, 83, rfl⟩
abbrev main_call7_v11 : Ref sig .tc := ⟨.hbm, 84, rfl⟩
abbrev main_call7_c_3 : Ref sig .tc := ⟨.hbm, 85, rfl⟩
abbrev main_call7_v12 : Ref sig .tc := ⟨.hbm, 86, rfl⟩
abbrev main_call7_v13 : Ref sig .tc := ⟨.hbm, 87, rfl⟩
abbrev main_call7_cst : Ref sig .tc := ⟨.hbm, 88, rfl⟩
abbrev main_call7_v14 : Ref sig .tc := ⟨.hbm, 89, rfl⟩
abbrev main_v18 : Ref sig .tc := ⟨.hbm, 90, rfl⟩
abbrev main_v19 : Ref sig .tc := ⟨.hbm, 91, rfl⟩
abbrev main_c_7 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_c_8 : Ref sig .tc := ⟨.hbm, 97, rfl⟩
abbrev main_v24 : Ref sig .tc := ⟨.hbm, 98, rfl⟩
abbrev main_v25 : Ref sig .tc := ⟨.hbm, 99, rfl⟩
abbrev main_c_9 : Ref sig .tc := ⟨.hbm, 100, rfl⟩
abbrev main_v26 : Ref sig .tc := ⟨.hbm, 101, rfl⟩
abbrev main_v27 : Ref sig .tc := ⟨.hbm, 102, rfl⟩
abbrev main_c_10 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩

abbrev nD : Nat := 1
abbrev τ : Topo := Topo.v7x

variable {F : FTy → Type} [FloatOps F]

class Facts₀ : Prop where
  bcast_S_S32x4096x256 : S_.BroadcastsInDim S32x4096x256 (![] : Fin 0 → Fin S32x4096x256.rank)
  bcast_S4096_S1x4096x1_1 : S4096.BroadcastsInDim S1x4096x1 (![1] : Fin 1 → Fin S1x4096x1.rank)
  bcast_S1x4096x1_S32x4096x256_0_1_2 : S1x4096x1.BroadcastsInDim S32x4096x256 (![0, 1, 2] : Fin 3 → Fin S32x4096x256.rank)
  bcast_S_S_ : S_.BroadcastsInDim S_ (![] : Fin 0 → Fin S_.rank)
  reduceWindows_S32x4096x256_S32x4096x256_w1s1p0_0_w4096s1p4095_0_w1s1p0_0 : S32x4096x256.ReduceWindows (![1, 4096, 1] : Fin 3 → Nat) ![1, 1, 1] ![0, 4095, 0] ![0, 0, 0] S32x4096x256
  h_S_ : 0 < S_.numel
  reduceWindows_S32x4096x256_S32x4096x256_w1s1p0_0_w4096s1p0_4095_w1s1p0_0 : S32x4096x256.ReduceWindows (![1, 4096, 1] : Fin 3 → Nat) ![1, 1, 1] ![0, 0, 0] ![0, 4095, 0] S32x4096x256
  shapeCasts_S32x4096x256_S32x4096x256x1 : S32x4096x256.ShapeCasts S32x4096x256x1
  bcast_S_S32x4096x256x1 : S_.BroadcastsInDim S32x4096x256x1 (![] : Fin 0 → Fin S32x4096x256x1.rank)
  bcast_S1_S1x1x1x1_3 : S1.BroadcastsInDim S1x1x1x1 (![3] : Fin 1 → Fin S1x1x1x1.rank)
  bcast_S1x1x1x1_S32x4096x256x1_0_1_2_3 : S1x1x1x1.BroadcastsInDim S32x4096x256x1 (![0, 1, 2, 3] : Fin 4 → Fin S32x4096x256x1.rank)
  reducesTo_S32x4096x256x1_S32x4096x256_d3 : S32x4096x256x1.ReducesTo [3] S32x4096x256
  gather_S32x4096x256_S32x4096x256x1_S32x4096x256_n_1_02_02_1_3_111_wf : GatherDims.WF S32x4096x256 S32x4096x256x1 S32x4096x256 [] [1] [0, 2] [1] [0, 2] 3 ![1, 1, 1]

variable [Facts₀]

def gather_S32x4096x256_S32x4096x256x1_S32x4096x256_n_1_02_02_1_3_111 : GatherDims S32x4096x256 S32x4096x256x1 S32x4096x256 where
  offsetDims := []
  collapsedSliceDims := [1]
  operandBatchingDims := [0, 2]
  startIndicesBatchingDims := [0, 2]
  startIndexMap := [1]
  indexVectorDim := 3
  sliceSizes := ![1, 1, 1]
  wf := gather_S32x4096x256_S32x4096x256x1_S32x4096x256_n_1_02_02_1_3_111_wf

class Facts : Prop extends Facts₀ where

variable [Facts]
-- ==== Proof.Spec.lean ====
/-
  The mathematics both programs share, stated for ONE column of the array — the entries along the time axis at a fixed
  batch and feature — as a function `col : Nat → EReal` (only positions below 4096 are ever read).

  A position is MARKED when the column is nonzero there.  `IsLast v w i p`: `p` is the last marked position among the
  `w` positions ending at `i`, and `-1` when none of them is marked.  `IsFirst T v w i n`: `n` is the first marked
  position among the `w` positions starting at `i` that lie below `T`, and `T` when none is.  Each determines its
  value (`unique`), and a window of `w + w'` positions is answered from the answers for its two parts (`double`):
  that is one step of a doubling scan.  A running maximum (minimum) of "position if marked, else -1 (else T)" is
  characterised by the same two clauses.

  `fill col r p n` is the value written at position `r` given the two neighbours `p`, `n` as 32-bit words: where the
  column is zero at `r` and both neighbours exist, the point of the straight line from `col p` to `col n` that is
  `r - p - 1` steps out of `max (n - p - 2) 1`; elsewhere the column's own entry.
-/
import Idealize.ShloMosaic.PureOps.Ideal
import Idealize.ShloMosaic.Lib.ValueIdx

noncomputable section

namespace Cert.Impute

open Idealize.ShloMosaic

/-- `p` is the last marked position among the `w` positions ending at `i`; `-1` when none is marked. -/
def IsLast (v : Nat → Prop) (w i : Nat) (p : Int) : Prop :=
  (p = -1 ∨ ((i : Int) - w < p ∧ 0 ≤ p ∧ p ≤ i ∧ v p.toNat)) ∧
    ∀ s : Nat, (i : Int) - w < s → s ≤ i → v s → (s : Int) ≤ p

/-- `n` is the first marked position among the `w` positions starting at `i` that lie below `T`; `T` when none is. -/
def IsFirst (T : Nat) (v : Nat → Prop) (w i : Nat) (n : Int) : Prop :=
  (n = T ∨ ((i : Int) ≤ n ∧ n < i + w ∧ n < T ∧ v n.toNat)) ∧
    ∀ s : Nat, i ≤ s → s < i + w → s < T → v s → n ≤ (s : Int)

variable {v : Nat → Prop}

theorem IsLast.unique {w i : Nat} {p q : Int} (hp : IsLast v w i p) (hq : IsLast v w i q) : p = q := by
  obtain ⟨hp1, hp2⟩ := hp
  obtain ⟨hq1, hq2⟩ := hq
  rcases hp1 with rfl | ⟨a1, a2, a3, a4⟩ <;> rcases hq1 with rfl | ⟨b1, b2, b3, b4⟩
  · rfl
  · have := hp2 q.toNat (by omega) (by omega) b4; omega
  · have := hq2 p.toNat (by omega) (by omega) a4; omega
  · have h1 := hp2 q.toNat (by omega) (by omega) b4
    have h2 := hq2 p.toNat (by omega) (by omega) a4
    omega

theorem IsFirst.unique {T w i : Nat} {p q : Int} (hp : IsFirst T v w i p) (hq : IsFirst T v w i q) : p = q := by
  obtain ⟨hp1, hp2⟩ := hp
  obtain ⟨hq1, hq2⟩ := hq
  rcases hp1 with rfl | ⟨a1, a2, a3, a4⟩ <;> rcases hq1 with rfl | ⟨b1, b2, b3, b4⟩
  · rfl
  · have := hp2 q.toNat (by omega) (by omega) (by omega) b4; omega
  · have := hq2 p.toNat (by omega) (by omega) (by omega) a4; omega
  · have h1 := hp2 q.toNat (by omega) (by omega) (by omega) b4
    have h2 := hq2 p.toNat (by omega) (by omega) (by omega) a4
    omega

/-- One doubling step backwards in time: if the `w` positions ending at `i` hold no marked one, the answer for
    `w + w'` positions is the answer for the `w'` positions ending at `i - w` (there are none when `i < w`). -/
theorem IsLast.double {w w' i : Nat} {p q : Int} (h1 : IsLast v w i p) (h2 : w ≤ i → IsLast v w' (i - w) q) :
    IsLast v (w + w') i (if p < 0 ∧ w ≤ i then q else p) := by
  obtain ⟨h1a, h1b⟩ := h1
  split
  · rename_i hc
    obtain ⟨hneg, hwi⟩ := hc
    obtain ⟨h2a, h2b⟩ := h2 hwi
    refine ⟨?_, ?_⟩
    · rcases h2a with h | ⟨c1, c2, c3, c4⟩
      · exact Or.inl h
      · exact Or.inr ⟨by push_cast at c1 ⊢; omega, c2, by omega, c4⟩
    · intro s hs1 hs2 hv
      by_cases hs : (i : Int) - w < s
      · have := h1b s hs hs2 hv; omega
      · exact h2b s (by push_cast at hs1 ⊢; omega) (by omega) hv
  · rename_i hc
    refine ⟨?_, ?_⟩
    · rcases h1a with h | ⟨c1, c2, c3, c4⟩
      · exact Or.inl h
      · exact Or.inr ⟨by push_cast; omega, c2, c3, c4⟩
    · intro s hs1 hs2 hv
      by_cases hs : (i : Int) - w < s
      · exact h1b s hs hs2 hv
      · rcases h1a with h | ⟨c1, c2, c3, c4⟩
        · exact absurd ⟨by omega, by omega⟩ hc
        · omega

/-- One doubling step forwards in time. -/
theorem IsFirst.double {T w w' i : Nat} {n q : Int} (h1 : IsFirst T v w i n)
    (h2 : i + w < T → IsFirst T v w' (i + w) q) :
    IsFirst T v (w + w') i (if (T : Int) ≤ n ∧ i + w < T then q else n) := by
  obtain ⟨h1a, h1b⟩ := h1
  split
  · rename_i hc
    obtain ⟨hge, hlt⟩ := hc
    obtain ⟨h2a, h2b⟩ := h2 hlt
    refine ⟨?_, ?_⟩
    · rcases h2a with h | ⟨c1, c2, c3, c4⟩
      · exact Or.inl h
      · exact Or.inr ⟨by push_cast at c1 ⊢; omega, by push_cast at c2 ⊢; omega, c3, c4⟩
    · intro s hs1 hs2 hs3 hv
      by_cases hs : s < i + w
      · have := h1b s hs1 hs hs3 hv; omega
      · exact h2b s (by omega) (by omega) hs3 hv
  · rename_i hc
    refine ⟨?_, ?_⟩
    · rcases h1a with h | ⟨c1, c2, c3, c4⟩
      · exact Or.inl h
      · exact Or.inr ⟨c1, by push_cast; omega, c3, c4⟩
    · intro s hs1 hs2 hs3 hv
      by_cases hs : s < i + w
      · exact h1b s hs1 hs hs3 hv
      · rcases h1a with h | ⟨c1, c2, c3, c4⟩
        · exact absurd ⟨by omega, by omega⟩ hc
        · omega

/-- A window that already reaches position `0` answers for every longer one. -/
theorem IsLast.widen {w w' i : Nat} {p : Int} (h : IsLast v w i p) (hw : i < w) (hw' : w ≤ w') : IsLast v w' i p := by
  obtain ⟨ha, hb⟩ := h
  refine ⟨?_, fun s _ hs2 hv => hb s (by omega) hs2 hv⟩
  rcases ha with h | ⟨c1, c2, c3, c4⟩
  · exact Or.inl h
  · exact Or.inr ⟨by omega, c2, c3, c4⟩

/-- The column of a [32, 4096, 256] array at batch `b` and feature `c`, as a function of the position in time (zero
    beyond position 4095, which is never read). -/
def colOf (x : (⟨3, ![32, 4096, 256]⟩ : Shape).Idx → EReal) (b : Fin 32) (c : Fin 256) : Nat → EReal :=
  fun s => if h : s < 4096 then x (ValueIdx.ix3 b ⟨s, h⟩ c) else 0

theorem colOf_lt (x : (⟨3, ![32, 4096, 256]⟩ : Shape).Idx → EReal) (b : Fin 32) (c : Fin 256) (s : Fin 4096) :
    colOf x b c s.val = x (ValueIdx.ix3 b s c) := by
  unfold colOf; rw [dif_pos s.isLt]

/-- The value written at position `r` of a column, given its two neighbours as 32-bit words. -/
def fill (col : Nat → EReal) (r : Nat) (p n : BitVec 32) : EReal :=
  if col r = 0 ∧ 0 ≤ p.toInt ∧ n.toInt < 4096 then
    col p.toInt.toNat + (col n.toInt.toNat - col p.toInt.toNat) *
      Ideal.div (((IntOp.subi (IntOp.subi (BitVec.ofNat 32 r) p) 1#32).toInt : ℝ) : EReal)
        (((IntOp.maxsi (IntOp.subi (IntOp.subi (IntOp.subi n p) 1#32) 1#32) 1#32).toInt : ℝ) : EReal)
  else col r

/-- Words and the integers they denote, for the few literals the two programs use. -/
theorem toInt_ofNat_small {i : Nat} (h : i < 4096) : (BitVec.ofNat 32 i).toInt = i := by
  rw [BitVec.toInt_eq_toNat_cond, BitVec.toNat_ofNat]
  have h2 : i % 2 ^ 32 = i := Nat.mod_eq_of_lt (by omega)
  rw [h2, if_pos (by omega)]

theorem toInt_neg_one : (4294967295#32 : BitVec 32).toInt = -1 := by decide
theorem toInt_zero32 : (0#32 : BitVec 32).toInt = 0 := by decide
theorem toInt_4096 : (4096#32 : BitVec 32).toInt = 4096 := by decide
theorem toInt_4095 : (4095#32 : BitVec 32).toInt = 4095 := by decide

end Cert.Impute

end
-- ==== Proof.Scan.lean ====
/-
  The kernel's body as a doubling scan.  One grid point holds a block of 4096 time positions by 128 features.  The body
  keeps, per entry, a pair (position, value): going backwards in time, the last nonzero entry found so far and the
  array's value there; going forwards, the first one.  A step with shift `d` lets an entry that has found nothing
  yet take the pair of the entry `d` positions away (a rotation along the time axis, masked so that nothing wraps
  around the end).  Twelve steps with shifts 1, 2, 4, …, 2048 cover all 4096 positions.  The last lines turn the two
  pairs into the interpolated value.

  `stepF`, `stepB` are one step of each scan, `fwd`, `bwd` the twelve steps, `tail` the last lines, and
  `body_eq` says that what the body leaves in the output block is exactly that composition.
-/
import proofs.«100392_j29815662968983_1_alg».proof.Proof.Gen.KernelIdeal.Frame
import Idealize.ShloMosaic.Lib.ValueIdx

set_option maxRecDepth 65536

noncomputable section

namespace Cert.Impute

open Idealize.ShloMosaic Idealize.ShloMosaic.ValueIdx Cert.KernelIdeal Cert.KernelIdeal.Gen

variable {F : FTy → Type} [FloatOps F]

/-- The time position of every entry of a block. -/
abbrev tvec : IVec S4096x128 32 := iota .tc S4096x128 32 [0] iota_S4096x128_d0_w32

/-- An entry takes over its neighbour's pair in a backward-looking step with shift `d`: it has found nothing yet
    (its position word is negative) and it has a neighbour `d` positions earlier. -/
def condF (d : BitVec 32) (idx : IVec S4096x128 32) : IVec S4096x128 1 :=
  andi (cmpi .slt idx (broadcast S4096x128 0#32)) (cmpi .sge tvec (broadcast S4096x128 d))

/-- One backward-looking step on one component of the pair. -/
def stepF {α : Type} (d : BitVec 32) (idx : IVec S4096x128 32) (a : S4096x128.Idx → α) : S4096x128.Idx → α :=
  select (condF d idx) (dynamicRotate 0 d none a rotates_S4096x128_d0) a

/-- An entry takes over its neighbour's pair in a forward-looking step rotating by `e = 4096 - d`: it has found
    nothing yet (its position word is at least 4096) and it has a neighbour `d` positions later (its position is
    below `e`). -/
def condB (e : BitVec 32) (idx : IVec S4096x128 32) : IVec S4096x128 1 :=
  andi (cmpi .sge idx (broadcast S4096x128 4096#32)) (cmpi .slt tvec (broadcast S4096x128 e))

/-- One forward-looking step on one component of the pair. -/
def stepB {α : Type} (e : BitVec 32) (idx : IVec S4096x128 32) (a : S4096x128.Idx → α) : S4096x128.Idx → α :=
  select (condB e idx) (dynamicRotate 0 e none a rotates_S4096x128_d0) a

/-- The backward-looking scan: positions and values after the twelve steps. -/
def fwd (x1 : FVec F S4096x128 .f32) (valid : IVec S4096x128 1) : IVec S4096x128 32 × FVec F S4096x128 .f32 :=
  let i0 : IVec S4096x128 32 := select valid tvec (broadcast S4096x128 4294967295#32)
  let v0 : FVec F S4096x128 .f32 := x1
  let i1 := stepF 1#32 i0 i0
  let v1 := stepF 1#32 i0 v0
  let i2 := stepF 2#32 i1 i1
  let v2 := stepF 2#32 i1 v1
  let i3 := stepF 4#32 i2 i2
  let v3 := stepF 4#32 i2 v2
  let i4 := stepF 8#32 i3 i3
  let v4 := stepF 8#32 i3 v3
  let i5 := stepF 16#32 i4 i4
  let v5 := stepF 16#32 i4 v4
  let i6 := stepF 32#32 i5 i5
  let v6 := stepF 32#32 i5 v5
  let i7 := stepF 64#32 i6 i6
  let v7 := stepF 64#32 i6 v6
  let i8 := stepF 128#32 i7 i7
  let v8 := stepF 128#32 i7 v7
  let i9 := stepF 256#32 i8 i8
  let v9 := stepF 256#32 i8 v8
  let i10 := stepF 512#32 i9 i9
  let v10 := stepF 512#32 i9 v9
  let i11 := stepF 1024#32 i10 i10
  let v11 := stepF 1024#32 i10 v10
  let i12 := stepF 2048#32 i11 i11
  let v12 := stepF 2048#32 i11 v11
  (i12, v12)

/-- The forward-looking scan. -/
def bwd (x1 : FVec F S4096x128 .f32) (valid : IVec S4096x128 1) : IVec S4096x128 32 × FVec F S4096x128 .f32 :=
  let i0 : IVec S4096x128 32 := select valid tvec (broadcast S4096x128 4096#32)
  let v0 : FVec F S4096x128 .f32 := x1
  let i1 := stepB 4095#32 i0 i0
  let v1 := stepB 4095#32 i0 v0
  let i2 := stepB 4094#32 i1 i1
  let v2 := stepB 4094#32 i1 v1
  let i3 := stepB 4092#32 i2 i2
  let v3 := stepB 4092#32 i2 v2
  let i4 := stepB 4088#32 i3 i3
  let v4 := stepB 4088#32 i3 v3
  let i5 := stepB 4080#32 i4 i4
  let v5 := stepB 4080#32 i4 v4
  let i6 := stepB 4064#32 i5 i5
  let v6 := stepB 4064#32 i5 v5
  let i7 := stepB 4032#32 i6 i6
  let v7 := stepB 4032#32 i6 v6
  let i8 := stepB 3968#32 i7 i7
  let v8 := stepB 3968#32 i7 v7
  let i9 := stepB 3840#32 i8 i8
  let v9 := stepB 3840#32 i8 v8
  let i10 := stepB 3584#32 i9 i9
  let v10 := stepB 3584#32 i9 v9
  let i11 := stepB 3072#32 i10 i10
  let v11 := stepB 3072#32 i10 v10
  let i12 := stepB 2048#32 i11 i11
  let v12 := stepB 2048#32 i11 v11
  (i12, v12)

/-- The last lines of the body: from the two pairs to the value written. -/
def tail (x1 : FVec F S4096x128 .f32) (valid : IVec S4096x128 1) (p : IVec S4096x128 32) (xp : FVec F S4096x128 .f32)
    (n : IVec S4096x128 32) (xn : FVec F S4096x128 .f32) : FVec F S4096x128 .f32 :=
  let interior := andi (andi (xori valid (constantI S4096x128 1 1#1)) (cmpi .sge p (broadcast S4096x128 0#32)))
    (cmpi .slt n (broadcast S4096x128 4096#32))
  let runLen := subi (subi n p) (broadcast S4096x128 1#32)
  let pos := subi (subi tvec p) (broadcast S4096x128 1#32)
  let denom := maxsi (subi runLen (broadcast S4096x128 1#32)) (broadcast S4096x128 1#32)
  let frac := divf (sitofp .f32 pos) (sitofp .f32 denom)
  select interior (addf xp (mulf (subf xn xp) frac)) x1

/-- The whole body on a block, as a function of the block. -/
def bodyFn (x1 : FVec F S4096x128 .f32) : FVec F S4096x128 .f32 :=
  let valid : IVec S4096x128 1 := cmpf .one x1 (broadcast S4096x128 (Scalar.ofBits .f32 0x00000000#32))
  tail x1 valid (fwd x1 valid).1 (fwd x1 valid).2 (bwd x1 valid).1 (bwd x1 valid).2

set_option maxHeartbeats 4000000 in
/-- What the body leaves in the output block is `bodyFn` of the input block, up to the two changes of shape between
    [1, 4096, 128] and [4096, 128]: the payloads unfold to this composition. -/
theorem body_eq (x0 : Vec F S1x4096x128 .f32) :
    out0_1 x0 = View.canon [⟨r0_0, shapeCast S1x4096x128
      (bodyFn (shapeCast S4096x128 (View.ld x0 r0_0) shapeCasts_S1x4096x128_S4096x128)) shapeCasts_S4096x128_S1x4096x128⟩] := rfl

end Cert.Impute

end
-- ==== Proof.ScanAt.lean ====
/-
  The doubling scan read entry by entry, at the exact instance (every float an extended real).

  For a block `x1` of 4096 time positions by 128 features and a feature `l`, `colK x1 l` is the column as a function of
  the time position.  `FInv x1 w idx val` says of a pair of arrays (position words, values): at every entry (r, l) the
  position word denotes the last nonzero position of column `l` among the `w` positions ending at `r` (-1 if none),
  and where it is not negative the value is the column's entry there.  `BInv` is the mirror statement for the first
  nonzero position among the `w` positions from `r` on (4096 if none).  One step of the scan with shift `w` turns
  the invariant for `w` into the invariant for `w + w`; the starting pair satisfies it for `w = 1`.
-/
import proofs.«100392_j29815662968983_1_alg».proof.Proof.Spec
import proofs.«100392_j29815662968983_1_alg».proof.Proof.Scan
import Idealize.ShloMosaic.Lib.KernelVsHost

noncomputable section

namespace Cert.Impute

open Idealize.ShloMosaic Idealize.ShloMosaic.ValueIdx Cert.KernelIdeal Cert.KernelIdeal.Gen

/-- Column `l` of a block as a function of the time position (zero beyond 4095, never read). -/
def colK (x1 : FVec Ideal S4096x128 .f32) (l : Fin 128) : Nat → EReal :=
  fun s => if h : s < 4096 then x1 (ix2 ⟨s, h⟩ l) else 0

theorem colK_lt (x1 : FVec Ideal S4096x128 .f32) (l : Fin 128) (s : Fin 4096) : colK x1 l s.val = x1 (ix2 s l) := by
  unfold colK; rw [dif_pos s.isLt]

/-! ## Entries of the position array, of a rotation, of the two conditions -/

theorem tvec_apply (r : Fin 4096) (l : Fin 128) : tvec (ix2 r l) = BitVec.ofNat 32 r.val := by
  show BitVec.ofNat 32 (0 * _ + r.val) = _
  rw [Nat.zero_mul, Nat.zero_add]

/-- A rotation along the time axis by `d`, read at time `r`: the operand at the time `d` positions back, around the end. -/
theorem rot_apply {α : Type} (d : BitVec 32) (a : S4096x128.Idx → α) (r r' : Fin 4096) (l : Fin 128)
    (h : r'.val = (r.val + 4096 - d.toNat % 4096) % 4096) :
    dynamicRotate 0 d none a rotates_S4096x128_d0 (ix2 r l) = a (ix2 r' l) :=
  dynamicRotate_apply 0 d a _ _ _ (by
    intro b
    match b with
    | ⟨0, _⟩ => exact h.trans (if_pos (Fin.ext rfl)).symm
    | ⟨1, _⟩ => exact (if_neg (fun hh => absurd (show (1 : Nat) = 0 from congrArg Fin.val hh) Nat.one_ne_zero)).symm)

theorem andi_ofBool_eq_one (a b : Bool) :
    IntOp.andi (BitVec.ofBool a) (BitVec.ofBool b) = 1#1 ↔ a = true ∧ b = true := by
  cases a <;> cases b <;> decide

theorem toInt_of_toNat {d : BitVec 32} {w : Nat} (hd : d.toNat = w) (hw : w ≤ 4096) : d.toInt = w := by
  rw [BitVec.toInt_eq_toNat_cond, hd, if_pos (by omega)]

theorem condF_apply (d : BitVec 32) (idx : IVec S4096x128 32) (r : Fin 4096) (l : Fin 128) :
    condF d idx (ix2 r l) = 1#1 ↔ (idx (ix2 r l)).toInt < 0 ∧ d.toInt ≤ r.val := by
  show IntOp.andi (IntOp.cmpi .slt (idx (ix2 r l)) 0#32) (IntOp.cmpi .sge (tvec (ix2 r l)) d) = 1#1 ↔ _
  rw [tvec_apply]
  unfold IntOp.cmpi
  rw [andi_ofBool_eq_one]
  simp only [BitVec.slt, BitVec.sle, decide_eq_true_eq, toInt_zero32, toInt_ofNat_small r.isLt]

theorem condB_apply (e : BitVec 32) (idx : IVec S4096x128 32) (r : Fin 4096) (l : Fin 128) :
    condB e idx (ix2 r l) = 1#1 ↔ 4096 ≤ (idx (ix2 r l)).toInt ∧ (r.val : Int) < e.toInt := by
  show IntOp.andi (IntOp.cmpi .sge (idx (ix2 r l)) 4096#32) (IntOp.cmpi .slt (tvec (ix2 r l)) e) = 1#1 ↔ _
  rw [tvec_apply]
  unfold IntOp.cmpi
  rw [andi_ofBool_eq_one]
  simp only [BitVec.slt, BitVec.sle, decide_eq_true_eq, toInt_4096, toInt_ofNat_small r.isLt]

theorem stepF_apply {α : Type} (d : BitVec 32) (idx : IVec S4096x128 32) (a : S4096x128.Idx → α) (j : S4096x128.Idx) :
    stepF d idx a j = if condF d idx j = 1#1 then dynamicRotate 0 d none a rotates_S4096x128_d0 j else a j := rfl

theorem stepB_apply {α : Type} (e : BitVec 32) (idx : IVec S4096x128 32) (a : S4096x128.Idx → α) (j : S4096x128.Idx) :
    stepB e idx a j = if condB e idx j = 1#1 then dynamicRotate 0 e none a rotates_S4096x128_d0 j else a j := rfl

/-! ## The two invariants -/

def FInv (x1 : FVec Ideal S4096x128 .f32) (w : Nat) (idx : IVec S4096x128 32) (val : FVec Ideal S4096x128 .f32) : Prop :=
  ∀ (r : Fin 4096) (l : Fin 128),
    IsLast (fun s => colK x1 l s ≠ 0) w r.val (idx (ix2 r l)).toInt ∧
    (0 ≤ (idx (ix2 r l)).toInt → val (ix2 r l) = colK x1 l (idx (ix2 r l)).toInt.toNat)

def BInv (x1 : FVec Ideal S4096x128 .f32) (w : Nat) (idx : IVec S4096x128 32) (val : FVec Ideal S4096x128 .f32) : Prop :=
  ∀ (r : Fin 4096) (l : Fin 128),
    IsFirst 4096 (fun s => colK x1 l s ≠ 0) w r.val (idx (ix2 r l)).toInt ∧
    ((idx (ix2 r l)).toInt < 4096 → val (ix2 r l) = colK x1 l (idx (ix2 r l)).toInt.toNat)

/-- One backward-looking step with shift `w` doubles the window. -/
theorem FInv.step {x1 : FVec Ideal S4096x128 .f32} {w : Nat} {idx : IVec S4096x128 32} {val : FVec Ideal S4096x128 .f32}
    (h : FInv x1 w idx val) (d : BitVec 32) (hd : d.toNat = w) (hw : w < 4096) :
    FInv x1 (w + w) (stepF d idx idx) (stepF d idx val) := by
  intro r l
  have hdi : d.toInt = w := toInt_of_toNat hd (by omega)
  obtain ⟨h1, h1v⟩ := h r l
  rw [stepF_apply, stepF_apply]
  by_cases hc : condF d idx (ix2 r l) = 1#1
  · obtain ⟨hneg, hwr⟩ := (condF_apply d idx r l).mp hc
    rw [hdi] at hwr
    have hwr' : w ≤ r.val := by exact_mod_cast hwr
    rw [if_pos hc, if_pos hc]
    have hr' : r.val - w < 4096 := by have := r.isLt; omega
    rw [rot_apply d idx r ⟨r.val - w, hr'⟩ l (by show r.val - w = _; rw [hd]; have := r.isLt; omega),
      rot_apply d val r ⟨r.val - w, hr'⟩ l (by show r.val - w = _; rw [hd]; have := r.isLt; omega)]
    obtain ⟨h2, h2v⟩ := h ⟨r.val - w, hr'⟩ l
    have hdb := IsLast.double h1 (fun _ => h2)
    rw [if_pos ⟨hneg, hwr'⟩] at hdb
    exact ⟨hdb, h2v⟩
  · rw [if_neg hc, if_neg hc]
    have hnc : ¬ ((idx (ix2 r l)).toInt < 0 ∧ w ≤ r.val) := by
      intro hh
      exact hc ((condF_apply d idx r l).mpr ⟨hh.1, by rw [hdi]; exact_mod_cast hh.2⟩)
    by_cases hwr : w ≤ r.val
    · have hr' : r.val - w < 4096 := by have := r.isLt; omega
      obtain ⟨h2, _⟩ := h ⟨r.val - w, hr'⟩ l
      have hdb := IsLast.double h1 (fun _ => h2)
      rw [if_neg hnc] at hdb
      exact ⟨hdb, h1v⟩
    · have hdb := IsLast.double (w' := w) (q := 0) h1 (fun hh => absurd hh hwr)
      rw [if_neg hnc] at hdb
      exact ⟨hdb, h1v⟩

/-- One forward-looking step with shift `w` (rotating by `4096 - w`) doubles the window. -/
theorem BInv.step {x1 : FVec Ideal S4096x128 .f32} {w : Nat} {idx : IVec S4096x128 32} {val : FVec Ideal S4096x128 .f32}
    (h : BInv x1 w idx val) (e : BitVec 32) (he : e.toNat = 4096 - w) (hw : 0 < w) (hw' : w < 4096) :
    BInv x1 (w + w) (stepB e idx idx) (stepB e idx val) := by
  intro r l
  have hei : e.toInt = ((4096 - w : Nat) : Int) := toInt_of_toNat he (by omega)
  obtain ⟨h1, h1v⟩ := h r l
  rw [stepB_apply, stepB_apply]
  by_cases hc : condB e idx (ix2 r l) = 1#1
  · obtain ⟨hge, hlt⟩ := (condB_apply e idx r l).mp hc
    rw [hei] at hlt
    have hlt' : r.val + w < 4096 := by omega
    rw [if_pos hc, if_pos hc]
    rw [rot_apply e idx r ⟨r.val + w, hlt'⟩ l (by show r.val + w = _; rw [he]; omega),
      rot_apply e val r ⟨r.val + w, hlt'⟩ l (by show r.val + w = _; rw [he]; omega)]
    obtain ⟨h2, h2v⟩ := h ⟨r.val + w, hlt'⟩ l
    have hdb := IsFirst.double h1 (fun _ => h2)
    rw [if_pos ⟨by exact_mod_cast hge, hlt'⟩] at hdb
    exact ⟨hdb, h2v⟩
  · rw [if_neg hc, if_neg hc]
    have hnc : ¬ (((4096 : Nat) : Int) ≤ (idx (ix2 r l)).toInt ∧ r.val + w < 4096) := by
      intro hh
      exact hc ((condB_apply e idx r l).mpr ⟨by exact_mod_cast hh.1, by rw [hei]; omega⟩)
    by_cases hwr : r.val + w < 4096
    · obtain ⟨h2, _⟩ := h ⟨r.val + w, hwr⟩ l
      have hdb := IsFirst.double h1 (fun _ => h2)
      rw [if_neg hnc] at hdb
      exact ⟨hdb, h1v⟩
    · have hdb := IsFirst.double (w' := w) (q := 0) h1 (fun hh => absurd hh hwr)
      rw [if_neg hnc] at hdb
      exact ⟨hdb, h1v⟩

end Cert.Impute

end
-- ==== Proof.KernelAt.lean ====
/-
  The body of the kernel at one entry of a block, at the exact instance.

  The starting pairs satisfy the scan's invariants for a window of one position; twelve steps double it to 4096, so
  after the scans the backward-looking position word at (r, l) denotes the last nonzero position of column `l` at or
  before `r` (-1 if none), the forward-looking one the first nonzero position at or after `r` (4096 if none), and the
  carried values are the column's entries there.  The last lines of the body then compute exactly `fill`.
-/
import proofs.«100392_j29815662968983_1_alg».proof.Proof.ScanAt
import Idealize.ShloMosaic.Lib.ValueLayout
import Idealize.ShloMosaic.PureOps.Ideal.Laws

set_option maxRecDepth 65536

noncomputable section

namespace Cert.Impute

open Idealize.ShloMosaic Idealize.ShloMosaic.ValueIdx Cert.KernelIdeal Cert.KernelIdeal.Gen

/-- The mask of nonzero entries of a block, as the body computes it. -/
def validOf (x1 : FVec Ideal S4096x128 .f32) : IVec S4096x128 1 :=
  cmpf .one x1 (broadcast S4096x128 (Scalar.ofBits .f32 0x00000000#32))

theorem valid_apply (x1 : FVec Ideal S4096x128 .f32) (j : S4096x128.Idx) :
    validOf x1 j = BitVec.ofBool (decide (x1 j ≠ 0)) := by
  show Ideal.cmp .one (x1 j) (Ideal.ofBits .f32 0x00000000#32) = _
  rw [Ideal.ofBits_zero_f32]
  rfl

theorem select_ofBool {α : Type} (b : Bool) (x y : α) :
    Scalar.select (BitVec.ofBool b) x y = if b = true then x else y := by
  cases b <;> simp [Scalar.select]

/-! ## The starting pairs -/

theorem init_F (x1 : FVec Ideal S4096x128 .f32) :
    FInv x1 1 (select (validOf x1) tvec (broadcast S4096x128 4294967295#32)) x1 := by
  intro r l
  have hsel : select (validOf x1) tvec (broadcast S4096x128 4294967295#32) (ix2 r l)
      = if colK x1 l r.val ≠ 0 then BitVec.ofNat 32 r.val else 4294967295#32 := by
    show Scalar.select (validOf x1 (ix2 r l)) (tvec (ix2 r l)) 4294967295#32 = _
    rw [valid_apply, tvec_apply, colK_lt, select_ofBool]
    simp only [decide_eq_true_eq]
  rw [hsel]
  by_cases h : colK x1 l r.val ≠ 0
  · rw [if_pos h, toInt_ofNat_small r.isLt]
    refine ⟨⟨Or.inr ⟨by omega, by omega, le_refl _, by rw [Int.toNat_natCast]; exact h⟩,
      fun s _ hs2 _ => by exact_mod_cast hs2⟩, fun _ => ?_⟩
    rw [Int.toNat_natCast, colK_lt]
  · rw [if_neg h, toInt_neg_one]
    refine ⟨⟨Or.inl rfl, fun s hs1 hs2 hv => ?_⟩, fun hh => absurd hh (by decide)⟩
    have hs : s = r.val := by omega
    subst hs
    exact absurd hv h

theorem init_B (x1 : FVec Ideal S4096x128 .f32) :
    BInv x1 1 (select (validOf x1) tvec (broadcast S4096x128 4096#32)) x1 := by
  intro r l
  have hsel : select (validOf x1) tvec (broadcast S4096x128 4096#32) (ix2 r l)
      = if colK x1 l r.val ≠ 0 then BitVec.ofNat 32 r.val else 4096#32 := by
    show Scalar.select (validOf x1 (ix2 r l)) (tvec (ix2 r l)) 4096#32 = _
    rw [valid_apply, tvec_apply, colK_lt, select_ofBool]
    simp only [decide_eq_true_eq]
  rw [hsel]
  have hr := r.isLt
  by_cases h : colK x1 l r.val ≠ 0
  · rw [if_pos h, toInt_ofNat_small r.isLt]
    refine ⟨⟨Or.inr ⟨le_refl _, by omega, by omega, by rw [Int.toNat_natCast]; exact h⟩,
      fun s hs1 _ _ _ => by exact_mod_cast hs1⟩, fun _ => ?_⟩
    rw [Int.toNat_natCast, colK_lt]
  · rw [if_neg h, toInt_4096]
    refine ⟨⟨Or.inl rfl, fun s hs1 hs2 _ hv => ?_⟩, fun hh => absurd hh (by decide)⟩
    have hs : s = r.val := by omega
    subst hs
    exact absurd hv h

/-! ## Twelve steps each way -/

theorem fwd_inv (x1 : FVec Ideal S4096x128 .f32) :
    FInv x1 4096 (fwd x1 (validOf x1)).1 (fwd x1 (validOf x1)).2 := by
  have h0 := init_F x1
  have h1 := h0.step 1#32 (by decide) (by decide)
  have h2 := h1.step 2#32 (by decide) (by decide)
  have h3 := h2.step 4#32 (by decide) (by decide)
  have h4 := h3.step 8#32 (by decide) (by decide)
  have h5 := h4.step 16#32 (by decide) (by decide)
  have h6 := h5.step 32#32 (by decide) (by decide)
  have h7 := h6.step 64#32 (by decide) (by decide)
  have h8 := h7.step 128#32 (by decide) (by decide)
  have h9 := h8.step 256#32 (by decide) (by decide)
  have h10 := h9.step 512#32 (by decide) (by decide)
  have h11 := h10.step 1024#32 (by decide) (by decide)
  have h12 := h11.step 2048#32 (by decide) (by decide)
  exact h12

theorem bwd_inv (x1 : FVec Ideal S4096x128 .f32) :
    BInv x1 4096 (bwd x1 (validOf x1)).1 (bwd x1 (validOf x1)).2 := by
  have h0 := init_B x1
  have h1 := h0.step 4095#32 (by decide) (by decide) (by decide)
  have h2 := h1.step 4094#32 (by decide) (by decide) (by decide)
  have h3 := h2.step 4092#32 (by decide) (by decide) (by decide)
  have h4 := h3.step 4088#32 (by decide) (by decide) (by decide)
  have h5 := h4.step 4080#32 (by decide) (by decide) (by decide)
  have h6 := h5.step 4064#32 (by decide) (by decide) (by decide)
  have h7 := h6.step 4032#32 (by decide) (by decide) (by decide)
  have h8 := h7.step 3968#32 (by decide) (by decide) (by decide)
  have h9 := h8.step 3840#32 (by decide) (by decide) (by decide)
  have h10 := h9.step 3584#32 (by decide) (by decide) (by decide)
  have h11 := h10.step 3072#32 (by decide) (by decide) (by decide)
  have h12 := h11.step 2048#32 (by decide) (by decide) (by decide)
  exact h12

/-! ## The last lines at an entry -/

theorem tail_apply (x1 : FVec Ideal S4096x128 .f32) (valid : IVec S4096x128 1) (p : IVec S4096x128 32)
    (xp : FVec Ideal S4096x128 .f32) (n : IVec S4096x128 32) (xn : FVec Ideal S4096x128 .f32) (j : S4096x128.Idx) :
    tail x1 valid p xp n xn j
      = Scalar.select (IntOp.andi (IntOp.andi (IntOp.xori (valid j) 1#1) (IntOp.cmpi .sge (p j) 0#32))
          (IntOp.cmpi .slt (n j) 4096#32))
        (xp j + (xn j - xp j) * Ideal.div (((IntOp.subi (IntOp.subi (tvec j) (p j)) 1#32).toInt : ℝ) : EReal)
          (((IntOp.maxsi (IntOp.subi (IntOp.subi (IntOp.subi (n j) (p j)) 1#32) 1#32) 1#32).toInt : ℝ) : EReal))
        (x1 j) := rfl

theorem select_eq_ite {α : Type} (c : BitVec 1) (x y : α) : Scalar.select c x y = if c = 1#1 then x else y := rfl

theorem interior_bits (a b c : Bool) :
    IntOp.andi (IntOp.andi (IntOp.xori (BitVec.ofBool a) 1#1) (BitVec.ofBool b)) (BitVec.ofBool c) = 1#1
      ↔ a = false ∧ b = true ∧ c = true := by
  cases a <;> cases b <;> cases c <;> decide

/-- THE BODY AT AN ENTRY: the two neighbours it has found are the extremal ones, and the value is `fill` of them. -/
theorem bodyFn_at (x1 : FVec Ideal S4096x128 .f32) (r : Fin 4096) (l : Fin 128) :
    ∃ p n : BitVec 32,
      IsLast (fun s => colK x1 l s ≠ 0) 4096 r.val p.toInt ∧
      IsFirst 4096 (fun s => colK x1 l s ≠ 0) 4096 r.val n.toInt ∧
      bodyFn x1 (ix2 r l) = fill (colK x1 l) r.val p n := by
  obtain ⟨hp, hpv⟩ := fwd_inv x1 r l
  obtain ⟨hn, hnv⟩ := bwd_inv x1 r l
  refine ⟨_, _, hp, hn, ?_⟩
  show tail x1 (validOf x1) (fwd x1 (validOf x1)).1 (fwd x1 (validOf x1)).2 (bwd x1 (validOf x1)).1
    (bwd x1 (validOf x1)).2 (ix2 r l) = _
  rw [tail_apply, valid_apply, tvec_apply]
  generalize (fwd x1 (validOf x1)).1 (ix2 r l) = P at hp hpv ⊢
  generalize (bwd x1 (validOf x1)).1 (ix2 r l) = N at hn hnv ⊢
  generalize (fwd x1 (validOf x1)).2 (ix2 r l) = XP at hpv ⊢
  generalize (bwd x1 (validOf x1)).2 (ix2 r l) = XN at hnv ⊢
  unfold IntOp.cmpi fill
  rw [select_eq_ite, colK_lt]
  by_cases hc : x1 (ix2 r l) = 0 ∧ 0 ≤ P.toInt ∧ N.toInt < 4096
  · rw [if_pos hc, if_pos (by
      rw [interior_bits]
      refine ⟨by simp [hc.1], ?_, ?_⟩
      · simp only [BitVec.sle, decide_eq_true_eq, toInt_zero32]; exact hc.2.1
      · simp only [BitVec.slt, decide_eq_true_eq, toInt_4096]; exact hc.2.2)]
    rw [hpv hc.2.1, hnv hc.2.2]
  · rw [if_neg hc, if_neg (by
      rw [interior_bits]
      rintro ⟨h1, h2, h3⟩
      apply hc
      refine ⟨by simpa using h1, ?_, ?_⟩
      · simpa only [BitVec.sle, decide_eq_true_eq, toInt_zero32] using h2
      · simpa only [BitVec.slt, decide_eq_true_eq, toInt_4096] using h3)]

end Cert.Impute

end
-- ==== Proof.KernelBlocks.lean ====
/-
  The kernel's output block as a function of its input block, entry by entry.

  A grid point's input block has shape [1, 4096, 128]; the body drops the unit axis, computes on [4096, 128] and puts
  the unit axis back.  `colB xb l` is column `l` of the block as a function of the time position; at entry (0, r, l)
  the output block holds `fill` of that column at `r`, with the two extremal neighbours of `r`.
-/
import proofs.«100392_j29815662968983_1_alg».proof.Proof.KernelAt

noncomputable section

namespace Cert.Impute

open Idealize.ShloMosaic Idealize.ShloMosaic.ValueIdx Cert.KernelIdeal Cert.KernelIdeal.Gen

/-- Column `l` of a [1, 4096, 128] block as a function of the time position. -/
def colB (xb : Vec Ideal S1x4096x128 .f32) (l : Fin 128) : Nat → EReal :=
  fun s => if h : s < 4096 then xb (ix3 (0 : Fin 1) ⟨s, h⟩ l) else 0

theorem colK_cast (xb : Vec Ideal S1x4096x128 .f32) (l : Fin 128) :
    colK (shapeCast S4096x128 xb shapeCasts_S1x4096x128_S4096x128) l = colB xb l := by
  funext s
  unfold colK colB
  by_cases h : s < 4096
  · rw [dif_pos h, dif_pos h]
    exact shapeCast_1ab_ab_apply xb shapeCasts_S1x4096x128_S4096x128 ⟨s, h⟩ l
  · rw [dif_neg h, dif_neg h]

/-- THE OUTPUT BLOCK AT AN ENTRY. -/
theorem block_at (xb : Vec Ideal S1x4096x128 .f32) (u : Fin 1) (r : Fin 4096) (l : Fin 128) :
    ∃ p n : BitVec 32,
      IsLast (fun s => colB xb l s ≠ 0) 4096 r.val p.toInt ∧
      IsFirst 4096 (fun s => colB xb l s ≠ 0) 4096 r.val n.toInt ∧
      shapeCast S1x4096x128 (bodyFn (F := Ideal) (shapeCast S4096x128 xb shapeCasts_S1x4096x128_S4096x128))
        shapeCasts_S4096x128_S1x4096x128 (ix3 u r l) = fill (colB xb l) r.val p n := by
  obtain ⟨p, n, hp, hn, he⟩ := bodyFn_at (shapeCast S4096x128 xb shapeCasts_S1x4096x128_S4096x128) r l
  rw [colK_cast] at hp hn he
  refine ⟨p, n, hp, hn, ?_⟩
  rw [shapeCast_ab_1ab_apply]
  exact he

/-- The same at an index of the block given as one index. -/
theorem block_at' (xb : Vec Ideal S1x4096x128 .f32) (y : S1x4096x128.Idx) :
    ∃ p n : BitVec 32,
      IsLast (fun s => colB xb (y 2) s ≠ 0) 4096 (y 1).val p.toInt ∧
      IsFirst 4096 (fun s => colB xb (y 2) s ≠ 0) 4096 (y 1).val n.toInt ∧
      shapeCast S1x4096x128 (bodyFn (F := Ideal) (shapeCast S4096x128 xb shapeCasts_S1x4096x128_S4096x128))
        shapeCasts_S4096x128_S1x4096x128 y = fill (colB xb (y 2)) (y 1).val p n := by
  obtain ⟨p, n, hp, hn, he⟩ := block_at xb (y 0) (y 1) (y 2)
  exact ⟨p, n, hp, hn, (congrArg (shapeCast S1x4096x128 (bodyFn (F := Ideal)
    (shapeCast S4096x128 xb shapeCasts_S1x4096x128_S4096x128)) shapeCasts_S4096x128_S1x4096x128) (eq_ix3 y)).trans he⟩

end Cert.Impute

end
-- ==== Proof.RefFn.lean ====
/-
  The reference program as a composition of a few functions of whole arrays, one per stretch of its text.

  `validR` marks the nonzero entries; `whereT tc mask k` is "the time position (read off `tc`) where the mask holds, else `k`";
  `cummaxR` / `cumminR` are the running maximum along time and the reversed running minimum, each a fold over a window
  of 4096 positions padded on one side; `interiorR` is the mask of entries to be filled; `clipR` clamps positions
  into 0 … 4095; `takeR x idx` looks `x` up along time at the positions `idx` (a negative position is first moved up
  by 4096, positions outside the array give the not-a-number pattern); `tailR` is the interpolation formula and the
  final choice.  `refFn` composes them as the program does.
-/
import proofs.«100392_j29815662968983_1_alg».proof.Proof.Gen.ReferenceIdeal
import Idealize.ShloMosaic.PureOps.Ideal

noncomputable section

namespace Cert.Impute

open Idealize.ShloMosaic Cert.ReferenceIdeal Cert.ReferenceIdeal.Gen

variable {F : FTy → Type} [FloatOps F]

/-- The time position of every entry, as a [1, 4096, 1] array. -/
def tcolR : IVec S1x4096x1 32 :=
  broadcastInDim S1x4096x1 ![1] bcast_S4096_S1x4096x1_1 (iotaInDim S4096 32 0)

/-- The mask of nonzero entries. -/
def validR (x : FVec F S32x4096x256 .f32) : IVec S32x4096x256 1 :=
  cmpf .une x (broadcastInDim S32x4096x256 ![] bcast_S_S32x4096x256 (constant S_ .f32 0x00000000#32))

/-- The time position (taken from the [1, 4096, 1] array `tc`) where the mask holds, the word `k` elsewhere. -/
def whereT (tc : IVec S1x4096x1 32) (mask : IVec S32x4096x256 1) (k : BitVec 32) : IVec S32x4096x256 32 :=
  select mask (broadcastInDim S32x4096x256 ![0, 1, 2] bcast_S1x4096x1_S32x4096x256_0_1_2 tc)
    (broadcastInDim S32x4096x256 ![] bcast_S_S32x4096x256 (id (constantI S_ 32 k)))

/-- The running signed maximum along time. -/
def cummaxR (a : IVec S32x4096x256 32) : IVec S32x4096x256 32 :=
  Host.reduceWindow IntOp.maxsi ![1, 4096, 1] ![1, 1, 1] ![0, 4095, 0] ![0, 0, 0] a
    (broadcastInDim S_ ![] bcast_S_S_ (constantI S_ 32 2147483648#32))
    reduceWindows_S32x4096x256_S32x4096x256_w1s1p0_0_w4096s1p4095_0_w1s1p0_0 h_S_

/-- The running signed minimum along time, from the end. -/
def cumminR (a : IVec S32x4096x256 32) : IVec S32x4096x256 32 :=
  Host.reduceWindow IntOp.minsi ![1, 4096, 1] ![1, 1, 1] ![0, 0, 0] ![0, 4095, 0] a
    (broadcastInDim S_ ![] bcast_S_S_ (constantI S_ 32 2147483647#32))
    reduceWindows_S32x4096x256_S32x4096x256_w1s1p0_0_w4096s1p0_4095_w1s1p0_0 h_S_

/-- The entries to be filled: zero there, a nonzero entry before and one after. -/
def interiorR (valid : IVec S32x4096x256 1) (p n : IVec S32x4096x256 32) : IVec S32x4096x256 1 :=
  andi (andi (noti valid) (cmpi .sge p (broadcastInDim S32x4096x256 ![] bcast_S_S32x4096x256 (constantI S_ 32 0#32))))
    (cmpi .slt n (broadcastInDim S32x4096x256 ![] bcast_S_S32x4096x256 (constantI S_ 32 4096#32)))

/-- Positions clamped into 0 … 4095. -/
def clipR (p : IVec S32x4096x256 32) : IVec S32x4096x256 32 :=
  minsi (broadcastInDim S32x4096x256 ![] bcast_S_S32x4096x256 (id (constantI S_ 32 4095#32)))
    (maxsi (broadcastInDim S32x4096x256 ![] bcast_S_S32x4096x256 (id (constantI S_ 32 0#32))) p)

/-- The positions handed to the gather: a negative one moved up by 4096, then a trailing unit axis added. -/
def takeIdxR (idx : IVec S32x4096x256 32) : IVec S32x4096x256x1 32 :=
  shapeCast S32x4096x256x1
    (select (cmpi .slt idx (broadcastInDim S32x4096x256 ![] bcast_S_S32x4096x256 (constantI S_ 32 0#32)))
      (addi idx (broadcastInDim S32x4096x256 ![] bcast_S_S32x4096x256 (constantI S_ 32 4096#32))) idx)
    shapeCasts_S32x4096x256_S32x4096x256x1

/-- Whether the position handed to the gather lies inside the array. -/
def takeOkR (i5 : IVec S32x4096x256x1 32) : IVec S32x4096x256 1 :=
  Host.reduce IntOp.andi
    (andi (cmpi .sge i5 (broadcastInDim S32x4096x256x1 ![] bcast_S_S32x4096x256x1 (constantI S_ 32 0#32)))
      (cmpi .sle i5 (broadcastInDim S32x4096x256x1 ![0, 1, 2, 3] bcast_S1x1x1x1_S32x4096x256x1_0_1_2_3
        (broadcastInDim S1x1x1x1 ![3] bcast_S1_S1x1x1x1_3 (constantI S1 32 4095#32)))))
    (constantI S_ 1 1#1) reducesTo_S32x4096x256x1_S32x4096x256_d3 h_S_

/-- The lookup along time. -/
def takeR (x : FVec F S32x4096x256 .f32) (idx : IVec S32x4096x256 32) : FVec F S32x4096x256 .f32 :=
  select (takeOkR (takeIdxR idx))
    (Host.gather gather_S32x4096x256_S32x4096x256x1_S32x4096x256_n_1_02_02_1_3_111 x (takeIdxR idx))
    (broadcastInDim S32x4096x256 ![] bcast_S_S32x4096x256 (constant S_ .f32 0x7FC00000#32))

/-- The interpolation formula and the final choice. -/
def tailR (x : FVec F S32x4096x256 .f32) (tc : IVec S1x4096x1 32) (p n : IVec S32x4096x256 32) (xp xn : FVec F S32x4096x256 .f32)
    (interior : IVec S32x4096x256 1) : FVec F S32x4096x256 .f32 :=
  let one : IVec S32x4096x256 32 := broadcastInDim S32x4096x256 ![] bcast_S_S32x4096x256 (constantI S_ 32 1#32)
  let runLen := subi (subi n p) one
  let pos := subi (subi (broadcastInDim S32x4096x256 ![0, 1, 2] bcast_S1x4096x1_S32x4096x256_0_1_2 tc) p) one
  let denom := maxsi (subi runLen one) one
  let frac := Host.divf (sitofp .f32 pos) (sitofp .f32 denom)
  select interior (addf xp (mulf (subf xn xp) frac)) x

/-- The reference, whole. -/
def refFn (x : FVec F S32x4096x256 .f32) : FVec F S32x4096x256 .f32 :=
  let valid := validR x
  let p := cummaxR (whereT tcolR valid 4294967295#32)
  let n := cumminR (whereT tcolR valid 4096#32)
  tailR x tcolR p n (takeR x (clipR p)) (takeR x (clipR n)) (interiorR valid p n)

end Cert.Impute

end
-- ==== Proof.RefSide.lean ====
/-
  The reference program read at one index.  At batch `b`, time `r`, feature `c` the reference's running maximum of
  "position if the entry is nonzero, else -1" is the last marked position at or before `r` (or -1), its reversed
  running minimum of "position if nonzero, else 4096" is the first marked position at or after `r` (or 4096), and
  its result is the value `fill` writes from these two neighbours.
-/
import proofs.«100392_j29815662968983_1_alg».proof.Proof.Spec
import proofs.«100392_j29815662968983_1_alg».proof.Proof.RefFn
import Idealize.ShloMosaic.Lib.ValueIdx
import Idealize.ShloMosaic.Lib.Pipeline.Value
import Idealize.ShloMosaic.Lib.ReduceAll
import Idealize.ShloMosaic.PureOps.Ideal.Laws

noncomputable section

namespace Cert.Impute

open Idealize.ShloMosaic Idealize.ShloMosaic.ValueIdx Cert.ReferenceIdeal Cert.ReferenceIdeal.Gen

/-! ## Left folds of the signed maximum and minimum over a list of words -/

/-- The signed maximum of two words is one of them and is at least both. -/
theorem maxsi_spec (x y : BitVec 32) :
    x.toInt ≤ (IntOp.maxsi x y).toInt ∧ y.toInt ≤ (IntOp.maxsi x y).toInt ∧
      (IntOp.maxsi x y = x ∨ IntOp.maxsi x y = y) := by
  unfold IntOp.maxsi
  simp only [BitVec.slt, decide_eq_true_eq]
  split
  · exact ⟨le_refl _, by omega, Or.inl rfl⟩
  · exact ⟨by omega, le_refl _, Or.inr rfl⟩

/-- The signed minimum of two words is one of them and is at most both. -/
theorem minsi_spec (x y : BitVec 32) :
    (IntOp.minsi x y).toInt ≤ x.toInt ∧ (IntOp.minsi x y).toInt ≤ y.toInt ∧
      (IntOp.minsi x y = x ∨ IntOp.minsi x y = y) := by
  unfold IntOp.minsi
  simp only [BitVec.slt, decide_eq_true_eq]
  split
  · exact ⟨le_refl _, by omega, Or.inl rfl⟩
  · exact ⟨by omega, le_refl _, Or.inr rfl⟩

/-- A left fold of the signed maximum is at least its start and every element, and is the start or an element. -/
theorem foldl_maxsi_spec (L : List (BitVec 32)) (v : BitVec 32) :
    v.toInt ≤ (L.foldl IntOp.maxsi v).toInt ∧ (∀ e ∈ L, e.toInt ≤ (L.foldl IntOp.maxsi v).toInt) ∧
      (L.foldl IntOp.maxsi v = v ∨ L.foldl IntOp.maxsi v ∈ L) := by
  induction L generalizing v with
  | nil => exact ⟨le_refl _, (by intro e he; cases he), Or.inl rfl⟩
  | cons a L ih =>
    rw [List.foldl_cons]
    obtain ⟨h1, h2, h3⟩ := ih (IntOp.maxsi v a)
    obtain ⟨m1, m2, m3⟩ := maxsi_spec v a
    refine ⟨le_trans m1 h1, ?_, ?_⟩
    · intro e he
      rcases List.mem_cons.1 he with rfl | he
      · exact le_trans m2 h1
      · exact h2 e he
    · rcases h3 with h | h
      · rcases m3 with m | m
        · exact Or.inl (h.trans m)
        · exact Or.inr (List.mem_cons.2 (Or.inl (h.trans m)))
      · exact Or.inr (List.mem_cons.2 (Or.inr h))

/-- A left fold of the signed minimum is at most its start and every element, and is the start or an element. -/
theorem foldl_minsi_spec (L : List (BitVec 32)) (v : BitVec 32) :
    (L.foldl IntOp.minsi v).toInt ≤ v.toInt ∧ (∀ e ∈ L, (L.foldl IntOp.minsi v).toInt ≤ e.toInt) ∧
      (L.foldl IntOp.minsi v = v ∨ L.foldl IntOp.minsi v ∈ L) := by
  induction L generalizing v with
  | nil => exact ⟨le_refl _, (by intro e he; cases he), Or.inl rfl⟩
  | cons a L ih =>
    rw [List.foldl_cons]
    obtain ⟨h1, h2, h3⟩ := ih (IntOp.minsi v a)
    obtain ⟨m1, m2, m3⟩ := minsi_spec v a
    refine ⟨le_trans h1 m1, ?_, ?_⟩
    · intro e he
      rcases List.mem_cons.1 he with rfl | he
      · exact le_trans h1 m2
      · exact h2 e he
    · rcases h3 with h | h
      · rcases m3 with m | m
        · exact Or.inl (h.trans m)
        · exact Or.inr (List.mem_cons.2 (Or.inl (h.trans m)))
      · exact Or.inr (List.mem_cons.2 (Or.inr h))

/-- The same for a fold that reads its elements through a function of the positions `0 … N-1`. -/
theorem foldl_maxsi_fin {N : Nat} (g : Fin N → BitVec 32) (v : BitVec 32) :
    let m := (List.finRange N).foldl (fun r n => IntOp.maxsi r (g n)) v
    v.toInt ≤ m.toInt ∧ (∀ n, (g n).toInt ≤ m.toInt) ∧ (m = v ∨ ∃ n, m = g n) := by
  intro m
  have hm : m = ((List.finRange N).map g).foldl IntOp.maxsi v := by
    show (List.finRange N).foldl (fun r n => IntOp.maxsi r (g n)) v = _
    rw [List.foldl_map]
  obtain ⟨h1, h2, h3⟩ := foldl_maxsi_spec ((List.finRange N).map g) v
  rw [← hm] at h1 h2 h3
  refine ⟨h1, fun n => h2 _ (List.mem_map.2 ⟨n, List.mem_finRange n, rfl⟩), ?_⟩
  rcases h3 with h | h
  · exact Or.inl h
  · obtain ⟨n, _, hn⟩ := List.mem_map.1 h
    exact Or.inr ⟨n, hn.symm⟩

theorem foldl_minsi_fin {N : Nat} (g : Fin N → BitVec 32) (v : BitVec 32) :
    let m := (List.finRange N).foldl (fun r n => IntOp.minsi r (g n)) v
    m.toInt ≤ v.toInt ∧ (∀ n, m.toInt ≤ (g n).toInt) ∧ (m = v ∨ ∃ n, m = g n) := by
  intro m
  have hm : m = ((List.finRange N).map g).foldl IntOp.minsi v := by
    show (List.finRange N).foldl (fun r n => IntOp.minsi r (g n)) v = _
    rw [List.foldl_map]
  obtain ⟨h1, h2, h3⟩ := foldl_minsi_spec ((List.finRange N).map g) v
  rw [← hm] at h1 h2 h3
  refine ⟨h1, fun n => h2 _ (List.mem_map.2 ⟨n, List.mem_finRange n, rfl⟩), ?_⟩
  rcases h3 with h | h
  · exact Or.inl h
  · obtain ⟨n, _, hn⟩ := List.mem_map.1 h
    exact Or.inr ⟨n, hn.symm⟩

/-! ## The positions of a window of 4096 steps along the time axis -/

/-- The window shape: one step on the batch and feature axes, 4096 along time. -/
abbrev Win : Shape := ⟨3, ![1, 4096, 1]⟩

theorem win_numel : Win.numel = 4096 := by
  show (∏ a : Fin 3, (![1, 4096, 1] : Fin 3 → Nat) a) = 4096
  simp [Fin.prod_univ_succ]

/-- The `n`-th position of the window in row-major order is `n` steps along time and none along the other axes. -/
theorem win_symm (n : Fin Win.numel) :
    ((Win.rowMajor.symm n) 0).val = 0 ∧ ((Win.rowMajor.symm n) 1).val = n.val ∧ ((Win.rowMajor.symm n) 2).val = 0 := by
  have h := Shape.rowMajor_val_three (d := ![1, 4096, 1]) (Win.rowMajor.symm n)
  rw [Equiv.apply_symm_apply] at h
  have h0 : ((Win.rowMajor.symm n) 0).val < 1 := ((Win.rowMajor.symm n) 0).isLt
  have h1 : ((Win.rowMajor.symm n) 1).val < 4096 := ((Win.rowMajor.symm n) 1).isLt
  have h2 : ((Win.rowMajor.symm n) 2).val < 1 := ((Win.rowMajor.symm n) 2).isLt
  have e1 : (![1, 4096, 1] : Fin 3 → Nat) 1 = 4096 := rfl
  have e2 : (![1, 4096, 1] : Fin 3 → Nat) 2 = 1 := rfl
  rw [e1, e2] at h
  omega

/-! ## The two scans read at an index -/

/-- The array shape. -/
abbrev S3 : Shape := ⟨3, ![32, 4096, 256]⟩

/-- The running maximum's window at time `r`: its `n`-th element is the operand at time `r + n - 4095` when that is
    not negative, and padding otherwise. -/
theorem cummax_window {u : Shape} (y : S3.Idx → BitVec 32) (init : u.Idx → BitVec 32)
    (h : S3.ReduceWindows (![1, 4096, 1] : Fin 3 → Nat) ![1, 1, 1] ![0, 4095, 0] ![0, 0, 0] S3) (hu : 0 < u.numel)
    (b : Fin 32) (r : Fin 4096) (c : Fin 256) :
    ∃ g : Fin Win.numel → BitVec 32,
      Host.reduceWindow IntOp.maxsi ![1, 4096, 1] ![1, 1, 1] ![0, 4095, 0] ![0, 0, 0] y init h hu (ix3 b r c)
        = (List.finRange Win.numel).foldl (fun a n => IntOp.maxsi a (g n)) (init (Shape.Idx.first hu)) ∧
      ∀ n : Fin Win.numel, g n = if hn : 4095 ≤ r.val + n.val then
          y (ix3 b ⟨r.val + n.val - 4095, by have := r.isLt; have := lt_of_lt_of_eq n.isLt win_numel; omega⟩ c)
        else init (Shape.Idx.first hu) := by
  unfold Host.reduceWindow
  refine ⟨_, rfl, ?_⟩
  intro n
  obtain ⟨q0, q1, q2⟩ := win_symm n
  have hlt : n.val < 4096 := lt_of_lt_of_eq n.isLt win_numel
  by_cases hn : 4095 ≤ r.val + n.val
  · rw [dif_pos hn]
    split
    · congr 1
      funext a
      apply Fin.ext
      match a with
      | ⟨0, _⟩ => show b.val * 1 + ((Win.rowMajor.symm n) 0).val - 0 = b.val; omega
      | ⟨1, _⟩ => show r.val * 1 + ((Win.rowMajor.symm n) 1).val - 4095 = r.val + n.val - 4095; omega
      | ⟨2, _⟩ => show c.val * 1 + ((Win.rowMajor.symm n) 2).val - 0 = c.val; omega
    · rename_i hno
      exfalso
      apply hno
      intro a
      match a with
      | ⟨0, _⟩ =>
        show 0 ≤ b.val * 1 + ((Win.rowMajor.symm n) 0).val ∧ b.val * 1 + ((Win.rowMajor.symm n) 0).val - 0 < 32
        have := b.isLt; omega
      | ⟨1, _⟩ =>
        show 4095 ≤ r.val * 1 + ((Win.rowMajor.symm n) 1).val ∧ r.val * 1 + ((Win.rowMajor.symm n) 1).val - 4095 < 4096
        have := r.isLt; omega
      | ⟨2, _⟩ =>
        show 0 ≤ c.val * 1 + ((Win.rowMajor.symm n) 2).val ∧ c.val * 1 + ((Win.rowMajor.symm n) 2).val - 0 < 256
        have := c.isLt; omega
  · rw [dif_neg hn]
    rw [dif_neg]
    intro hin
    have h1 := (hin (⟨1, by decide⟩ : Fin S3.rank)).1
    change 4095 ≤ r.val * 1 + ((Win.rowMajor.symm n) 1).val at h1
    omega

/-- The reversed running minimum's window at time `r`: its `n`-th element is the operand at time `r + n` when that is
    below 4096, and padding otherwise. -/
theorem cummin_window {u : Shape} (y : S3.Idx → BitVec 32) (init : u.Idx → BitVec 32)
    (h : S3.ReduceWindows (![1, 4096, 1] : Fin 3 → Nat) ![1, 1, 1] ![0, 0, 0] ![0, 4095, 0] S3) (hu : 0 < u.numel)
    (b : Fin 32) (r : Fin 4096) (c : Fin 256) :
    ∃ g : Fin Win.numel → BitVec 32,
      Host.reduceWindow IntOp.minsi ![1, 4096, 1] ![1, 1, 1] ![0, 0, 0] ![0, 4095, 0] y init h hu (ix3 b r c)
        = (List.finRange Win.numel).foldl (fun a n => IntOp.minsi a (g n)) (init (Shape.Idx.first hu)) ∧
      ∀ n : Fin Win.numel, g n = if hn : r.val + n.val < 4096 then y (ix3 b ⟨r.val + n.val, hn⟩ c)
        else init (Shape.Idx.first hu) := by
  unfold Host.reduceWindow
  refine ⟨_, rfl, ?_⟩
  intro n
  obtain ⟨q0, q1, q2⟩ := win_symm n
  by_cases hn : r.val + n.val < 4096
  · rw [dif_pos hn]
    split
    · congr 1
      funext a
      apply Fin.ext
      match a with
      | ⟨0, _⟩ => show b.val * 1 + ((Win.rowMajor.symm n) 0).val - 0 = b.val; omega
      | ⟨1, _⟩ => show r.val * 1 + ((Win.rowMajor.symm n) 1).val - 0 = r.val + n.val; omega
      | ⟨2, _⟩ => show c.val * 1 + ((Win.rowMajor.symm n) 2).val - 0 = c.val; omega
    · rename_i hno
      exfalso
      apply hno
      intro a
      match a with
      | ⟨0, _⟩ =>
        show 0 ≤ b.val * 1 + ((Win.rowMajor.symm n) 0).val ∧ b.val * 1 + ((Win.rowMajor.symm n) 0).val - 0 < 32
        have := b.isLt; omega
      | ⟨1, _⟩ =>
        show 0 ≤ r.val * 1 + ((Win.rowMajor.symm n) 1).val ∧ r.val * 1 + ((Win.rowMajor.symm n) 1).val - 0 < 4096
        omega
      | ⟨2, _⟩ =>
        show 0 ≤ c.val * 1 + ((Win.rowMajor.symm n) 2).val ∧ c.val * 1 + ((Win.rowMajor.symm n) 2).val - 0 < 256
        have := c.isLt; omega
  · rw [dif_neg hn]
    rw [dif_neg]
    intro hin
    have h1 := (hin (⟨1, by decide⟩ : Fin S3.rank)).2
    change r.val * 1 + ((Win.rowMajor.symm n) 1).val - 0 < 4096 at h1
    omega

/-- A running maximum over the 4096 positions ending at `r` of "position if marked, else -1", padded below with a
    word less than -1, is the last marked position at or before `r`, or -1. -/
theorem isLast_of_scan (v : Nat → Prop) (r : Fin 4096) (g : Fin Win.numel → BitVec 32) (init : BitVec 32)
    (hinit : init.toInt < -1)
    (hg : ∀ n : Fin Win.numel, (r.val + n.val < 4095 ∧ g n = init) ∨
      (4095 ≤ r.val + n.val ∧ ((v (r.val + n.val - 4095) ∧ (g n).toInt = ((r.val + n.val - 4095 : Nat) : Int)) ∨
        (¬ v (r.val + n.val - 4095) ∧ (g n).toInt = -1)))) :
    IsLast v 4096 r.val ((List.finRange Win.numel).foldl (fun a n => IntOp.maxsi a (g n)) init).toInt := by
  obtain ⟨h1, h2, h3⟩ := foldl_maxsi_fin g init
  generalize (List.finRange Win.numel).foldl (fun a n => IntOp.maxsi a (g n)) init = m at h1 h2 h3 ⊢
  have hr := r.isLt
  have hge : -1 ≤ m.toInt := by
    have hn0 : 4095 < Win.numel := by rw [win_numel]; omega
    have h := h2 ⟨4095, hn0⟩
    rcases hg ⟨4095, hn0⟩ with ⟨hlt, _⟩ | ⟨_, ⟨_, e⟩ | ⟨_, e⟩⟩
    · simp only at hlt; omega
    · simp only at e; omega
    · omega
  refine ⟨?_, ?_⟩
  · rcases h3 with h | ⟨n, h⟩
    · rw [h] at hge; omega
    · have hn := lt_of_lt_of_eq n.isLt win_numel
      rcases hg n with ⟨_, e⟩ | ⟨hn', ⟨hv, e⟩ | ⟨hv, e⟩⟩
      · rw [h, e] at hge; omega
      · right
        rw [h, e]
        refine ⟨by omega, by omega, by omega, ?_⟩
        rw [Int.toNat_natCast]; exact hv
      · left; rw [h, e]
  · intro s hs1 hs2 hv
    have hn' : s + 4095 - r.val < Win.numel := by rw [win_numel]; omega
    have h := h2 ⟨s + 4095 - r.val, hn'⟩
    have es : r.val + (s + 4095 - r.val) - 4095 = s := by omega
    rcases hg ⟨s + 4095 - r.val, hn'⟩ with ⟨hlt, _⟩ | ⟨_, ⟨_, e⟩ | ⟨hv', _⟩⟩
    · simp only at hlt; omega
    · simp only at e; rw [es] at e; omega
    · simp only at hv'; rw [es] at hv'; exact absurd hv hv'

/-- A running minimum over the 4096 positions starting at `r` of "position if marked, else 4096", padded above with a
    word greater than 4096, is the first marked position at or after `r`, or 4096. -/
theorem isFirst_of_scan (v : Nat → Prop) (r : Fin 4096) (g : Fin Win.numel → BitVec 32) (init : BitVec 32)
    (hinit : 4096 < init.toInt)
    (hg : ∀ n : Fin Win.numel, (4096 ≤ r.val + n.val ∧ g n = init) ∨
      (r.val + n.val < 4096 ∧ ((v (r.val + n.val) ∧ (g n).toInt = ((r.val + n.val : Nat) : Int)) ∨
        (¬ v (r.val + n.val) ∧ (g n).toInt = 4096)))) :
    IsFirst 4096 v 4096 r.val ((List.finRange Win.numel).foldl (fun a n => IntOp.minsi a (g n)) init).toInt := by
  obtain ⟨h1, h2, h3⟩ := foldl_minsi_fin g init
  generalize (List.finRange Win.numel).foldl (fun a n => IntOp.minsi a (g n)) init = m at h1 h2 h3 ⊢
  have hr := r.isLt
  have hle : m.toInt ≤ 4096 := by
    have hn0 : 0 < Win.numel := by rw [win_numel]; omega
    have h := h2 ⟨0, hn0⟩
    rcases hg ⟨0, hn0⟩ with ⟨hlt, _⟩ | ⟨_, ⟨_, e⟩ | ⟨_, e⟩⟩
    · simp only at hlt; omega
    · simp only at e; omega
    · omega
  refine ⟨?_, ?_⟩
  · rcases h3 with h | ⟨n, h⟩
    · rw [h] at hle; omega
    · have hn := lt_of_lt_of_eq n.isLt win_numel
      rcases hg n with ⟨_, e⟩ | ⟨hn', ⟨hv, e⟩ | ⟨hv, e⟩⟩
      · rw [h, e] at hle; omega
      · right
        rw [h, e]
        refine ⟨by omega, by omega, by omega, ?_⟩
        rw [Int.toNat_natCast]; exact hv
      · left; rw [h, e]; rfl
  · intro s hs1 hs2 hs3 hv
    have hn' : s - r.val < Win.numel := by rw [win_numel]; omega
    have h := h2 ⟨s - r.val, hn'⟩
    have es : r.val + (s - r.val) = s := by omega
    rcases hg ⟨s - r.val, hn'⟩ with ⟨hlt, _⟩ | ⟨_, ⟨_, e⟩ | ⟨hv', _⟩⟩
    · simp only at hlt; omega
    · simp only at e; rw [es] at e; omega
    · simp only at hv'; rw [es] at hv'; exact absurd hv hv'

/-! ## The batched gather along the time axis, read at an index -/

/-- The start-indices shape: the array shape with a trailing axis of one. -/
abbrev S4 : Shape := ⟨4, ![32, 4096, 256, 1]⟩

/-- `take_along_axis` along time: batch and feature are batching axes, time is indexed, every slice one element. -/
abbrev alongDims (wf : GatherDims.WF S3 S4 S3 [] [1] [0, 2] [1] [0, 2] 3 ![1, 1, 1]) : GatherDims S3 S4 S3 where
  offsetDims := []
  collapsedSliceDims := [1]
  operandBatchingDims := [0, 2]
  startIndicesBatchingDims := [0, 2]
  startIndexMap := [1]
  indexVectorDim := 3
  sliceSizes := ![1, 1, 1]
  wf := wf

theorem mem_02_0 (h : 0 < 3) : (⟨0, h⟩ : Fin 3) ∈ ([0, 2] : List (Fin 3)) := List.mem_cons.2 (Or.inl rfl)
theorem mem_02_2 (h : 2 < 3) : (⟨2, h⟩ : Fin 3) ∈ ([0, 2] : List (Fin 3)) :=
  List.mem_cons.2 (Or.inr (List.mem_cons.2 (Or.inl rfl)))
theorem not_mem_02_1 (h : 1 < 3) : (⟨1, h⟩ : Fin 3) ∉ ([0, 2] : List (Fin 3)) := by
  intro hm
  rcases List.mem_cons.1 hm with e | hm
  · have e' : (1 : Nat) = 0 := congrArg Fin.val e
    exact absurd e' (by decide)
  · rcases List.mem_cons.1 hm with e | hm
    · have e' : (1 : Nat) = 2 := congrArg Fin.val e
      exact absurd e' (by decide)
    · cases hm
theorem mem_1_1 (h : 1 < 3) : (⟨1, h⟩ : Fin 3) ∈ ([1] : List (Fin 3)) := List.mem_singleton.2 rfl

/-- The gather at batch `b`, time `r`, feature `c` is the operand at the same batch and feature and at the time
    the start index names, read signed and clamped into `[0, 4095]`. -/
theorem gather_along_apply {α : Type} (wf : GatherDims.WF S3 S4 S3 [] [1] [0, 2] [1] [0, 2] 3 ![1, 1, 1])
    (x : S3.Idx → α) (idx : IVec S4 32) (b : Fin 32) (r : Fin 4096) (c : Fin 256) :
    Host.gather (alongDims wf) x idx (ix3 b r c)
      = x (ix3 b ⟨min (idx (ix4 b r c (0 : Fin 1))).toInt.toNat 4095, by omega⟩ c) := by
  unfold Host.gather
  congr 1
  funext a
  refine Fin.ext ?_
  show (alongDims wf).start (ix3 b r c) idx a + (alongDims wf).batchCoord (ix3 b r c) a
    + (alongDims wf).offCoord (ix3 b r c) a = _
  match a with
  | ⟨0, _⟩ =>
    rw [GatherDims.start_batching _ _ _ _ (mem_02_0 _),
      GatherDims.offCoord_eq_zero _ _ _ (fun h => ((GatherDims.mem_sKept _ _).mp h).2 (mem_02_0 _))]
    simp only [Nat.zero_add, Nat.add_zero]
    rfl
  | ⟨1, _⟩ =>
    rw [GatherDims.batchCoord_eq_zero _ _ _ (not_mem_02_1 _),
      GatherDims.offCoord_eq_zero _ _ _ (fun h => ((GatherDims.mem_sKept _ _).mp h).1 (mem_1_1 _))]
    simp only [Nat.add_zero]
    unfold GatherDims.start
    rw [dif_pos (show (⟨1, by decide⟩ : Fin S3.rank) ∈ (alongDims wf).startIndexMap from List.mem_singleton.mpr rfl)]
    have hsi : (alongDims wf).siIdx (ix3 b r c) ⟨List.idxOf (⟨1, by decide⟩ : Fin S3.rank) (alongDims wf).startIndexMap,
        List.idxOf_lt_length_iff.2 (List.mem_singleton.mpr rfl)⟩ = ix4 b r c (0 : Fin 1) := by
      funext k; refine Fin.ext ?_
      match k with
      | ⟨0, _⟩ => rfl
      | ⟨1, _⟩ => rfl
      | ⟨2, _⟩ => rfl
      | ⟨3, _⟩ => rfl
    rw [hsi]
    rfl
  | ⟨2, _⟩ =>
    rw [GatherDims.start_batching _ _ _ _ (mem_02_2 _),
      GatherDims.offCoord_eq_zero _ _ _ (fun h => ((GatherDims.mem_sKept _ _).mp h).2 (mem_02_2 _))]
    simp only [Nat.zero_add, Nat.add_zero]
    rfl

/-- The same with the start index and the clamped position named. -/
theorem gather_along_at {α : Type} (wf : GatherDims.WF S3 S4 S3 [] [1] [0, 2] [1] [0, 2] 3 ![1, 1, 1])
    (x : S3.Idx → α) (idx : IVec S4 32) (b : Fin 32) (r : Fin 4096) (c : Fin 256) (q : BitVec 32)
    (hq : idx (ix4 b r c (0 : Fin 1)) = q) (k : Nat) (hk : k < 4096) (hqk : min q.toInt.toNat 4095 = k) :
    Host.gather (alongDims wf) x idx (ix3 b r c) = x (ix3 b ⟨k, hk⟩ c) := by
  rw [gather_along_apply]
  congr 1
  funext a
  apply Fin.ext
  match a with
  | ⟨0, _⟩ => rfl
  | ⟨1, _⟩ =>
    show min (idx (ix4 b r c (0 : Fin 1))).toInt.toNat 4095 = k
    rw [hq]; exact hqk
  | ⟨2, _⟩ => rfl

/-- The array at `(b, k, c)` is the column's entry at `k`. -/
theorem colOf_at (x : S3.Idx → EReal) (b : Fin 32) (c : Fin 256) (k : Nat) (hk : k < 4096) :
    x (ix3 b ⟨k, hk⟩ c) = colOf x b c k := by
  unfold colOf; rw [dif_pos hk]

/-! ## Words: the clip, the wrap of a negative index, the bounds check, the interior condition -/

/-- A word between 0 and 4095 passes the clip into `[0, 4095]` and the wrap of a negative index unchanged. -/
theorem clip_wrap_id (q : BitVec 32) (h0 : 0 ≤ q.toInt) (h1 : q.toInt ≤ 4095) :
    Scalar.select (IntOp.cmpi .slt (IntOp.minsi 4095#32 (IntOp.maxsi 0#32 q)) 0#32)
      (IntOp.addi (IntOp.minsi 4095#32 (IntOp.maxsi 0#32 q)) 4096#32) (IntOp.minsi 4095#32 (IntOp.maxsi 0#32 q)) = q := by
  have e1 : IntOp.maxsi 0#32 q = q := by
    unfold IntOp.maxsi
    rw [if_neg]
    simp only [BitVec.slt, decide_eq_true_eq, toInt_zero32]
    omega
  have e2 : IntOp.minsi 4095#32 q = q := by
    unfold IntOp.minsi
    rw [if_neg]
    simp only [BitVec.slt, decide_eq_true_eq, toInt_4095]
    omega
  have e3 : IntOp.cmpi .slt q 0#32 = 0#1 := by
    unfold IntOp.cmpi
    have : q.slt 0#32 = false := by
      simp only [BitVec.slt, toInt_zero32, decide_eq_false_iff_not]
      omega
    simp only [this]
    rfl
  rw [e1, e2, e3]
  exact select_zero _ _

/-- A word between 0 and 4095 passes the bounds check `0 ≤ q ∧ q ≤ 4095`. -/
theorem bounds_bit (q : BitVec 32) (h0 : 0 ≤ q.toInt) (h1 : q.toInt ≤ 4095) :
    IntOp.andi (IntOp.cmpi .sge q 0#32) (IntOp.cmpi .sle q 4095#32) = 1#1 := by
  have e1 : IntOp.cmpi .sge q 0#32 = 1#1 := by
    unfold IntOp.cmpi
    have : (0#32 : BitVec 32).sle q = true := by
      simp only [BitVec.sle, toInt_zero32, decide_eq_true_eq]
      exact h0
    simp only [this]
    rfl
  have e2 : IntOp.cmpi .sle q 4095#32 = 1#1 := by
    unfold IntOp.cmpi
    have : q.sle 4095#32 = true := by
      simp only [BitVec.sle, toInt_4095, decide_eq_true_eq]
      exact h1
    simp only [this]
    rfl
  rw [e1, e2]
  rfl

/-- The interior condition as the program computes it, one bit, against the proposition it decides. -/
theorem interior_bit (a : EReal) (p n : BitVec 32) :
    IntOp.andi (IntOp.andi (~~~ (Ideal.cmp .une a 0)) (IntOp.cmpi .sge p 0#32)) (IntOp.cmpi .slt n 4096#32)
      = if a = 0 ∧ 0 ≤ p.toInt ∧ n.toInt < 4096 then 1#1 else 0#1 := by
  have e1 : ~~~ (Ideal.cmp .une a 0) = if a = 0 then 1#1 else 0#1 := by
    unfold Ideal.cmp
    by_cases h : a = 0
    · rw [if_pos h]; simp [h]
    · rw [if_neg h]; simp [h]
  have e2 : IntOp.cmpi .sge p 0#32 = if 0 ≤ p.toInt then 1#1 else 0#1 := by
    unfold IntOp.cmpi
    simp only [BitVec.sle, toInt_zero32]
    by_cases h : 0 ≤ p.toInt
    · rw [if_pos h]; simp [h]
    · rw [if_neg h]; simp [h]
  have e3 : IntOp.cmpi .slt n 4096#32 = if n.toInt < 4096 then 1#1 else 0#1 := by
    unfold IntOp.cmpi
    simp only [BitVec.slt, toInt_4096]
    by_cases h : n.toInt < 4096
    · rw [if_pos h]; simp [h]
    · rw [if_neg h]; simp [h]
  rw [e1, e2, e3]
  unfold IntOp.andi
  by_cases h1 : a = 0 <;> by_cases h2 : 0 ≤ p.toInt <;> by_cases h3 : n.toInt < 4096 <;> simp [h1, h2, h3]

/-- A reduction by `and` from 1 over elements that are all 1 is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  have key : ∀ (l : List s.Idx) (a : BitVec 1), a = 1#1 → (∀ i ∈ l, x i = 1#1) →
      l.foldl (fun r i => IntOp.andi r (x i)) a = 1#1 := by
    intro l
    induction l with
    | nil => intro a ha _; exact ha
    | cons i l ih =>
      intro a ha hl
      rw [List.foldl_cons]
      apply ih
      · rw [ha, hl i (List.mem_cons.2 (Or.inl rfl))]; rfl
      · intro k hk; exact hl k (List.mem_cons.2 (Or.inr hk))
  apply key _ _ hinit
  intro i hi
  have h2 := (List.mem_filter.1 hi).2
  exact hx i (by simpa using h2)

/-! ## The reference's scanned arrays at an index -/

/-- The time positions broadcast over the array read `r` at time `r`. -/
theorem tcol_at (b : Fin 32) (r : Fin 4096) (c : Fin 256) :
    (broadcastInDim S32x4096x256 ![0, 1, 2] bcast_S1x4096x1_S32x4096x256_0_1_2 tcolR) (ix3 b r c)
      = BitVec.ofNat 32 r.val := by
  rw [broadcastInDim_apply _ bcast_S1x4096x1_S32x4096x256_0_1_2 tcolR (ix3 b r c)
    (ix3 (⟨0, Nat.one_pos⟩ : Fin 1) r (⟨0, Nat.one_pos⟩ : Fin 1)) (fun a => match a with
      | ⟨0, _⟩ => by show 0 = if (1 : Nat) = 1 then 0 else b.val; rw [if_pos rfl]
      | ⟨1, _⟩ => by show r.val = if (4096 : Nat) = 1 then 0 else r.val; rw [if_neg (by decide)]
      | ⟨2, _⟩ => by show 0 = if (1 : Nat) = 1 then 0 else c.val; rw [if_pos rfl])]
  unfold tcolR
  rw [broadcastInDim_apply _ bcast_S4096_S1x4096x1_1 (iotaInDim S4096 32 0)
    (ix3 (⟨0, Nat.one_pos⟩ : Fin 1) r (⟨0, Nat.one_pos⟩ : Fin 1)) (ix1 r) (fun a => match a with
      | ⟨0, _⟩ => by show r.val = if (4096 : Nat) = 1 then 0 else r.val; rw [if_neg (by decide)])]
  rfl

/-- The array a scan reads: the position where the entry is nonzero, the word `k` elsewhere. -/
theorem whereT_at (x : (⟨S32x4096x256, .f32⟩ : BufTy).Contents (Elt Ideal)) (k : BitVec 32) (b : Fin 32) (s : Fin 4096) (c : Fin 256) :
    whereT tcolR (validR (F := Ideal) x) k (ix3 b s c) =
      if colOf x b c s.val ≠ 0 then BitVec.ofNat 32 s.val else k := by
  rw [colOf_lt]
  show Scalar.select (Ideal.cmp .une (x (ix3 b s c)) (Ideal.ofBits .f32 0x00000000#32))
    ((broadcastInDim S32x4096x256 ![0, 1, 2] bcast_S1x4096x1_S32x4096x256_0_1_2 tcolR) (ix3 b s c)) k = _
  rw [tcol_at, Ideal.ofBits_zero_f32]
  unfold Ideal.cmp Scalar.select
  by_cases h : x (ix3 b s c) = 0
  · simp [h]
  · simp [h]

/-- The running maximum at `(b, r, c)` is the last nonzero position of the column at or before `r`, or -1. -/
theorem cummaxR_isLast (x : (⟨S32x4096x256, .f32⟩ : BufTy).Contents (Elt Ideal)) (b : Fin 32) (r : Fin 4096) (c : Fin 256) :
    IsLast (fun s => colOf x b c s ≠ 0) 4096 r.val
      (cummaxR (whereT tcolR (validR (F := Ideal) x) 4294967295#32) (ix3 b r c)).toInt := by
  obtain ⟨g, hfold, hg⟩ := cummax_window (whereT tcolR (validR (F := Ideal) x) 4294967295#32)
    (broadcastInDim S_ ![] bcast_S_S_ (constantI S_ 32 2147483648#32))
    reduceWindows_S32x4096x256_S32x4096x256_w1s1p0_0_w4096s1p4095_0_w1s1p0_0 h_S_ b r c
  have hv5 : cummaxR (whereT tcolR (validR (F := Ideal) x) 4294967295#32) (ix3 b r c)
      = (List.finRange Win.numel).foldl (fun a n => IntOp.maxsi a (g n))
        ((broadcastInDim S_ ![] bcast_S_S_ (constantI S_ 32 2147483648#32)) (Shape.Idx.first h_S_)) := hfold
  rw [hv5]
  apply isLast_of_scan
  · show (2147483648#32 : BitVec 32).toInt < -1
    decide
  · intro n
    rw [hg n]
    have hlt := lt_of_lt_of_eq n.isLt win_numel
    by_cases hn : 4095 ≤ r.val + n.val
    · right
      refine ⟨hn, ?_⟩
      rw [dif_pos hn, whereT_at]
      by_cases hm : colOf x b c (r.val + n.val - 4095) ≠ 0
      · left
        refine ⟨hm, ?_⟩
        rw [if_pos hm]
        exact toInt_ofNat_small (by show r.val + n.val - 4095 < 4096; have := r.isLt; omega)
      · right
        refine ⟨hm, ?_⟩
        rw [if_neg hm]
        exact toInt_neg_one
    · left
      exact ⟨by omega, by rw [dif_neg hn]⟩

/-- The reversed running minimum at `(b, r, c)` is the first nonzero position of the column at or after `r`, or 4096. -/
theorem cumminR_isFirst (x : (⟨S32x4096x256, .f32⟩ : BufTy).Contents (Elt Ideal)) (b : Fin 32) (r : Fin 4096) (c : Fin 256) :
    IsFirst 4096 (fun s => colOf x b c s ≠ 0) 4096 r.val
      (cumminR (whereT tcolR (validR (F := Ideal) x) 4096#32) (ix3 b r c)).toInt := by
  obtain ⟨g, hfold, hg⟩ := cummin_window (whereT tcolR (validR (F := Ideal) x) 4096#32)
    (broadcastInDim S_ ![] bcast_S_S_ (constantI S_ 32 2147483647#32))
    reduceWindows_S32x4096x256_S32x4096x256_w1s1p0_0_w4096s1p0_4095_w1s1p0_0 h_S_ b r c
  have hv7 : cumminR (whereT tcolR (validR (F := Ideal) x) 4096#32) (ix3 b r c)
      = (List.finRange Win.numel).foldl (fun a n => IntOp.minsi a (g n))
        ((broadcastInDim S_ ![] bcast_S_S_ (constantI S_ 32 2147483647#32)) (Shape.Idx.first h_S_)) := hfold
  rw [hv7]
  apply isFirst_of_scan
  · show 4096 < (2147483647#32 : BitVec 32).toInt
    decide
  · intro n
    rw [hg n]
    by_cases hn : r.val + n.val < 4096
    · right
      refine ⟨hn, ?_⟩
      rw [dif_pos hn, whereT_at]
      by_cases hm : colOf x b c (r.val + n.val) ≠ 0
      · left
        refine ⟨hm, ?_⟩
        rw [if_pos hm]
        exact toInt_ofNat_small hn
      · right
        refine ⟨hm, ?_⟩
        rw [if_neg hm]
        exact toInt_4096
    · left
      exact ⟨by omega, by rw [dif_neg hn]⟩

/-! ## The lookup along time at a clamped neighbour -/

/-- The positions handed to the gather, at the start index with coordinates `(b, r, c, ·)`: the position at
    `(b, r, c)`, moved up by 4096 when negative. -/
theorem takeIdx_at (idx : IVec S32x4096x256 32) (i : S32x4096x256x1.Idx) (b : Fin 32) (r : Fin 4096) (c : Fin 256)
    (h0 : (i 0).val = b.val) (h1 : (i 1).val = r.val) (h2 : (i 2).val = c.val) :
    takeIdxR idx i = Scalar.select (IntOp.cmpi .slt (idx (ix3 b r c)) 0#32)
      (IntOp.addi (idx (ix3 b r c)) 4096#32) (idx (ix3 b r c)) := by
  unfold takeIdxR
  rw [shapeCast_apply _ shapeCasts_S32x4096x256_S32x4096x256x1 i (ix3 b r c) (by
    rw [Shape.rowMajor_val_three, Shape.rowMajor_val_four]
    have h3 : (i 3).val < 1 := (i 3).isLt
    show (b.val * 4096 + r.val) * 256 + c.val = (((i 0).val * 4096 + (i 1).val) * 256 + (i 2).val) * 1 + (i 3).val
    omega)]
  rfl

/-- A neighbour between 0 and 4095 reaches the gather unchanged by the clip and the wrap. -/
theorem takeIdx_clip_at (p : IVec S32x4096x256 32) (i : S32x4096x256x1.Idx) (b : Fin 32) (r : Fin 4096) (c : Fin 256)
    (hi0 : (i 0).val = b.val) (hi1 : (i 1).val = r.val) (hi2 : (i 2).val = c.val)
    (h0 : 0 ≤ (p (ix3 b r c)).toInt) (h1 : (p (ix3 b r c)).toInt ≤ 4095) :
    takeIdxR (clipR p) i = p (ix3 b r c) := by
  rw [takeIdx_at (clipR p) i b r c hi0 hi1 hi2]
  show Scalar.select (IntOp.cmpi .slt (IntOp.minsi 4095#32 (IntOp.maxsi 0#32 (p (ix3 b r c)))) 0#32)
    (IntOp.addi (IntOp.minsi 4095#32 (IntOp.maxsi 0#32 (p (ix3 b r c)))) 4096#32)
    (IntOp.minsi 4095#32 (IntOp.maxsi 0#32 (p (ix3 b r c)))) = _
  exact clip_wrap_id _ h0 h1

/-- Then the bounds check holds at `(b, r, c)`. -/
theorem takeOk_at (p : IVec S32x4096x256 32) (b : Fin 32) (r : Fin 4096) (c : Fin 256)
    (h0 : 0 ≤ (p (ix3 b r c)).toInt) (h1 : (p (ix3 b r c)).toInt ≤ 4095) :
    takeOkR (takeIdxR (clipR p)) (ix3 b r c) = 1#1 := by
  unfold takeOkR
  apply reduce_andi_one
  · rfl
  · intro i hi
    have e0 : (i 0).val = b.val := by
      have e := Shape.ReducesTo.drop_apply_val_of_eq reducesTo_S32x4096x256x1_S32x4096x256_d3 i
        ⟨0, by decide⟩ ⟨0, by decide⟩
      rw [hi] at e
      exact e.symm
    have e1 : (i 1).val = r.val := by
      have e := Shape.ReducesTo.drop_apply_val_of_eq reducesTo_S32x4096x256x1_S32x4096x256_d3 i
        ⟨1, by decide⟩ ⟨1, by decide⟩
      rw [hi] at e
      exact e.symm
    have e2 : (i 2).val = c.val := by
      have e := Shape.ReducesTo.drop_apply_val_of_eq reducesTo_S32x4096x256x1_S32x4096x256_d3 i
        ⟨2, by decide⟩ ⟨2, by decide⟩
      rw [hi] at e
      exact e.symm
    show IntOp.andi (IntOp.cmpi .sge (takeIdxR (clipR p) i) 0#32) (IntOp.cmpi .sle (takeIdxR (clipR p) i) 4095#32) = 1#1
    rw [takeIdx_clip_at p i b r c e0 e1 e2 h0 h1]
    exact bounds_bit _ h0 h1

/-- The value looked up at a neighbour between 0 and 4095 is the column's entry there. -/
theorem takeR_at (x : (⟨S32x4096x256, .f32⟩ : BufTy).Contents (Elt Ideal)) (p : IVec S32x4096x256 32) (b : Fin 32) (r : Fin 4096) (c : Fin 256)
    (h0 : 0 ≤ (p (ix3 b r c)).toInt) (h1 : (p (ix3 b r c)).toInt ≤ 4095) :
    takeR (F := Ideal) x (clipR p) (ix3 b r c) = colOf x b c (p (ix3 b r c)).toInt.toNat := by
  have hok : takeOkR (takeIdxR (clipR p)) (ix3 b r c) = 1#1 := takeOk_at p b r c h0 h1
  have hq : takeIdxR (clipR p) (ix4 b r c (0 : Fin 1)) = p (ix3 b r c) :=
    takeIdx_clip_at p (ix4 b r c (0 : Fin 1)) b r c rfl rfl rfl h0 h1
  have hk : (p (ix3 b r c)).toInt.toNat < 4096 := by omega
  have hdims : gather_S32x4096x256_S32x4096x256x1_S32x4096x256_n_1_02_02_1_3_111 = alongDims gather_S32x4096x256_S32x4096x256x1_S32x4096x256_n_1_02_02_1_3_111_wf := rfl
  show Scalar.select (takeOkR (takeIdxR (clipR p)) (ix3 b r c))
    (Host.gather gather_S32x4096x256_S32x4096x256x1_S32x4096x256_n_1_02_02_1_3_111 x (takeIdxR (clipR p)) (ix3 b r c))
    (FloatOps.ofBits (F := Ideal) .f32 0x7FC00000#32) = _
  rw [hok, select_one, hdims,
    gather_along_at _ x (takeIdxR (clipR p)) b r c _ hq _ hk (Nat.min_eq_left (by omega))]
  exact colOf_at x b c _ hk

/-! ## The reference's result at an index -/

/-- The interior condition at `(b, r, c)`. -/
theorem interiorR_at (x : (⟨S32x4096x256, .f32⟩ : BufTy).Contents (Elt Ideal)) (p n : IVec S32x4096x256 32) (b : Fin 32) (r : Fin 4096) (c : Fin 256) :
    interiorR (validR (F := Ideal) x) p n (ix3 b r c) =
      if colOf x b c r.val = 0 ∧ 0 ≤ (p (ix3 b r c)).toInt ∧ (n (ix3 b r c)).toInt < 4096 then 1#1 else 0#1 := by
  rw [colOf_lt]
  show IntOp.andi (IntOp.andi (~~~ (Ideal.cmp .une (x (ix3 b r c)) (Ideal.ofBits .f32 0x00000000#32)))
    (IntOp.cmpi .sge (p (ix3 b r c)) 0#32)) (IntOp.cmpi .slt (n (ix3 b r c)) 4096#32) = _
  rw [Ideal.ofBits_zero_f32]
  exact interior_bit _ _ _

/-- The interpolation formula and the final choice, read at an index. -/
theorem tailR_apply (x : (⟨S32x4096x256, .f32⟩ : BufTy).Contents (Elt Ideal)) (tc : IVec S1x4096x1 32) (p n : IVec S32x4096x256 32)
    (xp xn : FVec Ideal S32x4096x256 .f32) (interior : IVec S32x4096x256 1) (j : S32x4096x256.Idx) :
    tailR (F := Ideal) x tc p n xp xn interior j =
      Scalar.select (interior j)
        ((xp j : EReal) + ((xn j : EReal) - (xp j : EReal)) * Ideal.div
          (((IntOp.subi (IntOp.subi
            ((broadcastInDim S32x4096x256 ![0, 1, 2] bcast_S1x4096x1_S32x4096x256_0_1_2 tc) j) (p j)) 1#32).toInt : ℝ) : EReal)
          (((IntOp.maxsi (IntOp.subi (IntOp.subi (IntOp.subi (n j) (p j)) 1#32) 1#32) 1#32).toInt : ℝ) : EReal))
        (x j) := rfl

/-- The interpolation and the final choice at `(b, r, c)`, for any two arrays of neighbours whose entries there are,
    when they name a position at all, between 0 and 4095: the value `fill` writes from them. -/
theorem tail_at (x : (⟨S32x4096x256, .f32⟩ : BufTy).Contents (Elt Ideal)) (p n : IVec S32x4096x256 32) (b : Fin 32) (r : Fin 4096) (c : Fin 256)
    (hp : 0 ≤ (p (ix3 b r c)).toInt → (p (ix3 b r c)).toInt ≤ 4095) (hn : (n (ix3 b r c)).toInt < 4096 → 0 ≤ (n (ix3 b r c)).toInt) :
    tailR (F := Ideal) x tcolR p n (takeR x (clipR p)) (takeR x (clipR n)) (interiorR (validR (F := Ideal) x) p n) (ix3 b r c)
      = fill (colOf x b c) r.val (p (ix3 b r c)) (n (ix3 b r c)) := by
  rw [tailR_apply, interiorR_at, tcol_at]
  unfold fill
  by_cases hc : colOf x b c r.val = 0 ∧ 0 ≤ (p (ix3 b r c)).toInt ∧ (n (ix3 b r c)).toInt < 4096
  · rw [if_pos hc, if_pos hc, select_one]
    obtain ⟨hz, hp0, hn1⟩ := hc
    rw [takeR_at x p b r c hp0 (hp hp0), takeR_at x n b r c (hn hn1) (by omega)]
  · rw [if_neg hc, if_neg hc, select_zero]
    exact (colOf_lt x b c r).symm

/-- THE REFERENCE AT `(b, r, c)`: with `p` the last nonzero position at or before `r` (or -1) and `n` the first at or
    after `r` (or 4096), the result is what `fill` writes from these two neighbours. -/
theorem ref_at (x : (⟨S32x4096x256, .f32⟩ : BufTy).Contents (Elt Ideal)) (b : Fin 32) (r : Fin 4096) (c : Fin 256) :
    ∃ p n : BitVec 32,
      IsLast (fun s => colOf x b c s ≠ 0) 4096 r.val p.toInt ∧
      IsFirst 4096 (fun s => colOf x b c s ≠ 0) 4096 r.val n.toInt ∧
      refFn (F := Ideal) x (ix3 b r c) = fill (colOf x b c) r.val p n := by
  have hL := cummaxR_isLast x b r c
  have hF := cumminR_isFirst x b r c
  have hr := r.isLt
  refine ⟨cummaxR (whereT tcolR (validR (F := Ideal) x) 4294967295#32) (ix3 b r c),
    cumminR (whereT tcolR (validR (F := Ideal) x) 4096#32) (ix3 b r c), hL, hF, ?_⟩
  refine tail_at x (cummaxR (whereT tcolR (validR (F := Ideal) x) 4294967295#32))
    (cumminR (whereT tcolR (validR (F := Ideal) x) 4096#32)) b r c ?_ ?_
  · intro h0
    rcases hL.1 with h | ⟨_, _, h, _⟩ <;> omega
  · intro h1
    rcases hF.1 with h | ⟨h, _⟩ <;> omega

end Cert.Impute

end
-- ==== Proof.Bridge.lean ====
/-
  From blocks to the whole array, and the two programs side by side.

  The grid has 32 × 2 points; point (b, h) reads the block of batch `b`, all 4096 time positions, features
  128·h … 128·h + 127, and writes the block of the same place.  So column `l` of the block is column 128·h + l of
  batch `b` of the array, the blocks tile the array, and the array after the run holds, at every index, `fill` of
  its column with the two extremal neighbours.  The reference computes `fill` of the same column with neighbours that
  satisfy the same two characterisations; these determine the neighbours, so the two results are one function.
-/
import proofs.«100392_j29815662968983_1_alg».proof.Proof.KernelBlocks
import proofs.«100392_j29815662968983_1_alg».proof.Proof.RefSide
import proofs.«100392_j29815662968983_1_alg».proof.Proof.Gen.KernelIdeal.Value

set_option maxRecDepth 16384

noncomputable section

namespace Cert.Impute

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The two index maps over the grid: the same batch, time block 0, the same feature block. -/
theorem index_facts : ∀ t : Fin cfg0.N,
    win0_0.index t (0 : Fin 3) = win0_1.index t (0 : Fin 3) ∧ win0_0.index t (1 : Fin 3) = 0
    ∧ win0_0.index t (2 : Fin 3) = win0_1.index t (2 : Fin 3) ∧ win0_1.index t (1 : Fin 3) = 0
    ∧ win0_1.index t (0 : Fin 3) < 32 ∧ win0_1.index t (2 : Fin 3) < 2 :=
  (by decide +kernel : ∀ t : Fin grid0.N, _)

/-- Every (batch, feature block) is some grid point's. -/
theorem index_onto : ∀ (q0 : Fin 32) (q2 : Fin 2), ∃ t : Fin cfg0.N, win0_1.index t = ![q0.val, 0, q2.val] :=
  (by decide +kernel : ∀ (q0 : Fin 32) (q2 : Fin 2), ∃ t : Fin grid0.N, win0_1.index t = ![q0.val, 0, q2.val])

/-- The function both programs compute, taken as the reference's composition of stage functions. -/
abbrev G (x : S32x4096x256.Idx → EReal) : S32x4096x256.Idx → EReal :=
  refFn (F := Ideal) x

/-- WHAT POINT `t` WRITES BACK is block `t` of `G` of the argument array. -/
theorem flushed_eq (c : Dev nD) (t : Fin cfg0.N) :
    (dats m 0 c).flushed 1 t = ((cfg0.win 1).blk t).view.read (Elt Ideal) (G (V m c main_arg0)) := by
  rw [flushed1, body_eq, View.canon_unit_zero zero3]
  simp only [View.ld_unit_zero (S := S1x4096x128) zero3]
  obtain ⟨e0, e1, e2, e3, e4, e5⟩ := index_facts t
  refine funext fun (y : S1x4096x128.Idx) => ?_
  show shapeCast S1x4096x128 (bodyFn (F := Ideal) (shapeCast S4096x128 (iblk m c 0 t) _)) _ y
    = G (V m c main_arg0) (((cfg0.win 1).blk t).view.emb y)
  have hy0 : (y 0).val < 1 := (y 0).isLt
  have hy1 : (y 1).val < 4096 := (y 1).isLt
  have hy2 : (y 2).val < 128 := (y 2).isLt
  have hemb : ((cfg0.win 1).blk t).view.emb y
      = ix3 (⟨win0_1.index t (0 : Fin 3), e4⟩ : Fin 32) (y 1)
          (⟨win0_1.index t (2 : Fin 3) * 128 + (y 2).val, by omega⟩ : Fin 256) := by
    funext a; apply Fin.ext
    match a with
    | ⟨0, _⟩ => show win0_1.index t (0 : Fin 3) * 1 + 1 * (y 0).val = win0_1.index t (0 : Fin 3); omega
    | ⟨1, _⟩ => show win0_1.index t (1 : Fin 3) * 4096 + 1 * (y 1).val = (y 1).val; omega
    | ⟨2, _⟩ => show win0_1.index t (2 : Fin 3) * 128 + 1 * (y 2).val = win0_1.index t (2 : Fin 3) * 128 + (y 2).val; omega
  have hcol : colB (iblk m c 0 t) (y 2)
      = colOf (V m c main_arg0) (⟨win0_1.index t (0 : Fin 3), e4⟩ : Fin 32)
          (⟨win0_1.index t (2 : Fin 3) * 128 + (y 2).val, by omega⟩ : Fin 256) := by
    funext s
    unfold colB colOf
    by_cases h : s < 4096
    · rw [dif_pos h, dif_pos h]
      show V m c main_arg0 (((cfg0.win 0).blk t).view.emb (ix3 (0 : Fin 1) ⟨s, h⟩ (y 2))) = _
      refine congrArg (V m c main_arg0) ?_
      funext a; apply Fin.ext
      match a with
      | ⟨0, _⟩ => show win0_0.index t (0 : Fin 3) * 1 + 1 * 0 = win0_1.index t (0 : Fin 3); omega
      | ⟨1, _⟩ => show win0_0.index t (1 : Fin 3) * 4096 + 1 * s = s; omega
      | ⟨2, _⟩ => show win0_0.index t (2 : Fin 3) * 128 + 1 * (y 2).val = win0_1.index t (2 : Fin 3) * 128 + (y 2).val; omega
    · rw [dif_neg h, dif_neg h]
  obtain ⟨pK, nK, hpK, hnK, hK⟩ := block_at' (iblk m c 0 t) y
  obtain ⟨pR, nR, hpR, hnR, hR⟩ := ref_at (V m c main_arg0) (⟨win0_1.index t (0 : Fin 3), e4⟩ : Fin 32) (y 1)
    (⟨win0_1.index t (2 : Fin 3) * 128 + (y 2).val, by omega⟩ : Fin 256)
  rw [hcol] at hpK hnK hK
  have hp : pK = pR := BitVec.eq_of_toInt_eq (hpK.unique hpR)
  have hn : nK = nR := BitVec.eq_of_toInt_eq (hnK.unique hnR)
  rw [hK, hemb, hp, hn]
  exact hR.symm

/-- An index of the array is in point `t`'s block iff each coordinate is in the block's range on its axis. -/
theorem mem_blk (t : Fin cfg0.N) (i : S32x4096x256.Idx) :
    i ∈ ((cfg0.win 1).blk t).view.set ↔ ∀ a : Fin 3, win0_1.index t a * S1x4096x128.size a ≤ (i a).val
      ∧ (i a).val < win0_1.index t a * S1x4096x128.size a + S1x4096x128.size a := by
  show i ∈ ((View.whole main_v0).slice (win0_1.rect t)).set ↔ _
  rw [View.set_slice_whole, Rect.mem_set_unit]
  exact Iff.rfl

/-- The blocks tile the array: the point that covers index (b, r, c) is (b, c / 128). -/
theorem cover (i : S32x4096x256.Idx) :
    ∃ t : Fin cfg0.N, (cfg0.win 1).flush t = true ∧ i ∈ ((cfg0.win 1).blk t).view.set := by
  have hi0 : (i 0).val < 32 := (i 0).isLt
  have hi1 : (i 1).val < 4096 := (i 1).isLt
  have hi2 : (i 2).val < 256 := (i 2).isLt
  obtain ⟨t, ht⟩ := index_onto ⟨(i 0).val, hi0⟩ ⟨(i 2).val / 128, by omega⟩
  have q0 : win0_1.index t (0 : Fin 3) = (i 0).val := congrFun ht 0
  have q1 : win0_1.index t (1 : Fin 3) = 0 := congrFun ht 1
  have q2 : win0_1.index t (2 : Fin 3) = (i 2).val / 128 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- THE ARRAY after the run is `G` of the argument array. -/
theorem final (c : Dev nD) : (dats m 0 c).arrAt 1 cfg0.N = G (V m c main_arg0) :=
  (dats m 0 c).arrAt_eq_of_cover 1 (G (V m c main_arg0)) (fun t _ => flushed_eq m c t) cover

/-- The kernel's run, read: the result array at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.Impute

end
-- ==== Proof.RefOps.lean ====
/-
  The reference program's 112 host operations as a list, in fourteen consecutive stretches: the text of its `main`
  with each called function's body written out at the call over that call's buffers.  Each of the four folds (the two
  window folds and the two reductions over a unit axis) is a stretch of its own.  `main_eq`: the program is the run
  of the list in order.
-/
import proofs.«100392_j29815662968983_1_alg».proof.Proof.Gen.ReferenceIdeal
import Idealize.ShloMosaic.Lib.StableHlo.Run

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

/-- Operations 1–12 of the program. -/
abbrev ops1 : List (HloOp τ sig (Elt F)) :=
  [ StableHlo.nullary main_cst (constant S_ .f32 0x00000000#32),
    StableHlo.unary main_cst main_v0 (broadcastInDim S32x4096x256 ![] bcast_S_S32x4096x256 : (⟨S_, .f32⟩ : BufTy).Contents (Elt F) → (⟨S32x4096x256, .f32⟩ : BufTy).Contents (Elt F)),
    StableHlo.binary main_arg0 main_v0 main_v1 (cmpf .une : (⟨S32x4096x256, .f32⟩ : BufTy).Contents (Elt F) → (⟨S32x4096x256, .f32⟩ : BufTy).Contents (Elt F) → (⟨S32x4096x256, .i1⟩ : BufTy).Contents (Elt F)),
    StableHlo.nullary main_v2 (iotaInDim S4096 32 0),
    StableHlo.unary main_v2 main_v3 (broadcastInDim S1x4096x1 ![1] bcast_S4096_S1x4096x1_1 : (⟨S4096, .i32⟩ : BufTy).Contents (Elt F) → (⟨S1x4096x1, .i32⟩ : BufTy).Contents (Elt F)),
    StableHlo.nullary main_c (constantI S_ 32 4294967295#32),
    StableHlo.TRef.unary (StableHlo.TRef.of (T := ⟨S_, .i32⟩) main_c) main_call0.v0 id,
    StableHlo.TRef.unary (StableHlo.TRef.of (T := ⟨S1x4096x1, .i32⟩) main_v3) main_call0.v1 (broadcastInDim S32x4096x256 ![0, 1, 2] bcast_S1x4096x1_S32x4096x256_0_1_2),
    StableHlo.TRef.unary main_call0.v0 main_call0.v2 (broadcastInDim S32x4096x256 ![] bcast_S_S32x4096x256),
    StableHlo.TRef.ternary (StableHlo.TRef.of (T := ⟨S32x4096x256, .i1⟩) main_v1) main_call0.v1 main_call0.v2 main_call0.v3 select,
    StableHlo.TRef.nullary main_call1.c (constantI S_ 32 2147483648#32),
    StableHlo.TRef.unary main_call1.c main_call1.v0 (broadcastInDim S_ ![] bcast_S_S_) ]

/-- Operations 13–13 of the program. -/
abbrev ops2 : List (HloOp τ sig (Elt F)) :=
  [ StableHlo.TRef.binary (StableHlo.TRef.of (T := ⟨S32x4096x256, .i32⟩) main_v4) main_call1.v0 main_call1.v1 (fun x v => Host.reduceWindow IntOp.maxsi ![1, 4096, 1] ![1, 1, 1] ![0, 4095, 0] ![0, 0, 0] x v reduceWindows_S32x4096x256_S32x4096x256_w1s1p0_0_w4096s1p4095_0_w1s1p0_0 h_S_) ]

/-- Operations 14–20 of the program. -/
abbrev ops3 : List (HloOp τ sig (Elt F)) :=
  [ StableHlo.nullary main_c_0 (constantI S_ 32 4096#32),
    StableHlo.TRef.unary (StableHlo.TRef.of (T := ⟨S_, .i32⟩) main_c_0) main_call2.v0 id,
    StableHlo.TRef.unary (StableHlo.TRef.of (T := ⟨S1x4096x1, .i32⟩) main_v3) main_call2.v1 (broadcastInDim S32x4096x256 ![0, 1, 2] bcast_S1x4096x1_S32x4096x256_0_1_2),
    StableHlo.TRef.unary main_call2.v0 main_call2.v2 (broadcastInDim S32x4096x256 ![] bcast_S_S32x4096x256),
    StableHlo.TRef.ternary (StableHlo.TRef.of (T := ⟨S32x4096x256, .i1⟩) main_v1) main_call2.v1 main_call2.v2 main_call2.v3 select,
    StableHlo.TRef.nullary main_call3.c (constantI S_ 32 2147483647#32),
    StableHlo.TRef.unary main_call3.c main_call3.v0 (broadcastInDim S_ ![] bcast_S_S_) ]

/-- Operations 21–21 of the program. -/
abbrev ops4 : List (HloOp τ sig (Elt F)) :=
  [ StableHlo.TRef.binary (StableHlo.TRef.of (T := ⟨S32x4096x256, .i32⟩) main_v6) main_call3.v0 main_call3.v1 (fun x v => Host.reduceWindow IntOp.minsi ![1, 4096, 1] ![1, 1, 1] ![0, 0, 0] ![0, 4095, 0] x v reduceWindows_S32x4096x256_S32x4096x256_w1s1p0_0_w4096s1p0_4095_w1s1p0_0 h_S_) ]

/-- Operations 22–30 of the program. -/
abbrev ops5 : List (HloOp τ sig (Elt F)) :=
  [ StableHlo.unary main_v1 main_v8 (noti : (⟨S32x4096x256, .i1⟩ : BufTy).Contents (Elt F) → (⟨S32x4096x256, .i1⟩ : BufTy).Contents (Elt F)),
    StableHlo.nullary main_c_1 (constantI S_ 32 0#32),
    StableHlo.unary main_c_1 main_v9 (broadcastInDim S32x4096x256 ![] bcast_S_S32x4096x256 : (⟨S_, .i32⟩ : BufTy).Contents (Elt F) → (⟨S32x4096x256, .i32⟩ : BufTy).Contents (Elt F)),
    StableHlo.binary main_v5 main_v9 main_v10 (cmpi .sge : (⟨S32x4096x256, .i32⟩ : BufTy).Contents (Elt F) → (⟨S32x4096x256, .i32⟩ : BufTy).Contents (Elt F) → (⟨S32x4096x256, .i1⟩ : BufTy).Contents (Elt F)),
    StableHlo.binary main_v8 main_v10 main_v11 (andi : (⟨S32x4096x256, .i1⟩ : BufTy).Contents (Elt F) → (⟨S32x4096x256, .i1⟩ : BufTy).Contents (Elt F) → (⟨S32x4096x256, .i1⟩ : BufTy).Contents (Elt F)),
    StableHlo.nullary main_c_2 (constantI S_ 32 4096#32),
    StableHlo.unary main_c_2 main_v12 (broadcastInDim S32x4096x256 ![] bcast_S_S32x4096x256 : (⟨S_, .i32⟩ : BufTy).Contents (Elt F) → (⟨S32x4096x256, .i32⟩ : BufTy).Contents (Elt F)),
    StableHlo.binary main_v7 main_v12 main_v13 (cmpi .slt : (⟨S32x4096x256, .i32⟩ : BufTy).Contents (Elt F) → (⟨S32x4096x256, .i32⟩ : BufTy).Contents (Elt F) → (⟨S32x4096x256, .i1⟩ : BufTy).Contents (Elt F)),
    StableHlo.binary main_v11 main_v13 main_v14 (andi : (⟨S32x4096x256, .i1⟩ : BufTy).Contents (Elt F) → (⟨S32x4096x256, .i1⟩ : BufTy).Contents (Elt F) → (⟨S32x4096x256, .i1⟩ : BufTy).Contents (Elt F)) ]

/-- Operations 31–38 of the program. -/
abbrev ops6 : List (HloOp τ sig (Elt F)) :=
  [ StableHlo.nullary main_c_3 (constantI S_ 32 0#32),
    StableHlo.nullary main_c_4 (constantI S_ 32 4095#32),
    StableHlo.TRef.unary (StableHlo.TRef.of (T := ⟨S_, .i32⟩) main_c_3) main_call4.v0 id,
    StableHlo.TRef.unary main_call4.v0 main_call4.v1 (broadcastInDim S32x4096x256 ![] bcast_S_S32x4096x256),
    StableHlo.TRef.binary main_call4.v1 (StableHlo.TRef.of (T := ⟨S32x4096x256, .i32⟩) main_v5) main_call4.v2 maxsi,
    StableHlo.TRef.unary (StableHlo.TRef.of (T := ⟨S_, .i32⟩) main_c_4) main_call4.v3 id,
    StableHlo.TRef.unary main_call4.v3 main_call4.v4 (broadcastInDim S32x4096x256 ![] bcast_S_S32x4096x256),
    StableHlo.TRef.binary main_call4.v4 main_call4.v2 main_call4.v5 minsi ]

/-- Operations 39–55 of the program. -/
abbrev ops7 : List (HloOp τ sig (Elt F)) :=
  [ StableHlo.TRef.nullary main_call5.c (constantI S_ 32 0#32),
    StableHlo.TRef.unary main_call5.c main_call5.v0 (broadcastInDim S32x4096x256 ![] bcast_S_S32x4096x256),
    StableHlo.TRef.binary (StableHlo.TRef.of (T := ⟨S32x4096x256, .i32⟩) main_v15) main_call5.v0 main_call5.v1 (cmpi .slt),
    StableHlo.TRef.nullary main_call5.c_0 (constantI S_ 32 4096#32),
    StableHlo.TRef.unary main_call5.c_0 main_call5.v2 (broadcastInDim S32x4096x256 ![] bcast_S_S32x4096x256),
    StableHlo.TRef.binary (StableHlo.TRef.of (T := ⟨S32x4096x256, .i32⟩) main_v15) main_call5.v2 main_call5.v3 addi,
    StableHlo.TRef.ternary main_call5.v1 main_call5.v3 (StableHlo.TRef.of (T := ⟨S32x4096x256, .i32⟩) main_v15) main_call5.v4 select,
    StableHlo.TRef.reshape main_call5.v4 main_call5.v5 rfl shapeCasts_S32x4096x256_S32x4096x256x1,
    StableHlo.TRef.nullary main_call5.c_1 (constantI S1 32 4095#32),
    StableHlo.TRef.nullary main_call5.c_2 (constantI S_ 32 0#32),
    StableHlo.TRef.unary main_call5.c_2 main_call5.v6 (broadcastInDim S32x4096x256x1 ![] bcast_S_S32x4096x256x1),
    StableHlo.TRef.binary main_call5.v5 main_call5.v6 main_call5.v7 (cmpi .sge),
    StableHlo.TRef.unary main_call5.c_1 main_call5.v8 (broadcastInDim S1x1x1x1 ![3] bcast_S1_S1x1x1x1_3),
    StableHlo.TRef.unary main_call5.v8 main_call5.v9 (broadcastInDim S32x4096x256x1 ![0, 1, 2, 3] bcast_S1x1x1x1_S32x4096x256x1_0_1_2_3),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1) ]

/-- Operations 56–56 of the program. -/
abbrev ops8 : List (HloOp τ sig (Elt F)) :=
  [ StableHlo.TRef.binary main_call5.v11 main_call5.c_3 main_call5.v12 (fun x v => Host.reduce IntOp.andi x v reducesTo_S32x4096x256x1_S32x4096x256_d3 h_S_) ]

/-- Operations 57–60 of the program. -/
abbrev ops9 : List (HloOp τ sig (Elt F)) :=
  [ StableHlo.TRef.binary (StableHlo.TRef.of (T := ⟨S32x4096x256, .f32⟩) main_arg0) main_call5.v5 main_call5.v13 (fun x i => Host.gather gather_S32x4096x256_S32x4096x256x1_S32x4096x256_n_1_02_02_1_3_111 x i),
    StableHlo.TRef.nullary main_call5.cst (constant S_ .f32 0x7FC00000#32),
    StableHlo.TRef.unary main_call5.cst main_call5.v14 (broadcastInDim S32x4096x256 ![] bcast_S_S32x4096x256),
    StableHlo.TRef.ternary main_call5.v12 main_call5.v13 main_call5.v14 main_call5.v15 select ]

/-- Operations 61–68 of the program. -/
abbrev ops10 : List (HloOp τ sig (Elt F)) :=
  [ StableHlo.nullary main_c_5 (constantI S_ 32 0#32),
    StableHlo.nullary main_c_6 (constantI S_ 32 4095#32),
    StableHlo.TRef.unary (StableHlo.TRef.of (T := ⟨S_, .i32⟩) main_c_5) main_call6.v0 id,
    StableHlo.TRef.unary main_call6.v0 main_call6.v1 (broadcastInDim S32x4096x256 ![] bcast_S_S32x4096x256),
    StableHlo.TRef.binary main_call6.v1 (StableHlo.TRef.of (T := ⟨S32x4096x256, .i32⟩) main_v7) main_call6.v2 maxsi,
    StableHlo.TRef.unary (StableHlo.TRef.of (T := ⟨S_, .i32⟩) main_c_6) main_call6.v3 id,
    StableHlo.TRef.unary main_call6.v3 main_call6.v4 (broadcastInDim S32x4096x256 ![] bcast_S_S32x4096x256),
    StableHlo.TRef.binary main_call6.v4 main_call6.v2 main_call6.v5 minsi ]

/-- Operations 69–85 of the program. -/
abbrev ops11 : List (HloOp τ sig (Elt F)) :=
  [ StableHlo.TRef.nullary main_call7.c (constantI S_ 32 0#32),
    StableHlo.TRef.unary main_call7.c main_call7.v0 (broadcastInDim S32x4096x256 ![] bcast_S_S32x4096x256),
    StableHlo.TRef.binary (StableHlo.TRef.of (T := ⟨S32x4096x256, .i32⟩) main_v17) main_call7.v0 main_call7.v1 (cmpi .slt),
    StableHlo.TRef.nullary main_call7.c_0 (constantI S_ 32 4096#32),
    StableHlo.TRef.unary main_call7.c_0 main_call7.v2 (broadcastInDim S32x4096x256 ![] bcast_S_S32x4096x256),
    StableHlo.TRef.binary (StableHlo.TRef.of (T := ⟨S32x4096x256, .i32⟩) main_v17) main_call7.v2 main_call7.v3 addi,
    StableHlo.TRef.ternary main_call7.v1 main_call7.v3 (StableHlo.TRef.of (T := ⟨S32x4096x256, .i32⟩) main_v17) main_call7.v4 select,
    StableHlo.TRef.reshape main_call7.v4 main_call7.v5 rfl shapeCasts_S32x4096x256_S32x4096x256x1,
    StableHlo.TRef.nullary main_call7.c_1 (constantI S1 32 4095#32),
    StableHlo.TRef.nullary main_call7.c_2 (constantI S_ 32 0#32),
    StableHlo.TRef.unary main_call7.c_2 main_call7.v6 (broadcastInDim S32x4096x256x1 ![] bcast_S_S32x4096x256x1),
    StableHlo.TRef.binary main_call7.v5 main_call7.v6 main_call7.v7 (cmpi .sge),
    StableHlo.TRef.unary main_call7.c_1 main_call7.v8 (broadcastInDim S1x1x1x1 ![3] bcast_S1_S1x1x1x1_3),
    StableHlo.TRef.unary main_call7.v8 main_call7.v9 (broadcastInDim S32x4096x256x1 ![0, 1, 2, 3] bcast_S1x1x1x1_S32x4096x256x1_0_1_2_3),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1) ]

/-- Operations 86–86 of the program. -/
abbrev ops12 : List (HloOp τ sig (Elt F)) :=
  [ StableHlo.TRef.binary main_call7.v11 main_call7.c_3 main_call7.v12 (fun x v => Host.reduce IntOp.andi x v reducesTo_S32x4096x256x1_S32x4096x256_d3 h_S_) ]

/-- Operations 87–90 of the program. -/
abbrev ops13 : List (HloOp τ sig (Elt F)) :=
  [ StableHlo.TRef.binary (StableHlo.TRef.of (T := ⟨S32x4096x256, .f32⟩) main_arg0) main_call7.v5 main_call7.v13 (fun x i => Host.gather gather_S32x4096x256_S32x4096x256x1_S32x4096x256_n_1_02_02_1_3_111 x i),
    StableHlo.TRef.nullary main_call7.cst (constant S_ .f32 0x7FC00000#32),
    StableHlo.TRef.unary main_call7.cst main_call7.v14 (broadcastInDim S32x4096x256 ![] bcast_S_S32x4096x256),
    StableHlo.TRef.ternary main_call7.v12 main_call7.v13 main_call7.v14 main_call7.v15 select ]

/-- Operations 91–112 of the program. -/
abbrev ops14 : List (HloOp τ sig (Elt F)) :=
  [ StableHlo.binary main_v7 main_v5 main_v19 (subi : (⟨S32x4096x256, .i32⟩ : BufTy).Contents (Elt F) → (⟨S32x4096x256, .i32⟩ : BufTy).Contents (Elt F) → (⟨S32x4096x256, .i32⟩ : BufTy).Contents (Elt F)),
    StableHlo.nullary main_c_7 (constantI S_ 32 1#32),
    StableHlo.unary main_c_7 main_v20 (broadcastInDim S32x4096x256 ![] bcast_S_S32x4096x256 : (⟨S_, .i32⟩ : BufTy).Contents (Elt F) → (⟨S32x4096x256, .i32⟩ : BufTy).Contents (Elt F)),
    StableHlo.binary main_v19 main_v20 main_v21 (subi : (⟨S32x4096x256, .i32⟩ : BufTy).Contents (Elt F) → (⟨S32x4096x256, .i32⟩ : BufTy).Contents (Elt F) → (⟨S32x4096x256, .i32⟩ : BufTy).Contents (Elt F)),
    StableHlo.unary main_v3 main_v22 (broadcastInDim S32x4096x256 ![0, 1, 2] bcast_S1x4096x1_S32x4096x256_0_1_2 : (⟨S1x4096x1, .i32⟩ : BufTy).Contents (Elt F) → (⟨S32x4096x256, .i32⟩ : BufTy).Contents (Elt F)),
    StableHlo.binary main_v22 main_v5 main_v23 (subi : (⟨S32x4096x256, .i32⟩ : BufTy).Contents (Elt F) → (⟨S32x4096x256, .i32⟩ : BufTy).Contents (Elt F) → (⟨S32x4096x256, .i32⟩ : BufTy).Contents (Elt F)),
    StableHlo.nullary main_c_8 (constantI S_ 32 1#32),
    StableHlo.unary main_c_8 main_v24 (broadcastInDim S32x4096x256 ![] bcast_S_S32x4096x256 : (⟨S_, .i32⟩ : BufTy).Contents (Elt F) → (⟨S32x4096x256, .i32⟩ : BufTy).Contents (Elt F)),
    StableHlo.binary main_v23 main_v24 main_v25 (subi : (⟨S32x4096x256, .i32⟩ : BufTy).Contents (Elt F) → (⟨S32x4096x256, .i32⟩ : BufTy).Contents (Elt F) → (⟨S32x4096x256, .i32⟩ : BufTy).Contents (Elt F)),
    StableHlo.nullary main_c_9 (constantI S_ 32 1#32),
    StableHlo.unary main_c_9 main_v26 (broadcastInDim S32x4096x256 ![] bcast_S_S32x4096x256 : (⟨S_, .i32⟩ : BufTy).Contents (Elt F) → (⟨S32x4096x256, .i32⟩ : BufTy).Contents (Elt F)),
    StableHlo.binary main_v21 main_v26 main_v27 (subi : (⟨S32x4096x256, .i32⟩ : BufTy).Contents (Elt F) → (⟨S32x4096x256, .i32⟩ : BufTy).Contents (Elt F) → (⟨S32x4096x256, .i32⟩ : BufTy).Contents (Elt F)),
    StableHlo.nullary main_c_10 (constantI S_ 32 1#32),
    StableHlo.unary main_c_10 main_v28 (broadcastInDim S32x4096x256 ![] bcast_S_S32x4096x256 : (⟨S_, .i32⟩ : BufTy).Contents (Elt F) → (⟨S32x4096x256, .i32⟩ : BufTy).Contents (Elt F)),
    StableHlo.binary main_v27 main_v28 main_v29 (maxsi : (⟨S32x4096x256, .i32⟩ : BufTy).Contents (Elt F) → (⟨S32x4096x256, .i32⟩ : BufTy).Contents (Elt F) → (⟨S32x4096x256, .i32⟩ : BufTy).Contents (Elt F)),
    StableHlo.unary main_v25 main_v30 (sitofp .f32 : (⟨S32x4096x256, .i32⟩ : BufTy).Contents (Elt F) → (⟨S32x4096x256, .f32⟩ : BufTy).Contents (Elt F)),
    StableHlo.unary main_v29 main_v31 (sitofp .f32 : (⟨S32x4096x256, .i32⟩ : BufTy).Contents (Elt F) → (⟨S32x4096x256, .f32⟩ : BufTy).Contents (Elt F)),
    StableHlo.binary main_v30 main_v31 main_v32 (Host.divf : (⟨S32x4096x256, .f32⟩ : BufTy).Contents (Elt F) → (⟨S32x4096x256, .f32⟩ : BufTy).Contents (Elt F) → (⟨S32x4096x256, .f32⟩ : BufTy).Contents (Elt F)),
    StableHlo.binary main_v18 main_v16 main_v33 (subf : (⟨S32x4096x256, .f32⟩ : BufTy).Contents (Elt F) → (⟨S32x4096x256, .f32⟩ : BufTy).Contents (Elt F) → (⟨S32x4096x256, .f32⟩ : BufTy).Contents (Elt F)),
    StableHlo.binary main_v33 main_v32 main_v34 (mulf : (⟨S32x4096x256, .f32⟩ : BufTy).Contents (Elt F) → (⟨S32x4096x256, .f32⟩ : BufTy).Contents (Elt F) → (⟨S32x4096x256, .f32⟩ : BufTy).Contents (Elt F)),
    StableHlo.binary main_v16 main_v34 main_v35 (addf : (⟨S32x4096x256, .f32⟩ : BufTy).Contents (Elt F) → (⟨S32x4096x256, .f32⟩ : BufTy).Contents (Elt F) → (⟨S32x4096x256, .f32⟩ : BufTy).Contents (Elt F)),
    StableHlo.TRef.ternary (StableHlo.TRef.of (T := ⟨S32x4096x256, .i1⟩) main_v14) (StableHlo.TRef.of (T := ⟨S32x4096x256, .f32⟩) main_v35) (StableHlo.TRef.of (T := ⟨S32x4096x256, .f32⟩) main_arg0) main_call8.v0 select ]

/-- The whole program's operations. -/
abbrev opsAll : List (HloOp τ sig (Elt F)) := ops1 ++ (ops2 ++ (ops3 ++ (ops4 ++ (ops5 ++ (ops6 ++ (ops7 ++ (ops8 ++ (ops9 ++ (ops10 ++ (ops11 ++ (ops12 ++ (ops13 ++ (ops14)))))))))))))

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

end Cert.Impute

end
-- ==== Proof.RefStage1.lean ====
/-
  Stretch 1 of the reference program, run from any contents `V` of the buffers: the mask, the time positions, the array scanned backwards and the fold's initial value.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s1_main_v1 (V : Valuation τ sig (Elt F)) :
    after ops1 V (Proc.devRef .tc main_v1) = validR (V (Proc.devRef .tc main_arg0) : FVec F S32x4096x256 .f32) := by
  after_results_simp <;> rfl

set_option maxRecDepth 8192 in
set_option maxHeartbeats 4000000 in
theorem s1_main_v3 (V : Valuation τ sig (Elt F)) :
    after ops1 V (Proc.devRef .tc main_v3) = tcolR := by
  after_results_simp <;> rfl

set_option maxRecDepth 8192 in
set_option maxHeartbeats 4000000 in
theorem s1_main_v4 (V : Valuation τ sig (Elt F)) :
    after ops1 V (Proc.devRef .tc main_v4) = whereT tcolR (validR (V (Proc.devRef .tc main_arg0) : FVec F S32x4096x256 .f32)) 4294967295#32 := by
  after_results_simp <;> rfl

set_option maxRecDepth 8192 in
set_option maxHeartbeats 4000000 in
theorem s1_main_call1_v0 (V : Valuation τ sig (Elt F)) :
    after ops1 V (Proc.devRef .tc main_call1_v0) = (broadcastInDim S_ ![] bcast_S_S_ (constantI S_ 32 2147483648#32)) := by
  after_results_simp <;> rfl

set_option maxRecDepth 8192 in
theorem s1_keep_main_arg0 (V : Valuation τ sig (Elt F)) :
    after ops1 V (Proc.devRef .tc main_arg0) = V (Proc.devRef .tc main_arg0) := by
  after_results_simp <;> rfl

end Cert.Impute

end
-- ==== Proof.RefStage2.lean ====
/-
  Stretch 2 of the reference program, run from any contents `V` of the buffers: the running maximum (one window fold).
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s2_main_v5 (V : Valuation τ sig (Elt F)) :
    after ops2 V (Proc.devRef .tc main_v5) = Host.reduceWindow IntOp.maxsi ![1, 4096, 1] ![1, 1, 1] ![0, 4095, 0] ![0, 0, 0] (V (Proc.devRef .tc main_v4) : IVec S32x4096x256 32) (V (Proc.devRef .tc main_call1_v0) : IVec S_ 32) reduceWindows_S32x4096x256_S32x4096x256_w1s1p0_0_w4096s1p4095_0_w1s1p0_0 h_S_ := by
  after_results_simp
  simp only [TRef.ofBuf, TRef.toBuf, cast_eq]

set_option maxRecDepth 8192 in
theorem s2_keep_main_arg0 (V : Valuation τ sig (Elt F)) :
    after ops2 V (Proc.devRef .tc main_arg0) = V (Proc.devRef .tc main_arg0) := by
  after_results_simp <;> rfl

set_option maxRecDepth 8192 in
theorem s2_keep_main_v1 (V : Valuation τ sig (Elt F)) :
    after ops2 V (Proc.devRef .tc main_v1) = V (Proc.devRef .tc main_v1) := by
  after_results_simp <;> rfl

set_option maxRecDepth 8192 in
theorem s2_keep_main_v3 (V : Valuation τ sig (Elt F)) :
    after ops2 V (Proc.devRef .tc main_v3) = V (Proc.devRef .tc main_v3) := by
  after_results_simp <;> rfl

end Cert.Impute

end
-- ==== Proof.RefStage3.lean ====
/-
  Stretch 3 of the reference program, run from any contents `V` of the buffers: the array scanned forwards and its fold's initial value.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s3_main_v6 (V : Valuation τ sig (Elt F)) :
    after ops3 V (Proc.devRef .tc main_v6) = whereT (V (Proc.devRef .tc main_v3) : IVec S1x4096x1 32) (V (Proc.devRef .tc main_v1) : IVec S32x4096x256 1) 4096#32 := by
  after_results_simp <;> rfl

set_option maxRecDepth 8192 in
set_option maxHeartbeats 4000000 in
theorem s3_main_call3_v0 (V : Valuation τ sig (Elt F)) :
    after ops3 V (Proc.devRef .tc main_call3_v0) = (broadcastInDim S_ ![] bcast_S_S_ (constantI S_ 32 2147483647#32)) := by
  after_results_simp <;> rfl

set_option maxRecDepth 8192 in
theorem s3_keep_main_arg0 (V : Valuation τ sig (Elt F)) :
    after ops3 V (Proc.devRef .tc main_arg0) = V (Proc.devRef .tc main_arg0) := by
  after_results_simp <;> rfl

set_option maxRecDepth 8192 in
theorem s3_keep_main_v1 (V : Valuation τ sig (Elt F)) :
    after ops3 V (Proc.devRef .tc main_v1) = V (Proc.devRef .tc main_v1) := by
  after_results_simp <;> rfl

set_option maxRecDepth 8192 in
theorem s3_keep_main_v3 (V : Valuation τ sig (Elt F)) :
    after ops3 V (Proc.devRef .tc main_v3) = V (Proc.devRef .tc main_v3) := by
  after_results_simp <;> rfl

set_option maxRecDepth 8192 in
theorem s3_keep_main_v5 (V : Valuation τ sig (Elt F)) :
    after ops3 V (Proc.devRef .tc main_v5) = V (Proc.devRef .tc main_v5) := by
  after_results_simp <;> rfl

end Cert.Impute

end
-- ==== Proof.RefStage4.lean ====
/-
  Stretch 4 of the reference program, run from any contents `V` of the buffers: the reversed running minimum (one window fold).
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s4_main_v7 (V : Valuation τ sig (Elt F)) :
    after ops4 V (Proc.devRef .tc main_v7) = Host.reduceWindow IntOp.minsi ![1, 4096, 1] ![1, 1, 1] ![0, 0, 0] ![0, 4095, 0] (V (Proc.devRef .tc main_v6) : IVec S32x4096x256 32) (V (Proc.devRef .tc main_call3_v0) : IVec S_ 32) reduceWindows_S32x4096x256_S32x4096x256_w1s1p0_0_w4096s1p0_4095_w1s1p0_0 h_S_ := by
  after_results_simp
  simp only [TRef.ofBuf, TRef.toBuf, cast_eq]

set_option maxRecDepth 8192 in
theorem s4_keep_main_arg0 (V : Valuation τ sig (Elt F)) :
    after ops4 V (Proc.devRef .tc main_arg0) = V (Proc.devRef .tc main_arg0) := by
  after_results_simp <;> rfl

set_option maxRecDepth 8192 in
theorem s4_keep_main_v1 (V : Valuation τ sig (Elt F)) :
    after ops4 V (Proc.devRef .tc main_v1) = V (Proc.devRef .tc main_v1) := by
  after_results_simp <;> rfl

set_option maxRecDepth 8192 in
theorem s4_keep_main_v3 (V : Valuation τ sig (Elt F)) :
    after ops4 V (Proc.devRef .tc main_v3) = V (Proc.devRef .tc main_v3) := by
  after_results_simp <;> rfl

set_option maxRecDepth 8192 in
theorem s4_keep_main_v5 (V : Valuation τ sig (Elt F)) :
    after ops4 V (Proc.devRef .tc main_v5) = V (Proc.devRef .tc main_v5) := by
  after_results_simp <;> rfl

end Cert.Impute

end
-- ==== Proof.RefStage5.lean ====
/-
  Stretch 5 of the reference program, run from any contents `V` of the buffers: the mask of entries to fill.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s5_main_v14 (V : Valuation τ sig (Elt F)) :
    after ops5 V (Proc.devRef .tc main_v14) = interiorR (V (Proc.devRef .tc main_v1) : IVec S32x4096x256 1) (V (Proc.devRef .tc main_v5) : IVec S32x4096x256 32) (V (Proc.devRef .tc main_v7) : IVec S32x4096x256 32) := by
  after_results_simp <;> rfl

set_option maxRecDepth 8192 in
theorem s5_keep_main_arg0 (V : Valuation τ sig (Elt F)) :
    after ops5 V (Proc.devRef .tc main_arg0) = V (Proc.devRef .tc main_arg0) := by
  after_results_simp <;> rfl

set_option maxRecDepth 8192 in
theorem s5_keep_main_v3 (V : Valuation τ sig (Elt F)) :
    after ops5 V (Proc.devRef .tc main_v3) = V (Proc.devRef .tc main_v3) := by
  after_results_simp <;> rfl

set_option maxRecDepth 8192 in
theorem s5_keep_main_v5 (V : Valuation τ sig (Elt F)) :
    after ops5 V (Proc.devRef .tc main_v5) = V (Proc.devRef .tc main_v5) := by
  after_results_simp <;> rfl

set_option maxRecDepth 8192 in
theorem s5_keep_main_v7 (V : Valuation τ sig (Elt F)) :
    after ops5 V (Proc.devRef .tc main_v7) = V (Proc.devRef .tc main_v7) := by
  after_results_simp <;> rfl

end Cert.Impute

end
-- ==== Proof.RefStage6.lean ====
/-
  Stretch 6 of the reference program, run from any contents `V` of the buffers: the clamped earlier positions.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s6_main_v15 (V : Valuation τ sig (Elt F)) :
    after ops6 V (Proc.devRef .tc main_v15) = clipR (V (Proc.devRef .tc main_v5) : IVec S32x4096x256 32) := by
  after_results_simp <;> rfl

set_option maxRecDepth 8192 in
theorem s6_keep_main_arg0 (V : Valuation τ sig (Elt F)) :
    after ops6 V (Proc.devRef .tc main_arg0) = V (Proc.devRef .tc main_arg0) := by
  after_results_simp <;> rfl

set_option maxRecDepth 8192 in
theorem s6_keep_main_v3 (V : Valuation τ sig (Elt F)) :
    after ops6 V (Proc.devRef .tc main_v3) = V (Proc.devRef .tc main_v3) := by
  after_results_simp <;> rfl

set_option maxRecDepth 8192 in
theorem s6_keep_main_v5 (V : Valuation τ sig (Elt F)) :
    after ops6 V (Proc.devRef .tc main_v5) = V (Proc.devRef .tc main_v5) := by
  after_results_simp <;> rfl

set_option maxRecDepth 8192 in
theorem s6_keep_main_v7 (V : Valuation τ sig (Elt F)) :
    after ops6 V (Proc.devRef .tc main_v7) = V (Proc.devRef .tc main_v7) := by
  after_results_simp <;> rfl

set_option maxRecDepth 8192 in
theorem s6_keep_main_v14 (V : Valuation τ sig (Elt F)) :
    after ops6 V (Proc.devRef .tc main_v14) = V (Proc.devRef .tc main_v14) := by
  after_results_simp <;> rfl

end Cert.Impute

end
-- ==== Proof.RefStage7.lean ====
/-
  Stretch 7 of the reference program, run from any contents `V` of the buffers: the earlier lookup's index array and its bounds test.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s7_main_call5_v5 (V : Valuation τ sig (Elt F)) :
    after ops7 V (Proc.devRef .tc main_call5_v5) = takeIdxR (V (Proc.devRef .tc main_v15) : IVec S32x4096x256 32) := by
  after_results_simp <;> rfl

set_option maxRecDepth 8192 in
set_option maxHeartbeats 4000000 in
theorem s7_main_call5_v11 (V : Valuation τ sig (Elt F)) :
    after ops7 V (Proc.devRef .tc main_call5_v11) = (andi (cmpi .sge (takeIdxR (V (Proc.devRef .tc main_v15) : IVec S32x4096x256 32)) (broadcastInDim S32x4096x256x1 ![] bcast_S_S32x4096x256x1 (constantI S_ 32 0#32))) (cmpi .sle (takeIdxR (V (Proc.devRef .tc main_v15) : IVec S32x4096x256 32)) (broadcastInDim S32x4096x256x1 ![0, 1, 2, 3] bcast_S1x1x1x1_S32x4096x256x1_0_1_2_3 (broadcastInDim S1x1x1x1 ![3] bcast_S1_S1x1x1x1_3 (constantI S1 32 4095#32)))) : IVec S32x4096x256x1 1) := by
  after_results_simp <;> rfl

set_option maxRecDepth 8192 in
set_option maxHeartbeats 4000000 in
theorem s7_main_call5_c_3 (V : Valuation τ sig (Elt F)) :
    after ops7 V (Proc.devRef .tc main_call5_c_3) = (constantI S_ 1 1#1 : IVec S_ 1) := by
  after_results_simp <;> rfl

set_option maxRecDepth 8192 in
theorem s7_keep_main_arg0 (V : Valuation τ sig (Elt F)) :
    after ops7 V (Proc.devRef .tc main_arg0) = V (Proc.devRef .tc main_arg0) := by
  after_results_simp <;> rfl

set_option maxRecDepth 8192 in
theorem s7_keep_main_v3 (V : Valuation τ sig (Elt F)) :
    after ops7 V (Proc.devRef .tc main_v3) = V (Proc.devRef .tc main_v3) := by
  after_results_simp <;> rfl

set_option maxRecDepth 8192 in
theorem s7_keep_main_v5 (V : Valuation τ sig (Elt F)) :
    after ops7 V (Proc.devRef .tc main_v5) = V (Proc.devRef .tc main_v5) := by
  after_results_simp <;> rfl

set_option maxRecDepth 8192 in
theorem s7_keep_main_v7 (V : Valuation τ sig (Elt F)) :
    after ops7 V (Proc.devRef .tc main_v7) = V (Proc.devRef .tc main_v7) := by
  after_results_simp <;> rfl

set_option maxRecDepth 8192 in
theorem s7_keep_main_v14 (V : Valuation τ sig (Elt F)) :
    after ops7 V (Proc.devRef .tc main_v14) = V (Proc.devRef .tc main_v14) := by
  after_results_simp <;> rfl

end Cert.Impute

end
-- ==== Proof.RefStage8.lean ====
/-
  Stretch 8 of the reference program, run from any contents `V` of the buffers: the earlier lookup's bounds mask (one reduction over the unit axis).
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s8_main_call5_v12 (V : Valuation τ sig (Elt F)) :
    after ops8 V (Proc.devRef .tc main_call5_v12) = Host.reduce IntOp.andi (V (Proc.devRef .tc main_call5_v11) : IVec S32x4096x256x1 1) (V (Proc.devRef .tc main_call5_c_3) : IVec S_ 1) reducesTo_S32x4096x256x1_S32x4096x256_d3 h_S_ := by
  after_results_simp
  simp only [TRef.ofBuf, TRef.toBuf, cast_eq]

set_option maxRecDepth 8192 in
theorem s8_keep_main_arg0 (V : Valuation τ sig (Elt F)) :
    after ops8 V (Proc.devRef .tc main_arg0) = V (Proc.devRef .tc main_arg0) := by
  after_results_simp <;> rfl

set_option maxRecDepth 8192 in
theorem s8_keep_main_v3 (V : Valuation τ sig (Elt F)) :
    after ops8 V (Proc.devRef .tc main_v3) = V (Proc.devRef .tc main_v3) := by
  after_results_simp <;> rfl

set_option maxRecDepth 8192 in
theorem s8_keep_main_v5 (V : Valuation τ sig (Elt F)) :
    after ops8 V (Proc.devRef .tc main_v5) = V (Proc.devRef .tc main_v5) := by
  after_results_simp <;> rfl

set_option maxRecDepth 8192 in
theorem s8_keep_main_v7 (V : Valuation τ sig (Elt F)) :
    after ops8 V (Proc.devRef .tc main_v7) = V (Proc.devRef .tc main_v7) := by
  after_results_simp <;> rfl

set_option maxRecDepth 8192 in
theorem s8_keep_main_v14 (V : Valuation τ sig (Elt F)) :
    after ops8 V (Proc.devRef .tc main_v14) = V (Proc.devRef .tc main_v14) := by
  after_results_simp <;> rfl

set_option maxRecDepth 8192 in
theorem s8_keep_main_call5_v5 (V : Valuation τ sig (Elt F)) :
    after ops8 V (Proc.devRef .tc main_call5_v5) = V (Proc.devRef .tc main_call5_v5) := by
  after_results_simp <;> rfl

end Cert.Impute

end
-- ==== Proof.RefStage9.lean ====
/-
  Stretch 9 of the reference program, run from any contents `V` of the buffers: the earlier lookup.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s9_main_v16 (V : Valuation τ sig (Elt F)) :
    after ops9 V (Proc.devRef .tc main_v16) = (select (V (Proc.devRef .tc main_call5_v12) : IVec S32x4096x256 1) (Host.gather gather_S32x4096x256_S32x4096x256x1_S32x4096x256_n_1_02_02_1_3_111 (V (Proc.devRef .tc main_arg0) : FVec F S32x4096x256 .f32) (V (Proc.devRef .tc main_call5_v5) : IVec S32x4096x256x1 32)) (broadcastInDim S32x4096x256 ![] bcast_S_S32x4096x256 (constant S_ .f32 0x7FC00000#32)) : FVec F S32x4096x256 .f32) := by
  after_results_simp <;> rfl

set_option maxRecDepth 8192 in
theorem s9_keep_main_arg0 (V : Valuation τ sig (Elt F)) :
    after ops9 V (Proc.devRef .tc main_arg0) = V (Proc.devRef .tc main_arg0) := by
  after_results_simp <;> rfl

set_option maxRecDepth 8192 in
theorem s9_keep_main_v3 (V : Valuation τ sig (Elt F)) :
    after ops9 V (Proc.devRef .tc main_v3) = V (Proc.devRef .tc main_v3) := by
  after_results_simp <;> rfl

set_option maxRecDepth 8192 in
theorem s9_keep_main_v5 (V : Valuation τ sig (Elt F)) :
    after ops9 V (Proc.devRef .tc main_v5) = V (Proc.devRef .tc main_v5) := by
  after_results_simp <;> rfl

set_option maxRecDepth 8192 in
theorem s9_keep_main_v7 (V : Valuation τ sig (Elt F)) :
    after ops9 V (Proc.devRef .tc main_v7) = V (Proc.devRef .tc main_v7) := by
  after_results_simp <;> rfl

set_option maxRecDepth 8192 in
theorem s9_keep_main_v14 (V : Valuation τ sig (Elt F)) :
    after ops9 V (Proc.devRef .tc main_v14) = V (Proc.devRef .tc main_v14) := by
  after_results_simp <;> rfl

end Cert.Impute

end
-- ==== Proof.RefStage10.lean ====
/-
  Stretch 10 of the reference program, run from any contents `V` of the buffers: the clamped later positions.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s10_main_v17 (V : Valuation τ sig (Elt F)) :
    after ops10 V (Proc.devRef .tc main_v17) = clipR (V (Proc.devRef .tc main_v7) : IVec S32x4096x256 32) := by
  after_results_simp <;> rfl

set_option maxRecDepth 8192 in
theorem s10_keep_main_arg0 (V : Valuation τ sig (Elt F)) :
    after ops10 V (Proc.devRef .tc main_arg0) = V (Proc.devRef .tc main_arg0) := by
  after_results_simp <;> rfl

set_option maxRecDepth 8192 in
theorem s10_keep_main_v3 (V : Valuation τ sig (Elt F)) :
    after ops10 V (Proc.devRef .tc main_v3) = V (Proc.devRef .tc main_v3) := by
  after_results_simp <;> rfl

set_option maxRecDepth 8192 in
theorem s10_keep_main_v5 (V : Valuation τ sig (Elt F)) :
    after ops10 V (Proc.devRef .tc main_v5) = V (Proc.devRef .tc main_v5) := by
  after_results_simp <;> rfl

set_option maxRecDepth 8192 in
theorem s10_keep_main_v7 (V : Valuation τ sig (Elt F)) :
    after ops10 V (Proc.devRef .tc main_v7) = V (Proc.devRef .tc main_v7) := by
  after_results_simp <;> rfl

set_option maxRecDepth 8192 in
theorem s10_keep_main_v14 (V : Valuation τ sig (Elt F)) :
    after ops10 V (Proc.devRef .tc main_v14) = V (Proc.devRef .tc main_v14) := by
  after_results_simp <;> rfl

set_option maxRecDepth 8192 in
theorem s10_keep_main_v16 (V : Valuation τ sig (Elt F)) :
    after ops10 V (Proc.devRef .tc main_v16) = V (Proc.devRef .tc main_v16) := by
  after_results_simp <;> rfl

end Cert.Impute

end
-- ==== Proof.RefStage11.lean ====
/-
  Stretch 11 of the reference program, run from any contents `V` of the buffers: the later lookup's index array and its bounds test.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s11_main_call7_v5 (V : Valuation τ sig (Elt F)) :
    after ops11 V (Proc.devRef .tc main_call7_v5) = takeIdxR (V (Proc.devRef .tc main_v17) : IVec S32x4096x256 32) := by
  after_results_simp <;> rfl

set_option maxRecDepth 8192 in
set_option maxHeartbeats 4000000 in
theorem s11_main_call7_v11 (V : Valuation τ sig (Elt F)) :
    after ops11 V (Proc.devRef .tc main_call7_v11) = (andi (cmpi .sge (takeIdxR (V (Proc.devRef .tc main_v17) : IVec S32x4096x256 32)) (broadcastInDim S32x4096x256x1 ![] bcast_S_S32x4096x256x1 (constantI S_ 32 0#32))) (cmpi .sle (takeIdxR (V (Proc.devRef .tc main_v17) : IVec S32x4096x256 32)) (broadcastInDim S32x4096x256x1 ![0, 1, 2, 3] bcast_S1x1x1x1_S32x4096x256x1_0_1_2_3 (broadcastInDim S1x1x1x1 ![3] bcast_S1_S1x1x1x1_3 (constantI S1 32 4095#32)))) : IVec S32x4096x256x1 1) := by
  after_results_simp <;> rfl

set_option maxRecDepth 8192 in
set_option maxHeartbeats 4000000 in
theorem s11_main_call7_c_3 (V : Valuation τ sig (Elt F)) :
    after ops11 V (Proc.devRef .tc main_call7_c_3) = (constantI S_ 1 1#1 : IVec S_ 1) := by
  after_results_simp <;> rfl

set_option maxRecDepth 8192 in
theorem s11_keep_main_arg0 (V : Valuation τ sig (Elt F)) :
    after ops11 V (Proc.devRef .tc main_arg0) = V (Proc.devRef .tc main_arg0) := by
  after_results_simp <;> rfl

set_option maxRecDepth 8192 in
theorem s11_keep_main_v3 (V : Valuation τ sig (Elt F)) :
    after ops11 V (Proc.devRef .tc main_v3) = V (Proc.devRef .tc main_v3) := by
  after_results_simp <;> rfl

set_option maxRecDepth 8192 in
theorem s11_keep_main_v5 (V : Valuation τ sig (Elt F)) :
    after ops11 V (Proc.devRef .tc main_v5) = V (Proc.devRef .tc main_v5) := by
  after_results_simp <;> rfl

set_option maxRecDepth 8192 in
theorem s11_keep_main_v7 (V : Valuation τ sig (Elt F)) :
    after ops11 V (Proc.devRef .tc main_v7) = V (Proc.devRef .tc main_v7) := by
  after_results_simp <;> rfl

set_option maxRecDepth 8192 in
theorem s11_keep_main_v14 (V : Valuation τ sig (Elt F)) :
    after ops11 V (Proc.devRef .tc main_v14) = V (Proc.devRef .tc main_v14) := by
  after_results_simp <;> rfl

set_option maxRecDepth 8192 in
theorem s11_keep_main_v16 (V : Valuation τ sig (Elt F)) :
    after ops11 V (Proc.devRef .tc main_v16) = V (Proc.devRef .tc main_v16) := by
  after_results_simp <;> rfl

end Cert.Impute

end
-- ==== Proof.RefStage12.lean ====
/-
  Stretch 12 of the reference program, run from any contents `V` of the buffers: the later lookup's bounds mask (one reduction over the unit axis).
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s12_main_call7_v12 (V : Valuation τ sig (Elt F)) :
    after ops12 V (Proc.devRef .tc main_call7_v12) = Host.reduce IntOp.andi (V (Proc.devRef .tc main_call7_v11) : IVec S32x4096x256x1 1) (V (Proc.devRef .tc main_call7_c_3) : IVec S_ 1) reducesTo_S32x4096x256x1_S32x4096x256_d3 h_S_ := by
  after_results_simp
  simp only [TRef.ofBuf, TRef.toBuf, cast_eq]

set_option maxRecDepth 8192 in
theorem s12_keep_main_arg0 (V : Valuation τ sig (Elt F)) :
    after ops12 V (Proc.devRef .tc main_arg0) = V (Proc.devRef .tc main_arg0) := by
  after_results_simp <;> rfl

set_option maxRecDepth 8192 in
theorem s12_keep_main_v3 (V : Valuation τ sig (Elt F)) :
    after ops12 V (Proc.devRef .tc main_v3) = V (Proc.devRef .tc main_v3) := by
  after_results_simp <;> rfl

set_option maxRecDepth 8192 in
theorem s12_keep_main_v5 (V : Valuation τ sig (Elt F)) :
    after ops12 V (Proc.devRef .tc main_v5) = V (Proc.devRef .tc main_v5) := by
  after_results_simp <;> rfl

set_option maxRecDepth 8192 in
theorem s12_keep_main_v7 (V : Valuation τ sig (Elt F)) :
    after ops12 V (Proc.devRef .tc main_v7) = V (Proc.devRef .tc main_v7) := by
  after_results_simp <;> rfl

set_option maxRecDepth 8192 in
theorem s12_keep_main_v14 (V : Valuation τ sig (Elt F)) :
    after ops12 V (Proc.devRef .tc main_v14) = V (Proc.devRef .tc main_v14) := by
  after_results_simp <;> rfl

set_option maxRecDepth 8192 in
theorem s12_keep_main_v16 (V : Valuation τ sig (Elt F)) :
    after ops12 V (Proc.devRef .tc main_v16) = V (Proc.devRef .tc main_v16) := by
  after_results_simp <;> rfl

set_option maxRecDepth 8192 in
theorem s12_keep_main_call7_v5 (V : Valuation τ sig (Elt F)) :
    after ops12 V (Proc.devRef .tc main_call7_v5) = V (Proc.devRef .tc main_call7_v5) := by
  after_results_simp <;> rfl

end Cert.Impute

end
-- ==== Proof.RefStage13.lean ====
/-
  Stretch 13 of the reference program, run from any contents `V` of the buffers: the later lookup.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s13_main_v18 (V : Valuation τ sig (Elt F)) :
    after ops13 V (Proc.devRef .tc main_v18) = (select (V (Proc.devRef .tc main_call7_v12) : IVec S32x4096x256 1) (Host.gather gather_S32x4096x256_S32x4096x256x1_S32x4096x256_n_1_02_02_1_3_111 (V (Proc.devRef .tc main_arg0) : FVec F S32x4096x256 .f32) (V (Proc.devRef .tc main_call7_v5) : IVec S32x4096x256x1 32)) (broadcastInDim S32x4096x256 ![] bcast_S_S32x4096x256 (constant S_ .f32 0x7FC00000#32)) : FVec F S32x4096x256 .f32) := by
  after_results_simp <;> rfl

set_option maxRecDepth 8192 in
theorem s13_keep_main_arg0 (V : Valuation τ sig (Elt F)) :
    after ops13 V (Proc.devRef .tc main_arg0) = V (Proc.devRef .tc main_arg0) := by
  after_results_simp <;> rfl

set_option maxRecDepth 8192 in
theorem s13_keep_main_v3 (V : Valuation τ sig (Elt F)) :
    after ops13 V (Proc.devRef .tc main_v3) = V (Proc.devRef .tc main_v3) := by
  after_results_simp <;> rfl

set_option maxRecDepth 8192 in
theorem s13_keep_main_v5 (V : Valuation τ sig (Elt F)) :
    after ops13 V (Proc.devRef .tc main_v5) = V (Proc.devRef .tc main_v5) := by
  after_results_simp <;> rfl

set_option maxRecDepth 8192 in
theorem s13_keep_main_v7 (V : Valuation τ sig (Elt F)) :
    after ops13 V (Proc.devRef .tc main_v7) = V (Proc.devRef .tc main_v7) := by
  after_results_simp <;> rfl

set_option maxRecDepth 8192 in
theorem s13_keep_main_v14 (V : Valuation τ sig (Elt F)) :
    after ops13 V (Proc.devRef .tc main_v14) = V (Proc.devRef .tc main_v14) := by
  after_results_simp <;> rfl

set_option maxRecDepth 8192 in
theorem s13_keep_main_v16 (V : Valuation τ sig (Elt F)) :
    after ops13 V (Proc.devRef .tc main_v16) = V (Proc.devRef .tc main_v16) := by
  after_results_simp <;> rfl

end Cert.Impute

end
-- ==== Proof.RefStage14.lean ====
/-
  Stretch 14 of the reference program, run from any contents `V` of the buffers: the interpolation and the final choice.
  Each result buffer ends at the stated function of the buffers the stretch reads; the buffers later stretches still
  read are not written here.
-/
import proofs.«100392_j29815662968983_1_alg».proof.Proof.RefOps
import proofs.«100392_j29815662968983_1_alg».proof.Proof.RefFn

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem s14_main_v36 (V : Valuation τ sig (Elt F)) :
    after ops14 V (Proc.devRef .tc main_v36) = tailR (V (Proc.devRef .tc main_arg0) : FVec F S32x4096x256 .f32) (V (Proc.devRef .tc main_v3) : IVec S1x4096x1 32) (V (Proc.devRef .tc main_v5) : IVec S32x4096x256 32) (V (Proc.devRef .tc main_v7) : IVec S32x4096x256 32) (V (Proc.devRef .tc main_v16) : FVec F S32x4096x256 .f32) (V (Proc.devRef .tc main_v18) : FVec F S32x4096x256 .f32) (V (Proc.devRef .tc main_v14) : IVec S32x4096x256 1) := by
  after_results_simp <;> rfl

set_option maxRecDepth 8192 in
theorem s14_keep_main_arg0 (V : Valuation τ sig (Elt F)) :
    after ops14 V (Proc.devRef .tc main_arg0) = V (Proc.devRef .tc main_arg0) := by
  after_results_simp <;> rfl

end Cert.Impute

end
-- ==== Proof.RefRun.lean ====
/-
  The reference program's run, assembled from its fourteen stretches.

  Running a list of operations from contents `V` and then a second list is running the concatenation (`after_append`).
  Through the stretches each buffer that a later stretch reads is followed: it either is a stretch's result — a stage
  function of earlier buffers — or is left alone.  At the end the result buffer holds `refFn` of the argument and the
  argument is unchanged; `refRun` is the program's run with that post.
-/
import proofs.«100392_j29815662968983_1_alg».proof.Proof.RefStage1
import proofs.«100392_j29815662968983_1_alg».proof.Proof.RefStage2
import proofs.«100392_j29815662968983_1_alg».proof.Proof.RefStage3
import proofs.«100392_j29815662968983_1_alg».proof.Proof.RefStage4
import proofs.«100392_j29815662968983_1_alg».proof.Proof.RefStage5
import proofs.«100392_j29815662968983_1_alg».proof.Proof.RefStage6
import proofs.«100392_j29815662968983_1_alg».proof.Proof.RefStage7
import proofs.«100392_j29815662968983_1_alg».proof.Proof.RefStage8
import proofs.«100392_j29815662968983_1_alg».proof.Proof.RefStage9
import proofs.«100392_j29815662968983_1_alg».proof.Proof.RefStage10
import proofs.«100392_j29815662968983_1_alg».proof.Proof.RefStage11
import proofs.«100392_j29815662968983_1_alg».proof.Proof.RefStage12
import proofs.«100392_j29815662968983_1_alg».proof.Proof.RefStage13
import proofs.«100392_j29815662968983_1_alg».proof.Proof.RefStage14

noncomputable section

namespace Cert.Impute

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations in a row are the contents after their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., unary_bufs_sub .., ternary_bufs_sub .., nullary_bufs_sub .., unary_bufs_sub ..⟩

set_option maxRecDepth 8192 in
theorem ops2_sub : (ops2 : List (HloOp τ sig (Elt F))).Forall fun op => op.bufs ⊆ tcRefs τ sig :=
  binary_bufs_sub ..

set_option maxRecDepth 8192 in
theorem ops3_sub : (ops3 : List (HloOp τ sig (Elt F))).Forall fun op => op.bufs ⊆ tcRefs τ sig :=
  ⟨nullary_bufs_sub .., unary_bufs_sub .., unary_bufs_sub .., unary_bufs_sub .., ternary_bufs_sub .., nullary_bufs_sub .., unary_bufs_sub ..⟩

set_option maxRecDepth 8192 in
theorem ops4_sub : (ops4 : List (HloOp τ sig (Elt F))).Forall fun op => op.bufs ⊆ tcRefs τ sig :=
  binary_bufs_sub ..

set_option maxRecDepth 8192 in
theorem ops5_sub : (ops5 : List (HloOp τ sig (Elt F))).Forall fun op => op.bufs ⊆ tcRefs τ sig :=
  ⟨unary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops6_sub : (ops6 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩

set_option maxRecDepth 8192 in
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub ..⟩

set_option maxRecDepth 8192 in
theorem ops8_sub : (ops8 : List (HloOp τ sig (Elt F))).Forall fun op => op.bufs ⊆ tcRefs τ sig :=
  binary_bufs_sub ..

set_option maxRecDepth 8192 in
theorem ops9_sub : (ops9 : List (HloOp τ sig (Elt F))).Forall fun op => op.bufs ⊆ tcRefs τ sig :=
  ⟨binary_bufs_sub .., nullary_bufs_sub .., unary_bufs_sub .., ternary_bufs_sub ..⟩

set_option maxRecDepth 8192 in
theorem ops10_sub : (ops10 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩

set_option maxRecDepth 8192 in
theorem ops11_sub : (ops11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub ..⟩

set_option maxRecDepth 8192 in
theorem ops12_sub : (ops12 : List (HloOp τ sig (Elt F))).Forall fun op => op.bufs ⊆ tcRefs τ sig :=
  binary_bufs_sub ..

set_option maxRecDepth 8192 in
theorem ops13_sub : (ops13 : List (HloOp τ sig (Elt F))).Forall fun op => op.bufs ⊆ tcRefs τ sig :=
  ⟨binary_bufs_sub .., nullary_bufs_sub .., unary_bufs_sub .., ternary_bufs_sub ..⟩

set_option maxRecDepth 8192 in
theorem ops14_sub : (ops14 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., binary_bufs_sub .., ternary_bufs_sub ..⟩

/-- Every operation touches TensorCore buffers only. -/
theorem opsAll_sub : (opsAll : List (HloOp τ sig (Elt F))).Forall fun op => op.bufs ⊆ tcRefs τ sig := by
  rw [List.forall_iff_forall_mem]
  intro op hop
  simp only [opsAll, List.mem_append] at hop
  rcases hop with h | h | h | h | h | h | h | h | h | h | h | h | h | h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h
  · exact List.forall_iff_forall_mem.mp ops8_sub op h
  · exact List.forall_iff_forall_mem.mp ops9_sub op h
  · exact List.forall_iff_forall_mem.mp ops10_sub op h
  · exact List.forall_iff_forall_mem.mp ops11_sub op h
  · exact List.forall_iff_forall_mem.mp ops12_sub op h
  · exact List.forall_iff_forall_mem.mp ops13_sub op h
  · exact List.forall_iff_forall_mem.mp ops14_sub op h

set_option maxHeartbeats 4000000 in
/-- After the whole program the result buffer holds `refFn` of the argument, and the argument is unchanged. -/
theorem after_all (V : Valuation τ sig (Elt F)) :
    after opsAll V (Proc.devRef .tc main_v36) = refFn (V (Proc.devRef .tc main_arg0)) ∧ after opsAll V (Proc.devRef .tc main_arg0) = (V (Proc.devRef .tc main_arg0)) := by
  simp only [opsAll, after_append]
  generalize hW1 : after ops1 V = W1
  have h1_main_arg0 : W1 (Proc.devRef .tc main_arg0) = (V (Proc.devRef .tc main_arg0)) := by
    rw [← hW1, s1_keep_main_arg0 V]
  have h1_main_v1 : W1 (Proc.devRef .tc main_v1) = validR (V (Proc.devRef .tc main_arg0)) := by
    rw [← hW1, s1_main_v1 V]
  have h1_main_v3 : W1 (Proc.devRef .tc main_v3) = tcolR := by
    rw [← hW1, s1_main_v3 V]
  have h1_main_v4 : W1 (Proc.devRef .tc main_v4) = whereT tcolR (validR (V (Proc.devRef .tc main_arg0))) 4294967295#32 := by
    rw [← hW1, s1_main_v4 V]
  have h1_main_call1_v0 : W1 (Proc.devRef .tc main_call1_v0) = (broadcastInDim S_ ![] bcast_S_S_ (constantI S_ 32 2147483648#32)) := by
    rw [← hW1, s1_main_call1_v0 V]
  generalize hW2 : after ops2 W1 = W2
  have h2_main_arg0 : W2 (Proc.devRef .tc main_arg0) = (V (Proc.devRef .tc main_arg0)) := by
    rw [← hW2, s2_keep_main_arg0 W1, h1_main_arg0]
  have h2_main_v1 : W2 (Proc.devRef .tc main_v1) = validR (V (Proc.devRef .tc main_arg0)) := by
    rw [← hW2, s2_keep_main_v1 W1, h1_main_v1]
  have h2_main_v3 : W2 (Proc.devRef .tc main_v3) = tcolR := by
    rw [← hW2, s2_keep_main_v3 W1, h1_main_v3]
  have h2_main_v5 : W2 (Proc.devRef .tc main_v5) = cummaxR (whereT tcolR (validR (V (Proc.devRef .tc main_arg0))) 4294967295#32) := by
    rw [← hW2, s2_main_v5 W1, h1_main_v4, h1_main_call1_v0]
    rfl
  generalize hW3 : after ops3 W2 = W3
  have h3_main_arg0 : W3 (Proc.devRef .tc main_arg0) = (V (Proc.devRef .tc main_arg0)) := by
    rw [← hW3, s3_keep_main_arg0 W2, h2_main_arg0]
  have h3_main_v1 : W3 (Proc.devRef .tc main_v1) = validR (V (Proc.devRef .tc main_arg0)) := by
    rw [← hW3, s3_keep_main_v1 W2, h2_main_v1]
  have h3_main_v3 : W3 (Proc.devRef .tc main_v3) = tcolR := by
    rw [← hW3, s3_keep_main_v3 W2, h2_main_v3]
  have h3_main_v5 : W3 (Proc.devRef .tc main_v5) = cummaxR (whereT tcolR (validR (V (Proc.devRef .tc main_arg0))) 4294967295#32) := by
    rw [← hW3, s3_keep_main_v5 W2, h2_main_v5]
  have h3_main_v6 : W3 (Proc.devRef .tc main_v6) = whereT tcolR (validR (V (Proc.devRef .tc main_arg0))) 4096#32 := by
    rw [← hW3, s3_main_v6 W2, h2_main_v3, h2_main_v1]
  have h3_main_call3_v0 : W3 (Proc.devRef .tc main_call3_v0) = (broadcastInDim S_ ![] bcast_S_S_ (constantI S_ 32 2147483647#32)) := by
    rw [← hW3, s3_main_call3_v0 W2]
  generalize hW4 : after ops4 W3 = W4
  have h4_main_arg0 : W4 (Proc.devRef .tc main_arg0) = (V (Proc.devRef .tc main_arg0)) := by
    rw [← hW4, s4_keep_main_arg0 W3, h3_main_arg0]
  have h4_main_v1 : W4 (Proc.devRef .tc main_v1) = validR (V (Proc.devRef .tc main_arg0)) := by
    rw [← hW4, s4_keep_main_v1 W3, h3_main_v1]
  have h4_main_v3 : W4 (Proc.devRef .tc main_v3) = tcolR := by
    rw [← hW4, s4_keep_main_v3 W3, h3_main_v3]
  have h4_main_v5 : W4 (Proc.devRef .tc main_v5) = cummaxR (whereT tcolR (validR (V (Proc.devRef .tc main_arg0))) 4294967295#32) := by
    rw [← hW4, s4_keep_main_v5 W3, h3_main_v5]
  have h4_main_v7 : W4 (Proc.devRef .tc main_v7) = cumminR (whereT tcolR (validR (V (Proc.devRef .tc main_arg0))) 4096#32) := by
    rw [← hW4, s4_main_v7 W3, h3_main_v6, h3_main_call3_v0]
    rfl
  generalize hW5 : after ops5 W4 = W5
  have h5_main_arg0 : W5 (Proc.devRef .tc main_arg0) = (V (Proc.devRef .tc main_arg0)) := by
    rw [← hW5, s5_keep_main_arg0 W4, h4_main_arg0]
  have h5_main_v3 : W5 (Proc.devRef .tc main_v3) = tcolR := by
    rw [← hW5, s5_keep_main_v3 W4, h4_main_v3]
  have h5_main_v5 : W5 (Proc.devRef .tc main_v5) = cummaxR (whereT tcolR (validR (V (Proc.devRef .tc main_arg0))) 4294967295#32) := by
    rw [← hW5, s5_keep_main_v5 W4, h4_main_v5]
  have h5_main_v7 : W5 (Proc.devRef .tc main_v7) = cumminR (whereT tcolR (validR (V (Proc.devRef .tc main_arg0))) 4096#32) := by
    rw [← hW5, s5_keep_main_v7 W4, h4_main_v7]
  have h5_main_v14 : W5 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW5, s5_main_v14 W4, h4_main_v1, h4_main_v5, h4_main_v7]
  generalize hW6 : after ops6 W5 = W6
  have h6_main_arg0 : W6 (Proc.devRef .tc main_arg0) = (V (Proc.devRef .tc main_arg0)) := by
    rw [← hW6, s6_keep_main_arg0 W5, h5_main_arg0]
  have h6_main_v3 : W6 (Proc.devRef .tc main_v3) = tcolR := by
    rw [← hW6, s6_keep_main_v3 W5, h5_main_v3]
  have h6_main_v5 : W6 (Proc.devRef .tc main_v5) = cummaxR (whereT tcolR (validR (V (Proc.devRef .tc main_arg0))) 4294967295#32) := by
    rw [← hW6, s6_keep_main_v5 W5, h5_main_v5]
  have h6_main_v7 : W6 (Proc.devRef .tc main_v7) = cumminR (whereT tcolR (validR (V (Proc.devRef .tc main_arg0))) 4096#32) := by
    rw [← hW6, s6_keep_main_v7 W5, h5_main_v7]
  have h6_main_v14 : W6 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW6, s6_keep_main_v14 W5, h5_main_v14]
  have h6_main_v15 : W6 (Proc.devRef .tc main_v15) = clipR (cummaxR (whereT tcolR (validR (V (Proc.devRef .tc main_arg0))) 4294967295#32)) := by
    rw [← hW6, s6_main_v15 W5, h5_main_v5]
  generalize hW7 : after ops7 W6 = W7
  have h7_main_arg0 : W7 (Proc.devRef .tc main_arg0) = (V (Proc.devRef .tc main_arg0)) := by
    rw [← hW7, s7_keep_main_arg0 W6, h6_main_arg0]
  have h7_main_v3 : W7 (Proc.devRef .tc main_v3) = tcolR := by
    rw [← hW7, s7_keep_main_v3 W6, h6_main_v3]
  have h7_main_v5 : W7 (Proc.devRef .tc main_v5) = cummaxR (whereT tcolR (validR (V (Proc.devRef .tc main_arg0))) 4294967295#32) := by
    rw [← hW7, s7_keep_main_v5 W6, h6_main_v5]
  have h7_main_v7 : W7 (Proc.devRef .tc main_v7) = cumminR (whereT tcolR (validR (V (Proc.devRef .tc main_arg0))) 4096#32) := by
    rw [← hW7, s7_keep_main_v7 W6, h6_main_v7]
  have h7_main_v14 : W7 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW7, s7_keep_main_v14 W6, h6_main_v14]
  have h7_main_call5_v5 : W7 (Proc.devRef .tc main_call5_v5) = takeIdxR (clipR (cummaxR (whereT tcolR (validR (V (Proc.devRef .tc main_arg0))) 4294967295#32))) := by
    rw [← hW7, s7_main_call5_v5 W6, h6_main_v15]
  have h7_main_call5_v11 : W7 (Proc.devRef .tc main_call5_v11) = (andi (cmpi .sge (takeIdxR (clipR (cummaxR (whereT tcolR (validR (V (Proc.devRef .tc main_arg0))) 4294967295#32)))) (broadcastInDim S32x4096x256x1 ![] bcast_S_S32x4096x256x1 (constantI S_ 32 0#32))) (cmpi .sle (takeIdxR (clipR (cummaxR (whereT tcolR (validR (V (Proc.devRef .tc main_arg0))) 4294967295#32)))) (broadcastInDim S32x4096x256x1 ![0, 1, 2, 3] bcast_S1x1x1x1_S32x4096x256x1_0_1_2_3 (broadcastInDim S1x1x1x1 ![3] bcast_S1_S1x1x1x1_3 (constantI S1 32 4095#32)))) : IVec S32x4096x256x1 1) := by
    rw [← hW7, s7_main_call5_v11 W6, h6_main_v15]
  have h7_main_call5_c_3 : W7 (Proc.devRef .tc main_call5_c_3) = (constantI S_ 1 1#1 : IVec S_ 1) := by
    rw [← hW7, s7_main_call5_c_3 W6]
  generalize hW8 : after ops8 W7 = W8
  have h8_main_arg0 : W8 (Proc.devRef .tc main_arg0) = (V (Proc.devRef .tc main_arg0)) := by
    rw [← hW8, s8_keep_main_arg0 W7, h7_main_arg0]
  have h8_main_v3 : W8 (Proc.devRef .tc main_v3) = tcolR := by
    rw [← hW8, s8_keep_main_v3 W7, h7_main_v3]
  have h8_main_v5 : W8 (Proc.devRef .tc main_v5) = cummaxR (whereT tcolR (validR (V (Proc.devRef .tc main_arg0))) 4294967295#32) := by
    rw [← hW8, s8_keep_main_v5 W7, h7_main_v5]
  have h8_main_v7 : W8 (Proc.devRef .tc main_v7) = cumminR (whereT tcolR (validR (V (Proc.devRef .tc main_arg0))) 4096#32) := by
    rw [← hW8, s8_keep_main_v7 W7, h7_main_v7]
  have h8_main_v14 : W8 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW8, s8_keep_main_v14 W7, h7_main_v14]
  have h8_main_call5_v5 : W8 (Proc.devRef .tc main_call5_v5) = takeIdxR (clipR (cummaxR (whereT tcolR (validR (V (Proc.devRef .tc main_arg0))) 4294967295#32))) := by
    rw [← hW8, s8_keep_main_call5_v5 W7, h7_main_call5_v5]
  have h8_main_call5_v12 : W8 (Proc.devRef .tc main_call5_v12) = takeOkR (takeIdxR (clipR (cummaxR (whereT tcolR (validR (V (Proc.devRef .tc main_arg0))) 4294967295#32)))) := by
    rw [← hW8, s8_main_call5_v12 W7, h7_main_call5_v11, h7_main_call5_c_3]
    rfl
  generalize hW9 : after ops9 W8 = W9
  have h9_main_arg0 : W9 (Proc.devRef .tc main_arg0) = (V (Proc.devRef .tc main_arg0)) := by
    rw [← hW9, s9_keep_main_arg0 W8, h8_main_arg0]
  have h9_main_v3 : W9 (Proc.devRef .tc main_v3) = tcolR := by
    rw [← hW9, s9_keep_main_v3 W8, h8_main_v3]
  have h9_main_v5 : W9 (Proc.devRef .tc main_v5) = cummaxR (whereT tcolR (validR (V (Proc.devRef .tc main_arg0))) 4294967295#32) := by
    rw [← hW9, s9_keep_main_v5 W8, h8_main_v5]
  have h9_main_v7 : W9 (Proc.devRef .tc main_v7) = cumminR (whereT tcolR (validR (V (Proc.devRef .tc main_arg0))) 4096#32) := by
    rw [← hW9, s9_keep_main_v7 W8, h8_main_v7]
  have h9_main_v14 : W9 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW9, s9_keep_main_v14 W8, h8_main_v14]
  have h9_main_v16 : W9 (Proc.devRef .tc main_v16) = takeR (V (Proc.devRef .tc main_arg0)) (clipR (cummaxR (whereT tcolR (validR (V (Proc.devRef .tc main_arg0))) 4294967295#32))) := by
    rw [← hW9, s9_main_v16 W8, h8_main_call5_v12, h8_main_arg0, h8_main_call5_v5]
    rfl
  generalize hW10 : after ops10 W9 = W10
  have h10_main_arg0 : W10 (Proc.devRef .tc main_arg0) = (V (Proc.devRef .tc main_arg0)) := by
    rw [← hW10, s10_keep_main_arg0 W9, h9_main_arg0]
  have h10_main_v3 : W10 (Proc.devRef .tc main_v3) = tcolR := by
    rw [← hW10, s10_keep_main_v3 W9, h9_main_v3]
  have h10_main_v5 : W10 (Proc.devRef .tc main_v5) = cummaxR (whereT tcolR (validR (V (Proc.devRef .tc main_arg0))) 4294967295#32) := by
    rw [← hW10, s10_keep_main_v5 W9, h9_main_v5]
  have h10_main_v7 : W10 (Proc.devRef .tc main_v7) = cumminR (whereT tcolR (validR (V (Proc.devRef .tc main_arg0))) 4096#32) := by
    rw [← hW10, s10_keep_main_v7 W9, h9_main_v7]
  have h10_main_v14 : W10 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW10, s10_keep_main_v14 W9, h9_main_v14]
  have h10_main_v16 : W10 (Proc.devRef .tc main_v16) = takeR (V (Proc.devRef .tc main_arg0)) (clipR (cummaxR (whereT tcolR (validR (V (Proc.devRef .tc main_arg0))) 4294967295#32))) := by
    rw [← hW10, s10_keep_main_v16 W9, h9_main_v16]
  have h10_main_v17 : W10 (Proc.devRef .tc main_v17) = clipR (cumminR (whereT tcolR (validR (V (Proc.devRef .tc main_arg0))) 4096#32)) := by
    rw [← hW10, s10_main_v17 W9, h9_main_v7]
  generalize hW11 : after ops11 W10 = W11
  have h11_main_arg0 : W11 (Proc.devRef .tc main_arg0) = (V (Proc.devRef .tc main_arg0)) := by
    rw [← hW11, s11_keep_main_arg0 W10, h10_main_arg0]
  have h11_main_v3 : W11 (Proc.devRef .tc main_v3) = tcolR := by
    rw [← hW11, s11_keep_main_v3 W10, h10_main_v3]
  have h11_main_v5 : W11 (Proc.devRef .tc main_v5) = cummaxR (whereT tcolR (validR (V (Proc.devRef .tc main_arg0))) 4294967295#32) := by
    rw [← hW11, s11_keep_main_v5 W10, h10_main_v5]
  have h11_main_v7 : W11 (Proc.devRef .tc main_v7) = cumminR (whereT tcolR (validR (V (Proc.devRef .tc main_arg0))) 4096#32) := by
    rw [← hW11, s11_keep_main_v7 W10, h10_main_v7]
  have h11_main_v14 : W11 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW11, s11_keep_main_v14 W10, h10_main_v14]
  have h11_main_v16 : W11 (Proc.devRef .tc main_v16) = takeR (V (Proc.devRef .tc main_arg0)) (clipR (cummaxR (whereT tcolR (validR (V (Proc.devRef .tc main_arg0))) 4294967295#32))) := by
    rw [← hW11, s11_keep_main_v16 W10, h10_main_v16]
  have h11_main_call7_v5 : W11 (Proc.devRef .tc main_call7_v5) = takeIdxR (clipR (cumminR (whereT tcolR (validR (V (Proc.devRef .tc main_arg0))) 4096#32))) := by
    rw [← hW11, s11_main_call7_v5 W10, h10_main_v17]
  have h11_main_call7_v11 : W11 (Proc.devRef .tc main_call7_v11) = (andi (cmpi .sge (takeIdxR (clipR (cumminR (whereT tcolR (validR (V (Proc.devRef .tc main_arg0))) 4096#32)))) (broadcastInDim S32x4096x256x1 ![] bcast_S_S32x4096x256x1 (constantI S_ 32 0#32))) (cmpi .sle (takeIdxR (clipR (cumminR (whereT tcolR (validR (V (Proc.devRef .tc main_arg0))) 4096#32)))) (broadcastInDim S32x4096x256x1 ![0, 1, 2, 3] bcast_S1x1x1x1_S32x4096x256x1_0_1_2_3 (broadcastInDim S1x1x1x1 ![3] bcast_S1_S1x1x1x1_3 (constantI S1 32 4095#32)))) : IVec S32x4096x256x1 1) := by
    rw [← hW11, s11_main_call7_v11 W10, h10_main_v17]
  have h11_main_call7_c_3 : W11 (Proc.devRef .tc main_call7_c_3) = (constantI S_ 1 1#1 : IVec S_ 1) := by
    rw [← hW11, s11_main_call7_c_3 W10]
  generalize hW12 : after ops12 W11 = W12
  have h12_main_arg0 : W12 (Proc.devRef .tc main_arg0) = (V (Proc.devRef .tc main_arg0)) := by
    rw [← hW12, s12_keep_main_arg0 W11, h11_main_arg0]
  have h12_main_v3 : W12 (Proc.devRef .tc main_v3) = tcolR := by
    rw [← hW12, s12_keep_main_v3 W11, h11_main_v3]
  have h12_main_v5 : W12 (Proc.devRef .tc main_v5) = cummaxR (whereT tcolR (validR (V (Proc.devRef .tc main_arg0))) 4294967295#32) := by
    rw [← hW12, s12_keep_main_v5 W11, h11_main_v5]
  have h12_main_v7 : W12 (Proc.devRef .tc main_v7) = cumminR (whereT tcolR (validR (V (Proc.devRef .tc main_arg0))) 4096#32) := by
    rw [← hW12, s12_keep_main_v7 W11, h11_main_v7]
  have h12_main_v14 : W12 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW12, s12_keep_main_v14 W11, h11_main_v14]
  have h12_main_v16 : W12 (Proc.devRef .tc main_v16) = takeR (V (Proc.devRef .tc main_arg0)) (clipR (cummaxR (whereT tcolR (validR (V (Proc.devRef .tc main_arg0))) 4294967295#32))) := by
    rw [← hW12, s12_keep_main_v16 W11, h11_main_v16]
  have h12_main_call7_v5 : W12 (Proc.devRef .tc main_call7_v5) = takeIdxR (clipR (cumminR (whereT tcolR (validR (V (Proc.devRef .tc main_arg0))) 4096#32))) := by
    rw [← hW12, s12_keep_main_call7_v5 W11, h11_main_call7_v5]
  have h12_main_call7_v12 : W12 (Proc.devRef .tc main_call7_v12) = takeOkR (takeIdxR (clipR (cumminR (whereT tcolR (validR (V (Proc.devRef .tc main_arg0))) 4096#32)))) := by
    rw [← hW12, s12_main_call7_v12 W11, h11_main_call7_v11, h11_main_call7_c_3]
    rfl
  generalize hW13 : after ops13 W12 = W13
  have h13_main_arg0 : W13 (Proc.devRef .tc main_arg0) = (V (Proc.devRef .tc main_arg0)) := by
    rw [← hW13, s13_keep_main_arg0 W12, h12_main_arg0]
  have h13_main_v3 : W13 (Proc.devRef .tc main_v3) = tcolR := by
    rw [← hW13, s13_keep_main_v3 W12, h12_main_v3]
  have h13_main_v5 : W13 (Proc.devRef .tc main_v5) = cummaxR (whereT tcolR (validR (V (Proc.devRef .tc main_arg0))) 4294967295#32) := by
    rw [← hW13, s13_keep_main_v5 W12, h12_main_v5]
  have h13_main_v7 : W13 (Proc.devRef .tc main_v7) = cumminR (whereT tcolR (validR (V (Proc.devRef .tc main_arg0))) 4096#32) := by
    rw [← hW13, s13_keep_main_v7 W12, h12_main_v7]
  have h13_main_v14 : W13 (Proc.devRef .tc main_v14) = interiorR (validR (V (Proc.devRef .tc main_arg0))) (cummaxR (whereT tcolR (validR (V (Proc.devRef .tc main_arg0))) 4294967295#32)) (cumminR (whereT tcolR (validR (V (Proc.devRef .tc main_arg0))) 4096#32)) := by
    rw [← hW13, s13_keep_main_v14 W12, h12_main_v14]
  have h13_main_v16 : W13 (Proc.devRef .tc main_v16) = takeR (V (Proc.devRef .tc main_arg0)) (clipR (cummaxR (whereT tcolR (validR (V (Proc.devRef .tc main_arg0))) 4294967295#32))) := by
    rw [← hW13, s13_keep_main_v16 W12, h12_main_v16]
  have h13_main_v18 : W13 (Proc.devRef .tc main_v18) = takeR (V (Proc.devRef .tc main_arg0)) (clipR (cumminR (whereT tcolR (validR (V (Proc.devRef .tc main_arg0))) 4096#32))) := by
    rw [← hW13, s13_main_v18 W12, h12_main_call7_v12, h12_main_arg0, h12_main_call7_v5]
    rfl
  generalize hW14 : after ops14 W13 = W14
  have h14_main_arg0 : W14 (Proc.devRef .tc main_arg0) = (V (Proc.devRef .tc main_arg0)) := by
    rw [← hW14, s14_keep_main_arg0 W13, h13_main_arg0]
  have h14_main_v36 : W14 (Proc.devRef .tc main_v36) = tailR (V (Proc.devRef .tc main_arg0)) tcolR (cummaxR (whereT tcolR (validR (V (Proc.devRef .tc main_arg0))) 4294967295#32)) (cumminR (whereT tcolR (validR (V (Proc.devRef .tc main_arg0))) 4096#32)) (takeR (V (Proc.devRef .tc main_arg0)) (clipR (cummaxR (whereT tcolR (validR (V (Proc.devRef .tc main_arg0))) 4294967295#32)))) (takeR (V (Proc.devRef .tc main_arg0)) (clipR (cumminR (whereT tcolR (validR (V (Proc.devRef .tc main_arg0))) 4096#32)))) (interiorR (validR (V (Proc.devRef .tc main_arg0))) (cummaxR (whereT tcolR (validR (V (Proc.devRef .tc main_arg0))) 4294967295#32)) (cumminR (whereT tcolR (validR (V (Proc.devRef .tc main_arg0))) 4096#32))) := by
    rw [← hW14, s14_main_v36 W13, h13_main_arg0, h13_main_v3, h13_main_v5, h13_main_v7, h13_main_v16, h13_main_v18, h13_main_v14]
  exact ⟨h14_main_v36, h14_main_arg0⟩

/-- THE REFERENCE'S RUN: every weakly fair execution terminates with the result at `refFn` of the argument and the
    argument unchanged. -/
theorem refRun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = refFn (m ((c.tc : Thread nD τ).loc main_arg0))
      ∧ r.2.mem ((c.tc : Thread nD τ).loc main_arg0) = m ((c.tc : Thread nD τ).loc main_arg0) :=
  (θ_run defs _ _).mono (fun _ h c => ⟨(h c main_v36).trans (after_all _).1, (h c main_arg0).trans (after_all _).2⟩)
    (run_seq scopedRefs_eq scopedSems_eq defs main (fun _ => opsAll) main_eq (fun _ => opsAll_sub) m ρ)

end Cert.Impute

end
-- ==== Proof.lean ====
/-
  Linear interpolation over runs of zeros along the time axis of a [32, 4096, 256] array: the kernel against the reference.

  For every batch and feature the entries along time form a column.  At a position where the column is zero and a
  nonzero entry exists on both sides, both programs write the point of the straight line between the nearest nonzero
  entry before and the nearest one after; everywhere else they copy the column.  The reference finds the two
  neighbours by a running maximum and a running minimum of "position if nonzero" and looks the values up; the kernel
  finds positions and values together by a doubling scan of twelve masked rotations in each direction, on blocks of
  all 4096 time positions by 128 features.  Both pairs of neighbours are characterised as the last nonzero position
  at or before and the first at or after, which determines them; the arithmetic that follows is the same expression
  on both sides, so at exact arithmetic the two results are equal entry by entry, for every input (finiteness of the
  input is not needed).  The two kernel frames are the generated ones, the reference's run is read stretch by stretch; the idealisation
  rewrote nothing.
-/
import proofs.«100392_j29815662968983_1_alg».proof.Defs
import proofs.«100392_j29815662968983_1_alg».proof.Proof.Gen.Kernel
import proofs.«100392_j29815662968983_1_alg».proof.Proof.Gen.Kernel.Frame
import proofs.«100392_j29815662968983_1_alg».proof.Proof.Gen.KernelIdeal
import proofs.«100392_j29815662968983_1_alg».proof.Proof.Gen.KernelIdeal.Frame
import proofs.«100392_j29815662968983_1_alg».proof.Proof.Gen.ReferenceIdeal
import proofs.«100392_j29815662968983_1_alg».proof.Proof.Gen.Pre_finite_inputs
import proofs.«100392_j29815662968983_1_alg».proof.Proof.Gen.KernelIdeal.Value
import proofs.«100392_j29815662968983_1_alg».proof.Proof.Bridge
import proofs.«100392_j29815662968983_1_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.Impute.refRun (F := Ideal) m ρ)

/-- Both runs end with the result array at the same function of the (agreeing) argument arrays. -/
theorem algebraic : Cert.algebraic_KernelIdeal_ReferenceIdeal := by
  intro m ρ m' ρ' _ hagree
  refine ⟨fun c => Cert.Impute.G (m ((c.tc : Thread Cert.KernelIdeal.nD Cert.KernelIdeal.τ).loc Cert.KernelIdeal.main_arg0)),
    Cert.Impute.run m ρ, ?_⟩
  refine (θ_run Cert.ReferenceIdeal.defs _ _).mono (fun _ h c => ⟨?_, (h c).2⟩)
    (Cert.Impute.refRun (F := Ideal) m' ρ')
  rw [(h c).1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
